-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x7 : Shape := ⟨2, ![256, 7]⟩
abbrev S256x2 : Shape := ⟨2, ![256, 2]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x56x56 .f32) (main_arg1 : FVec F S256x7 .f32) (main_arg2 : FVec F S256x2 .f32) (main_arg3 : FVec F S256 .f32) (main_arg4 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x7 .f32 := Host.absf main_arg1
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x256x56x56 : Shape := ⟨4, ![32, 256, 56, 56]⟩
abbrev S256x7 : Shape := ⟨2, ![256, 7]⟩
abbrev S256x2 : Shape := ⟨2, ![256, 2]⟩
abbrev S256 : Shape := ⟨1, ![256]⟩
abbrev S256x1 : Shape := ⟨2, ![256, 1]⟩
abbrev S_ : Shape := ⟨0, ![]⟩
abbrev S256x6 : Shape := ⟨2, ![256, 6]⟩
abbrev S256x8 : Shape := ⟨2, ![256, 8]⟩
abbrev S256x1x1 : Shape := ⟨3, ![256, 1, 1]⟩
abbrev S8x256 : Shape := ⟨2, ![8, 256]⟩
abbrev S8x256x1x1 : Shape := ⟨4, ![8, 256, 1, 1]⟩
abbrev S1x128x56x56 : Shape := ⟨4, ![1, 128, 56, 56]⟩
abbrev S128x1x1 : Shape := ⟨3, ![128, 1, 1]⟩
abbrev S8x128x1x1 : Shape := ⟨4, ![8, 128, 1, 1]⟩
abbrev S128x56x56 : Shape := ⟨3, ![128, 56, 56]⟩
abbrev S1x128x1x1 : Shape := ⟨4, ![1, 128, 1, 1]⟩

abbrev nBuf : Space → Nat
  | .hbm => 38
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S256x2, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256x1, .f32⟩
  | .hbm, ⟨14, _⟩ => ⟨S256x6, .f32⟩
  | .hbm, ⟨15, _⟩ => ⟨S256x7, .f32⟩
  | .hbm, ⟨16, _⟩ => ⟨S256x7, .f32⟩
  | .hbm, ⟨17, _⟩ => ⟨S256x6, .f32⟩
  | .hbm, ⟨18, _⟩ => ⟨S256x1, .f32⟩
  | .hbm, ⟨19, _⟩ => ⟨S256x6, .f32⟩
  | .hbm, ⟨20, _⟩ => ⟨S256x6, .f32⟩
  | .hbm, ⟨21, _⟩ => ⟨S256x1, .f32⟩
  | .hbm, ⟨22, _⟩ => ⟨S256x1, .f32⟩
  | .hbm, ⟨23, _⟩ => ⟨S256x8, .f32⟩
  | .hbm, ⟨24, _⟩ => ⟨S256, .f32⟩
  | .hbm, ⟨25, _⟩ => ⟨S256x1, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256x1, .f32⟩
  | .hbm, ⟨30, _⟩ => ⟨S256x8, .f32⟩
  | .hbm, ⟨31, _⟩ => ⟨S256x1x1, .f32⟩
  | .hbm, ⟨32, _⟩ => ⟨S256x1x1, .f32⟩
  | .hbm, ⟨33, _⟩ => ⟨S8x256, .f32⟩
  | .hbm, ⟨34, _⟩ => ⟨S8x256x1x1, .f32⟩
  | .hbm, ⟨35, _⟩ => ⟨S8x256, .f32⟩
  | .hbm, ⟨36, _⟩ => ⟨S8x256x1x1, .f32⟩
  | .hbm, ⟨37, _⟩ => ⟨S32x256x56x56, .f32⟩
  | .local _ .vmem, ⟨0, _⟩ => ⟨S1x128x56x56, .f32⟩
  | .local _ .vmem, ⟨1, _⟩ => ⟨S1x128x56x56, .f32⟩
  | .local _ .vmem, ⟨2, _⟩ => ⟨S128x1x1, .f32⟩
  | .local _ .vmem, ⟨3, _⟩ => ⟨S128x1x1, .f32⟩
  | .local _ .vmem, ⟨4, _⟩ => ⟨S8x128x1x1, .f32⟩
  | .local _ .vmem, ⟨5, _⟩ => ⟨S8x128x1x1, .f32⟩
  | .local _ .vmem, ⟨6, _⟩ => ⟨S1x128x56x56, .f32⟩
  | .local _ .vmem, ⟨7, _⟩ => ⟨S1x128x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x128x56x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256 : S_.BroadcastsInDim S256 (![] : Fin 0 → Fin S256.rank)
  slices_S256x7_S256x1_0_6 : S256x7.Slices ![0, 6] S256x1
  slices_S256x7_S256x6_0_0 : S256x7.Slices ![0, 0] S256x6
  concatenates_S256x1_S256x6_S256x7_d1 : Shape.Concatenates [S256x1, S256x6] S256x7 1
  slices_S256x7_S256x6_0_1 : S256x7.Slices ![0, 1] S256x6
  bcast_S256_S256x1_0 : S256.BroadcastsInDim S256x1 (![0] : Fin 1 → Fin S256x1.rank)
  bcast_S256x1_S256x6_0_1 : S256x1.BroadcastsInDim S256x6 (![0, 1] : Fin 2 → Fin S256x6.rank)
  concatenates_S256x1_S256x6_S256x1_S256x8_d1 : Shape.Concatenates [S256x1, S256x6, S256x1] S256x8 1
  slices_S256x7_S256x1_0_0 : S256x7.Slices ![0, 0] S256x1
  concatenates_S256x1_S256x7_S256x8_d1 : Shape.Concatenates [S256x1, S256x7] S256x8 1
  shapeCasts_S256_S256x1x1 : S256.ShapeCasts S256x1x1
  transposes_S256x8_S8x256_1_0 : S256x8.Transposes [1, 0] S8x256
  shapeCasts_S8x256_S8x256x1x1 : S8x256.ShapeCasts S8x256x1x1
  inb_S1x128x56x56_S1x128x56x56_0_0_0_0 : ∀ a, (![0, 0, 0, 0] : Fin 4 → Nat) a + S1x128x56x56.size a ≤ S1x128x56x56.size a
  h_S1x128x56x56 : 0 < S1x128x56x56.numel
  shapeCasts_S1x128x56x56_S128x56x56 : S1x128x56x56.ShapeCasts S128x56x56
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  broadcasts_S128x1x1_S128x56x56 : S128x1x1.Broadcasts S128x56x56
  inb_S8x128x1x1_S1x128x1x1_0_0_0_0 : ∀ a, (![0, 0, 0, 0] : Fin 4 → Nat) a + S1x128x1x1.size a ≤ S8x128x1x1.size a
  h_S1x128x1x1 : 0 < S1x128x1x1.numel
  shapeCasts_S1x128x1x1_S128x1x1 : S1x128x1x1.ShapeCasts S128x1x1
  inb_S8x128x1x1_S1x128x1x1_1_0_0_0 : ∀ a, (![1, 0, 0, 0] : Fin 4 → Nat) a + S1x128x1x1.size a ≤ S8x128x1x1.size a
  inb_S8x128x1x1_S1x128x1x1_2_0_0_0 : ∀ a, (![2, 0, 0, 0] : Fin 4 → Nat) a + S1x128x1x1.size a ≤ S8x128x1x1.size a
  inb_S8x128x1x1_S1x128x1x1_3_0_0_0 : ∀ a, (![3, 0, 0, 0] : Fin 4 → Nat) a + S1x128x1x1.size a ≤ S8x128x1x1.size a
  inb_S8x128x1x1_S1x128x1x1_4_0_0_0 : ∀ a, (![4, 0, 0, 0] : Fin 4 → Nat) a + S1x128x1x1.size a ≤ S8x128x1x1.size a
  inb_S8x128x1x1_S1x128x1x1_5_0_0_0 : ∀ a, (![5, 0, 0, 0] : Fin 4 → Nat) a + S1x128x1x1.size a ≤ S8x128x1x1.size a
  inb_S8x128x1x1_S1x128x1x1_6_0_0_0 : ∀ a, (![6, 0, 0, 0] : Fin 4 → Nat) a + S1x128x1x1.size a ≤ S8x128x1x1.size a
  inb_S8x128x1x1_S1x128x1x1_7_0_0_0 : ∀ a, (![7, 0, 0, 0] : Fin 4 → Nat) a + S1x128x1x1.size a ≤ S8x128x1x1.size a
  shapeCasts_S128x56x56_S1x128x56x56 : S128x56x56.ShapeCasts S1x128x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x56x56.size a ≤ S32x256x56x56.size a
  hwx0_0 : ∀ i : grid0.Coords, EltTy.bits .f32 = 32 ∨ (Rect.block (s := S32x256x56x56) S1x128x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1x1.size a ≤ S256x1x1.size a
  hwx0_1 : ∀ i : grid0.Coords, EltTy.bits .f32 = 32 ∨ (Rect.block (s := S256x1x1) S128x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1x1.size a ≤ S256x1x1.size a
  hwx0_2 : ∀ i : grid0.Coords, EltTy.bits .f32 = 32 ∨ (Rect.block (s := S256x1x1) S128x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128x1x1.size a ≤ S8x256x1x1.size a
  hwx0_3 : ∀ i : grid0.Coords, EltTy.bits .f32 = 32 ∨ (Rect.block (s := S8x256x1x1) S8x128x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128x1x1.size a ≤ S8x256x1x1.size a
  hwx0_4 : ∀ i : grid0.Coords, EltTy.bits .f32 = 32 ∨ (Rect.block (s := S8x256x1x1) S8x128x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x56x56.size a ≤ S32x256x56x56.size a
  hwx0_5 : ∀ i : grid0.Coords, EltTy.bits .f32 = 32 ∨ (Rect.block (s := S32x256x56x56) S1x128x56x56.size (cc0_transform_5 i) (hinb0_5 i)).WholeWords (EltTy.packing .f32)

variable [Facts₀]

abbrev win0_0 : Pipeline.Window sig grid0 :=
  Pipeline.Window.ofSpec (Memref.whole main_arg0) S1x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S8x128x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S8x128x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128x56x56.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x7 : Shape := ⟨2, ![256, 7]⟩
abbrev S256x2 : Shape := ⟨2, ![256, 2]⟩
abbrev S256 : Shape := ⟨1, ![256]⟩
abbrev S256x1 : Shape := ⟨2, ![256, 1]⟩
abbrev S_ : Shape := ⟨0, ![]⟩
abbrev S256x6 : Shape := ⟨2, ![256, 6]⟩
abbrev S256x8 : Shape := ⟨2, ![256, 8]⟩
abbrev S32x56x56x256 : Shape := ⟨4, ![32, 56, 56, 256]⟩
abbrev S1x1x1x256 : Shape := ⟨4, ![1, 1, 1, 256]⟩
abbrev S256x32x56x56 : Shape := ⟨4, ![256, 32, 56, 56]⟩
abbrev S256x1x1x1 : Shape := ⟨4, ![256, 1, 1, 1]⟩
abbrev S256x100352 : Shape := ⟨2, ![256, 100352]⟩
abbrev S256x100352x1 : Shape := ⟨3, ![256, 100352, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S256x2, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256x1, .f32⟩
  | .hbm, ⟨14, _⟩ => ⟨S256x6, .f32⟩
  | .hbm, ⟨15, _⟩ => ⟨S256x7, .f32⟩
  | .hbm, ⟨16, _⟩ => ⟨S256x7, .f32⟩
  | .hbm, ⟨17, _⟩ => ⟨S256x6, .f32⟩
  | .hbm, ⟨18, _⟩ => ⟨S256x1, .f32⟩
  | .hbm, ⟨19, _⟩ => ⟨S256x6, .f32⟩
  | .hbm, ⟨20, _⟩ => ⟨S256x6, .f32⟩
  | .hbm, ⟨21, _⟩ => ⟨S256x1, .f32⟩
  | .hbm, ⟨22, _⟩ => ⟨S256x1, .f32⟩
  | .hbm, ⟨23, _⟩ => ⟨S256x8, .f32⟩
  | .hbm, ⟨24, _⟩ => ⟨S256, .f32⟩
  | .hbm, ⟨25, _⟩ => ⟨S32x56x56x256, .f32⟩
  | .hbm, ⟨26, _⟩ => ⟨S1x1x1x256, .f32⟩
  | .hbm, ⟨27, _⟩ => ⟨S32x56x56x256, .f32⟩
  | .hbm, ⟨28, _⟩ => ⟨S32x56x56x256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x1x1x256, .f32⟩
  | .hbm, ⟨33, _⟩ => ⟨S32x56x56x256, .f32⟩
  | .hbm, ⟨34, _⟩ => ⟨S32x56x56x256, .f32⟩
  | .hbm, ⟨35, _⟩ => ⟨S256x32x56x56, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S256x32x56x56, .f32⟩
  | .hbm, ⟨40, _⟩ => ⟨S256x32x56x56, .f32⟩
  | .hbm, ⟨41, _⟩ => ⟨S_, .f32⟩
  | .hbm, ⟨42, _⟩ => ⟨S256x32x56x56, .f32⟩
  | .hbm, ⟨43, _⟩ => ⟨S256x32x56x56, .f32⟩
  | .hbm, ⟨44, _⟩ => ⟨S_, .f32⟩
  | .hbm, ⟨45, _⟩ => ⟨S256x32x56x56, .f32⟩
  | .hbm, ⟨46, _⟩ => ⟨S256x32x56x56, .f32⟩
  | .hbm, ⟨47, _⟩ => ⟨S256x32x56x56, .f32⟩
  | .hbm, ⟨48, _⟩ => ⟨S_, .f32⟩
  | .hbm, ⟨49, _⟩ => ⟨S256x32x56x56, .f32⟩
  | .hbm, ⟨50, _⟩ => ⟨S256x32x56x56, .f32⟩
  | .hbm, ⟨51, _⟩ => ⟨S256x32x56x56, .f32⟩
  | .hbm, ⟨52, _⟩ => ⟨S256x1x1x1, .f32⟩
  | .hbm, ⟨53, _⟩ => ⟨S256x32x56x56, .f32⟩
  | .hbm, ⟨54, _⟩ => ⟨S256x32x56x56, .f32⟩
  | .hbm, ⟨55, _⟩ => ⟨S256x32x56x56, .i32⟩
  | .hbm, ⟨56, _⟩ => ⟨S256x100352, .i32⟩
  | .hbm, ⟨57, _⟩ => ⟨S256x1, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256x1, .f32⟩
  | .hbm, ⟨62, _⟩ => ⟨S256x8, .f32⟩
  | .hbm, ⟨63, _⟩ => ⟨S_, .i32⟩
  | .hbm, ⟨64, _⟩ => ⟨S256x100352, .i32⟩
  | .hbm, ⟨65, _⟩ => ⟨S256x100352, .i1⟩
  | .hbm, ⟨66, _⟩ => ⟨S_, .i32⟩
  | .hbm, ⟨67, _⟩ => ⟨S256x100352, .i32⟩
  | .hbm, ⟨68, _⟩ => ⟨S256x100352, .i32⟩
  | .hbm, ⟨69, _⟩ => ⟨S256x100352, .i32⟩
  | .hbm, ⟨70, _⟩ => ⟨S256x100352x1, .i32⟩
  | .hbm, ⟨71, _⟩ => ⟨S1, .i32⟩
  | .hbm, ⟨72, _⟩ => ⟨S_, .i32⟩
  | .hbm, ⟨73, _⟩ => ⟨S256x100352x1, .i32⟩
  | .hbm, ⟨74, _⟩ => ⟨S256x100352x1, .i1⟩
  | .hbm, ⟨75, _⟩ => ⟨S1x1x1, .i32⟩
  | .hbm, ⟨76, _⟩ => ⟨S256x100352x1, .i32⟩
  | .hbm, ⟨77, _⟩ => ⟨S256x100352x1, .i1⟩
  | .hbm, ⟨78, _⟩ => ⟨S256x100352x1, .i1⟩
  | .hbm, ⟨79, _⟩ => ⟨S_, .i1⟩
  | .hbm, ⟨80, _⟩ => ⟨S256x100352, .i1⟩
  | .hbm, ⟨81, _⟩ => ⟨S256x100352, .f32⟩
  | .hbm, ⟨82, _⟩ => ⟨S_, .f32⟩
  | .hbm, ⟨83, _⟩ => ⟨S256x100352, .f32⟩
  | .hbm, ⟨84, _⟩ => ⟨S256x100352, .f32⟩
  | .hbm, ⟨85, _⟩ => ⟨S256x32x56x56, .f32⟩
  | .hbm, ⟨86, _⟩ => ⟨S_, .i32⟩
  | .hbm, ⟨87, _⟩ => ⟨S256x100352, .i32⟩
  | .hbm, ⟨88, _⟩ => ⟨S256x100352, .i1⟩
  | .hbm, ⟨89, _⟩ => ⟨S_, .i32⟩
  | .hbm, ⟨90, _⟩ => ⟨S256x100352, .i32⟩
  | .hbm, ⟨91, _⟩ => ⟨S256x100352, .i32⟩
  | .hbm, ⟨92, _⟩ => ⟨S256x100352, .i32⟩
  | .hbm, ⟨93, _⟩ => ⟨S256x100352x1, .i32⟩
  | .hbm, ⟨94, _⟩ => ⟨S1, .i32⟩
  | .hbm, ⟨95, _⟩ => ⟨S_, .i32⟩
  | .hbm, ⟨96, _⟩ => ⟨S256x100352x1, .i32⟩
  | .hbm, ⟨97, _⟩ => ⟨S256x100352x1, .i1⟩
  | .hbm, ⟨98, _⟩ => ⟨S1x1x1, .i32⟩
  | .hbm, ⟨99, _⟩ => ⟨S256x100352x1, .i32⟩
  | .hbm, ⟨100, _⟩ => ⟨S256x100352x1, .i1⟩
  | .hbm, ⟨101, _⟩ => ⟨S256x100352x1, .i1⟩
  | .hbm, ⟨102, _⟩ => ⟨S_, .i1⟩
  | .hbm, ⟨103, _⟩ => ⟨S256x100352, .i1⟩
  | .hbm, ⟨104, _⟩ => ⟨S256x100352, .f32⟩
  | .hbm, ⟨105, _⟩ => ⟨S_, .f32⟩
  | .hbm, ⟨106, _⟩ => ⟨S256x100352, .f32⟩
  | .hbm, ⟨107, _⟩ => ⟨S256x100352, .f32⟩
  | .hbm, ⟨108, _⟩ => ⟨S256x32x56x56, .f32⟩
  | .hbm, ⟨109, _⟩ => ⟨S256x32x56x56, .f32⟩
  | .hbm, ⟨110, _⟩ => ⟨S256x32x56x56, .f32⟩
  | .hbm, ⟨111, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v45 : Ref sig .tc := ⟨.hbm, 84, rfl⟩
abbrev main_v46 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256 : S_.BroadcastsInDim S256 (![] : Fin 0 → Fin S256.rank)
  slices_S256x7_S256x1_0_6 : S256x7.Slices ![0, 6] S256x1
  slices_S256x7_S256x6_0_0 : S256x7.Slices ![0, 0] S256x6
  concatenates_S256x1_S256x6_S256x7_d1 : Shape.Concatenates [S256x1, S256x6] S256x7 1
  slices_S256x7_S256x6_0_1 : S256x7.Slices ![0, 1] S256x6
  bcast_S256_S256x1_0 : S256.BroadcastsInDim S256x1 (![0] : Fin 1 → Fin S256x1.rank)
  bcast_S256x1_S256x6_0_1 : S256x1.BroadcastsInDim S256x6 (![0, 1] : Fin 2 → Fin S256x6.rank)
  concatenates_S256x1_S256x6_S256x1_S256x8_d1 : Shape.Concatenates [S256x1, S256x6, S256x1] S256x8 1
  transposes_S32x256x56x56_S32x56x56x256_0_2_3_1 : S32x256x56x56.Transposes [0, 2, 3, 1] S32x56x56x256
  bcast_S256_S1x1x1x256_3 : S256.BroadcastsInDim S1x1x1x256 (![3] : Fin 1 → Fin S1x1x1x256.rank)
  bcast_S1x1x1x256_S32x56x56x256_0_1_2_3 : S1x1x1x256.BroadcastsInDim S32x56x56x256 (![0, 1, 2, 3] : Fin 4 → Fin S32x56x56x256.rank)
  transposes_S32x56x56x256_S256x32x56x56_3_0_1_2 : S32x56x56x256.Transposes [3, 0, 1, 2] S256x32x56x56
  bcast_S_S256x32x56x56 : S_.BroadcastsInDim S256x32x56x56 (![] : Fin 0 → Fin S256x32x56x56.rank)
  shapeCasts_S256_S256x1x1x1 : S256.ShapeCasts S256x1x1x1
  bcast_S256x1x1x1_S256x32x56x56_0_1_2_3 : S256x1x1x1.BroadcastsInDim S256x32x56x56 (![0, 1, 2, 3] : Fin 4 → Fin S256x32x56x56.rank)
  shapeCasts_S256x32x56x56_S256x100352 : S256x32x56x56.ShapeCasts S256x100352
  slices_S256x7_S256x1_0_0 : S256x7.Slices ![0, 0] S256x1
  concatenates_S256x1_S256x7_S256x8_d1 : Shape.Concatenates [S256x1, S256x7] S256x8 1
  bcast_S_S256x100352 : S_.BroadcastsInDim S256x100352 (![] : Fin 0 → Fin S256x100352.rank)
  shapeCasts_S256x100352_S256x100352x1 : S256x100352.ShapeCasts S256x100352x1
  bcast_S_S256x100352x1 : S_.BroadcastsInDim S256x100352x1 (![] : Fin 0 → Fin S256x100352x1.rank)
  bcast_S1_S1x1x1_2 : S1.BroadcastsInDim S1x1x1 (![2] : Fin 1 → Fin S1x1x1.rank)
  bcast_S1x1x1_S256x100352x1_0_1_2 : S1x1x1.BroadcastsInDim S256x100352x1 (![0, 1, 2] : Fin 3 → Fin S256x100352x1.rank)
  reducesTo_S256x100352x1_S256x100352_d2 : S256x100352x1.ReducesTo [2] S256x100352
  h_S_ : 0 < S_.numel
  shapeCasts_S256x100352_S256x32x56x56 : S256x100352.ShapeCasts S256x32x56x56
  transposes_S256x32x56x56_S32x256x56x56_1_0_2_3 : S256x32x56x56.Transposes [1, 0, 2, 3] S32x256x56x56
  gather_S256x8_S256x100352x1_S256x100352_n_1_0_0_1_2_11_wf : GatherDims.WF S256x8 S256x100352x1 S256x100352 [] [1] [0] [1] [0] 2 ![1, 1]

variable [Facts₀]

def gather_S256x8_S256x100352x1_S256x100352_n_1_0_0_1_2_11 : GatherDims S256x8 S256x100352x1 S256x100352 where
  offsetDims := []
  collapsedSliceDims := [1]
  operandBatchingDims := [0]
  startIndicesBatchingDims := [0]
  startIndexMap := [1]
  indexVectorDim := 2
  sliceSizes := ![1, 1]
  wf := gather_S256x8_S256x100352x1_S256x100352_n_1_0_0_1_2_11_wf

class Facts : Prop extends Facts₀ where

variable [Facts]
-- ==== Proof.KernelFrame.lean ====
/-
  The frame of the piecewise-linear unit's kernel: from the launch memory, the host lines prepare the per-channel
  tables (the region length, the shifted left bound, the eight left points and the eight slopes, laid out
  [8, 256, 1, 1]), and one kernel launch over the grid (2 channel chunks) x (32 images) rewrites each block
  [1, 128, 56, 56] of the result from the matching block of the input and the chunk's rows of the four tables.
  Every block of the result is ONE function of the five input blocks at that grid point (`blockValue`), the
  body reads its inputs through whole-block rectangles and eight row rectangles of each table, and its single
  store covers the output block; so every point leaves the input buffers as found and the argument arrays are
  never written.
-/
import proofs.«114911_j23742579212531_2_alg».proof.Proof.Gen.Kernel.Launch
import proofs.«114911_j23742579212531_2_alg».proof.Proof.Gen.Kernel.Skeleton
import proofs.«114911_j23742579212531_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What core `c`'s buffers hold when the kernel is launched: the launch memory after the three stretches of
    host lines (the region length; the rolled points; the slope and point tables and their transposes). -/
abbrev atLaunch (c : Dev nD) (b : Ref sig .tc) : Buf (Elt F) ((c : Thread nD τ).loc b) :=
  StableHlo.after (List.flatten [hostOps0, hostOps0_1, hostOps0_2]) (fun b => m (c, b)) b

theorem lengthLines_fresh : (hostOps0 : List (HloOp τ sig (Elt F))).Forall fun op => op.fresh = ∅ := by
  simp only [List.Forall]; repeat' constructor
theorem rollLines_fresh : (hostOps0_1 : List (HloOp τ sig (Elt F))).Forall fun op => op.fresh = ∅ := by
  simp only [List.Forall]; repeat' constructor
theorem tableLines_fresh : (hostOps0_2 : List (HloOp τ sig (Elt F))).Forall fun op => op.fresh = ∅ := by
  simp only [List.Forall]; repeat' constructor

/-- The entry point is its three stretches of host lines followed by the one launch. -/
theorem main_to_launch (𝒱₀ : Variants) :
    Pipeline.HMain (Ix := Unit) (Name := ℕ) (U := UR sig nD τ) (Lvl := ℕ) cfgs 0 defs₀ 𝒱₀ m (main (F := F)) (atLaunch m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨lengthLines_fresh, rollLines_fresh, tableLines_fresh⟩) main_chain

/-- No host line writes argument 0: the launch finds it as it was. -/
theorem atLaunch_arg0 (c : Dev nD) : atLaunch m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 1: the launch finds it as it was. -/
theorem atLaunch_arg1 (c : Dev nD) : atLaunch m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 2: the launch finds it as it was. -/
theorem atLaunch_arg2 (c : Dev nD) : atLaunch m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 3: the launch finds it as it was. -/
theorem atLaunch_arg3 (c : Dev nD) : atLaunch m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 4: the launch finds it as it was. -/
theorem atLaunch_arg4 (c : Dev nD) : atLaunch m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at grid point `t`, read off the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atLaunch m c (Pipeline.arrRef spec0 w))

/-- Input window 0's buffer holds the window's block at every point, whether or not the pipeline fetched it
    there: where it did not, the block index has not moved since the point that did. -/
theorem held0_of {c : Dev nD} (dat : Dat τ (Elt F) Unit ℕ (UR sig nD τ) ℕ cfg0 c) (hA : dat.A 0 = atLaunch m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's buffer holds the window's block at every point, whether or not the pipeline fetched it
    there: where it did not, the block index has not moved since the point that did. -/
theorem held1_of {c : Dev nD} (dat : Dat τ (Elt F) Unit ℕ (UR sig nD τ) ℕ cfg0 c) (hA : dat.A 1 = atLaunch m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's buffer holds the window's block at every point, whether or not the pipeline fetched it
    there: where it did not, the block index has not moved since the point that did. -/
theorem held2_of {c : Dev nD} (dat : Dat τ (Elt F) Unit ℕ (UR sig nD τ) ℕ cfg0 c) (hA : dat.A 2 = atLaunch m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's buffer holds the window's block at every point, whether or not the pipeline fetched it
    there: where it did not, the block index has not moved since the point that did. -/
theorem held3_of {c : Dev nD} (dat : Dat τ (Elt F) Unit ℕ (UR sig nD τ) ℕ cfg0 c) (hA : dat.A 3 = atLaunch m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's buffer holds the window's block at every point, whether or not the pipeline fetched it
    there: where it did not, the block index has not moved since the point that did. -/
theorem held4_of {c : Dev nD} (dat : Dat τ (Elt F) Unit ℕ (UR sig nD τ) ℕ cfg0 c) (hA : dat.A 4 = atLaunch m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- A run that ends with every window's array at what the write-backs make of it, and every other buffer as the
    launch found it, ends with the five argument arrays as they were: the input is the first window's array
    and is only read; the other four are staged by no window and written by no host line. -/
theorem args_kept_of (dats : (p : Fin 1) → (c : Dev nD) → Dat τ (Elt F) Unit ℕ (UR sig nD τ) ℕ (cfgs p) c)
    (hA : ∀ c w, (dats 0 c).A w = atLaunch m c (Pipeline.arrRef spec0 w))
    (h : θ_run defs (onTc (τ := τ) (main (F := F))) (s₀ m ρ) (Pipeline.FramePost cfgs dats 0 (atLaunch m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (atLaunch_arg0 m c))),
      ((h c).2 main_arg1 (Pipeline.mem_restRefs_of main_arg1 (by decide) (by decide))).trans (atLaunch_arg1 m c),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c)⟩) h

/-! ## What the body reads and what it stores -/

/-- The whole block of the input (and of the result). -/
abbrev wholeImage : Rect S1x128x56x56 := Rect.unit (s := S1x128x56x56) ![0, 0, 0, 0] S1x128x56x56.size inb_S1x128x56x56_S1x128x56x56_0_0_0_0
/-- The whole block of a per-channel column (the region lengths, the shifted left bounds). -/
abbrev wholeColumn : Rect S128x1x1 := Rect.unit (s := S128x1x1) ![0, 0, 0] S128x1x1.size inb_S128x1x1_S128x1x1_0_0_0
/-- Row `k` of a table block [8, 128, 1, 1]: the table's entry for region `k`, channel by channel. -/
abbrev row0 : Rect S8x128x1x1 := Rect.unit (s := S8x128x1x1) ![0, 0, 0, 0] S1x128x1x1.size inb_S8x128x1x1_S1x128x1x1_0_0_0_0
abbrev row1 : Rect S8x128x1x1 := Rect.unit (s := S8x128x1x1) ![1, 0, 0, 0] S1x128x1x1.size inb_S8x128x1x1_S1x128x1x1_1_0_0_0
abbrev row2 : Rect S8x128x1x1 := Rect.unit (s := S8x128x1x1) ![2, 0, 0, 0] S1x128x1x1.size inb_S8x128x1x1_S1x128x1x1_2_0_0_0
abbrev row3 : Rect S8x128x1x1 := Rect.unit (s := S8x128x1x1) ![3, 0, 0, 0] S1x128x1x1.size inb_S8x128x1x1_S1x128x1x1_3_0_0_0
abbrev row4 : Rect S8x128x1x1 := Rect.unit (s := S8x128x1x1) ![4, 0, 0, 0] S1x128x1x1.size inb_S8x128x1x1_S1x128x1x1_4_0_0_0
abbrev row5 : Rect S8x128x1x1 := Rect.unit (s := S8x128x1x1) ![5, 0, 0, 0] S1x128x1x1.size inb_S8x128x1x1_S1x128x1x1_5_0_0_0
abbrev row6 : Rect S8x128x1x1 := Rect.unit (s := S8x128x1x1) ![6, 0, 0, 0] S1x128x1x1.size inb_S8x128x1x1_S1x128x1x1_6_0_0_0
abbrev row7 : Rect S8x128x1x1 := Rect.unit (s := S8x128x1x1) ![7, 0, 0, 0] S1x128x1x1.size inb_S8x128x1x1_S1x128x1x1_7_0_0_0

/-- The value the body stores, from what it loaded: the input block `x`, the region lengths `len`, the shifted left
    bounds `lo`, and the eight rows `p k` of the left points and `s k` of the slopes. The region index is
    computed once (`k0_pay5`), the offset inside the region once (`k0_pay6`); the left point and the slope
    are then chosen by eight selects, one per region, starting from zero. -/
def stored (x : Vec F S1x128x56x56 .f32) (len lo : Vec F S128x1x1 .f32)
    (p0 s0 p1 s1 p2 s2 p3 s3 p4 s4 p5 s5 p6 s6 p7 s7 : Vec F S1x128x1x1 .f32) : FVec F S1x128x56x56 .f32 :=
  k0_pay1 (k0_pay5 x len lo) (k0_pay6 x len lo)
    (k0_pay19 (k0_pay5 x len lo) (k0_pay13 (k0_pay5 x len lo) (k0_pay7 (F := F)) (k0_pay9 x len lo) (k0_pay10 p0) p1 p2) (k0_pay15 (k0_pay5 x len lo)) (k0_pay16 p3) p4 p5)
    (k0_pay20 (k0_pay5 x len lo) (k0_pay14 (k0_pay5 x len lo) (k0_pay8 (F := F)) (k0_pay9 x len lo) s0 s1 s2) (k0_pay15 (k0_pay5 x len lo)) s3 s4 s5)
    (k0_pay21 (k0_pay5 x len lo)) p6 s6 p7 s7

/-- The result window's buffer after the body, from the five input blocks: the one store, over the whole block. -/
def blockValue (x : Vec F S1x128x56x56 .f32) (len lo : Vec F S128x1x1 .f32) (pts sls : Vec F S8x128x1x1 .f32) : Vec F S1x128x56x56 .f32 :=
  View.canon [⟨wholeImage, stored (View.ld x wholeImage) (View.ld len wholeColumn) (View.ld lo wholeColumn)
    (View.ld pts row0) (View.ld sls row0) (View.ld pts row1) (View.ld sls row1) (View.ld pts row2) (View.ld sls row2) (View.ld pts row3) (View.ld sls row3)
    (View.ld pts row4) (View.ld sls row4) (View.ld pts row5) (View.ld sls row5) (View.ld pts row6) (View.ld sls row6) (View.ld pts row7) (View.ld sls row7)⟩]

/-- The one store covers the block. -/
theorem store_covers (p0 : Vec F S1x128x56x56 .f32) (y : S1x128x56x56.Idx) :
    ∃ pc ∈ ([⟨wholeImage, p0⟩] : List (View.Piece (Elt F) S1x128x56x56 .f32)), y ∈ pc.1.set :=
  View.cover_of_tiled [⟨wholeImage, p0⟩] S1x128x56x56.size (by rfl) y

/-! ## The body's triple -/

set_option maxHeartbeats 4000000 in
/-- The body, on whole buffers holding the five input blocks and an output buffer holding anything, runs to the end
    leaving the inputs as they were and the output at `blockValue` of the inputs. -/
theorem body_runs (c : Dev nD) (E : Set ℕ) (i : grid0.Coords)
    (arg2 : Memref sig .tc .vmem S1x128x56x56 .f32) (harg2 : arg2.IsWhole) (arg3 : Memref sig .tc .vmem S128x1x1 .f32) (harg3 : arg3.IsWhole)
    (arg4 : Memref sig .tc .vmem S128x1x1 .f32) (harg4 : arg4.IsWhole) (arg5 : Memref sig .tc .vmem S8x128x1x1 .f32) (harg5 : arg5.IsWhole)
    (arg6 : Memref sig .tc .vmem S8x128x1x1 .f32) (harg6 : arg6.IsWhole) (arg7 : Memref sig .tc .vmem S1x128x56x56 .f32) (harg7 : arg7.IsWhole)
    (x : Vec F S1x128x56x56 .f32) (len lo : Vec F S128x1x1 .f32) (pts sls : Vec F S8x128x1x1 .f32) (K : PUnit → sProp 𝕄) :
    iprop(owns (c : Thread nD τ) arg2 fullShare x ∗ owns (c : Thread nD τ) arg3 fullShare len ∗ owns (c : Thread nD τ) arg4 fullShare lo
        ∗ owns (c : Thread nD τ) arg5 fullShare pts ∗ owns (c : Thread nD τ) arg6 fullShare sls ∗ (∃ d, owns (c : Thread nD τ) arg7 fullShare d)
        ∗ (iprop(owns (c : Thread nD τ) arg2 fullShare x ∗ owns (c : Thread nD τ) arg3 fullShare len ∗ owns (c : Thread nD τ) arg4 fullShare lo
            ∗ owns (c : Thread nD τ) arg5 fullShare pts ∗ owns (c : Thread nD τ) arg6 fullShare sls
            ∗ owns (c : Thread nD τ) arg7 fullShare (blockValue x len lo pts sls)) -∗ K ⟨⟩))
      ⊢ wp frame (wpE (defs₀ (F := F)) Variants.none c none) E (cc0__pwlu_kernel i arg2 harg2 arg3 harg3 arg4 harg4 arg5 harg5 arg6 harg6 arg7 harg7) K := by
  simp only [cc0__pwlu_kernel_eq_skeleton]; unfold cc0__pwlu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data of the launch -/

/-- At every grid point the body leaves each input buffer at its block and the result's buffer at `blockValue` of
    the five input blocks there; nothing else is touched, nothing is owed, every share is whole. -/
def data (_ : Fin 1) (c : Dev nD) : Dat τ (Elt F) Unit ℕ (UR sig nD τ) ℕ cfg0 c where
  A w := atLaunch m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockValue (blockAt m c 0 t) (blockAt m c 1 t) (blockAt m c 2 t) (blockAt m c 3 t) (blockAt m c 4 t)
  Φ _ := Pipeline.ΦA spec0 c
  q _ := fullShare
  owed _ := 0

theorem data_A (c : Dev nD) (w : Fin cfg0.W) : (data m 0 c).A w = atLaunch m c (Pipeline.arrRef spec0 w) := by
  dsimp only [data]

theorem after_x (c : Dev nD) (t : Fin cfg0.N) : (data m 0 c).after 0 t = blockAt m c 0 t := by dsimp only [data]
theorem after_len (c : Dev nD) (t : Fin cfg0.N) : (data m 0 c).after 1 t = blockAt m c 1 t := by dsimp only [data]
theorem after_lo (c : Dev nD) (t : Fin cfg0.N) : (data m 0 c).after 2 t = blockAt m c 2 t := by dsimp only [data]
theorem after_pts (c : Dev nD) (t : Fin cfg0.N) : (data m 0 c).after 3 t = blockAt m c 3 t := by dsimp only [data]
theorem after_sls (c : Dev nD) (t : Fin cfg0.N) : (data m 0 c).after 4 t = blockAt m c 4 t := by dsimp only [data]
theorem after_out (c : Dev nD) (t : Fin cfg0.N) : (data m 0 c).after 5 t
    = blockValue (blockAt m c 0 t) (blockAt m c 1 t) (blockAt m c 2 t) (blockAt m c 3 t) (blockAt m c 4 t) := by dsimp only [data]

theorem held_x (c : Dev nD) (t : Fin cfg0.N) (d) : (data m 0 c).before 0 t d = blockAt m c 0 t :=
  held0_of m (data m 0 c) (data_A m c 0) (after_x m c) t d
theorem held_len (c : Dev nD) (t : Fin cfg0.N) (d) : (data m 0 c).before 1 t d = blockAt m c 1 t :=
  held1_of m (data m 0 c) (data_A m c 1) (after_len m c) t d
theorem held_lo (c : Dev nD) (t : Fin cfg0.N) (d) : (data m 0 c).before 2 t d = blockAt m c 2 t :=
  held2_of m (data m 0 c) (data_A m c 2) (after_lo m c) t d
theorem held_pts (c : Dev nD) (t : Fin cfg0.N) (d) : (data m 0 c).before 3 t d = blockAt m c 3 t :=
  held3_of m (data m 0 c) (data_A m c 3) (after_pts m c) t d
theorem held_sls (c : Dev nD) (t : Fin cfg0.N) (d) : (data m 0 c).before 4 t d = blockAt m c 4 t :=
  held4_of m (data m 0 c) (data_A m c 4) (after_sls m c) t d

/-! ## The body at a grid point -/

/-- What the pipeline hands the body at point `t`, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- At any point the input buffers hold their blocks, so the body's triple applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [held_x, held_len, held_lo, held_pts, held_sls]
  rw [show (data m 0 c).Φ t.succ = (data m 0 c).Φ t.castSucc from rfl,
    show (data m 0 c).owesAt () t.succ = (data m 0 c).owesAt () t.castSucc from rfl,
    after_x, after_len, after_lo, after_pts, after_sls, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_everywhere (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- Every weakly fair execution of the entry point terminates without a fault; at the end every window's array is
    what the write-backs of `data` make of it, and every other buffer is as the launch found it. -/
theorem run : θ_run defs (onTc (τ := τ) (main (F := F))) (s₀ m ρ) (Pipeline.FramePost cfgs (data m) 0 (atLaunch m)) :=
  Pipeline.θ_run_frame cfgs (data m) (0 : Fin 1) launch0 defs₀ Variants.none m ρ main
    (hbody := fun c => (body_everywhere m c).loose) (hshare := fun c => (data m 0 c).share_full fun _ => rfl)
    (howed := fun _ _ => rfl) (V := atLaunch m) (hmain := main_to_launch m Variants.none) (hA := data_A m) (hΦ := fun _ _ => rfl)

/-- The program runs to the end and leaves its five argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept_of m ρ (data m) (data_A m) (run m ρ)

end Cert.Kernel.Frame
end
-- ==== Proof.KernelIdealFrame.lean ====
/-
  The frame of the piecewise-linear unit's kernel: from the launch memory, the host lines prepare the per-channel
  tables (the region length, the shifted left bound, the eight left points and the eight slopes, laid out
  [8, 256, 1, 1]), and one kernel launch over the grid (2 channel chunks) x (32 images) rewrites each block
  [1, 128, 56, 56] of the result from the matching block of the input and the chunk's rows of the four tables.
  Every block of the result is ONE function of the five input blocks at that grid point (`blockValue`), the
  body reads its inputs through whole-block rectangles and eight row rectangles of each table, and its single
  store covers the output block; so every point leaves the input buffers as found and the argument arrays are
  never written.
-/
import proofs.«114911_j23742579212531_2_alg».proof.Proof.Gen.KernelIdeal.Launch
import proofs.«114911_j23742579212531_2_alg».proof.Proof.Gen.KernelIdeal.Skeleton
import proofs.«114911_j23742579212531_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What core `c`'s buffers hold when the kernel is launched: the launch memory after the three stretches of
    host lines (the region length; the rolled points; the slope and point tables and their transposes). -/
abbrev atLaunch (c : Dev nD) (b : Ref sig .tc) : Buf (Elt F) ((c : Thread nD τ).loc b) :=
  StableHlo.after (List.flatten [hostOps0, hostOps0_1, hostOps0_2]) (fun b => m (c, b)) b

theorem lengthLines_fresh : (hostOps0 : List (HloOp τ sig (Elt F))).Forall fun op => op.fresh = ∅ := by
  simp only [List.Forall]; repeat' constructor
theorem rollLines_fresh : (hostOps0_1 : List (HloOp τ sig (Elt F))).Forall fun op => op.fresh = ∅ := by
  simp only [List.Forall]; repeat' constructor
theorem tableLines_fresh : (hostOps0_2 : List (HloOp τ sig (Elt F))).Forall fun op => op.fresh = ∅ := by
  simp only [List.Forall]; repeat' constructor

/-- The entry point is its three stretches of host lines followed by the one launch. -/
theorem main_to_launch (𝒱₀ : Variants) :
    Pipeline.HMain (Ix := Unit) (Name := ℕ) (U := UR sig nD τ) (Lvl := ℕ) cfgs 0 defs₀ 𝒱₀ m (main (F := F)) (atLaunch m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨lengthLines_fresh, rollLines_fresh, tableLines_fresh⟩) main_chain

/-- No host line writes argument 0: the launch finds it as it was. -/
theorem atLaunch_arg0 (c : Dev nD) : atLaunch m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 1: the launch finds it as it was. -/
theorem atLaunch_arg1 (c : Dev nD) : atLaunch m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 2: the launch finds it as it was. -/
theorem atLaunch_arg2 (c : Dev nD) : atLaunch m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 3: the launch finds it as it was. -/
theorem atLaunch_arg3 (c : Dev nD) : atLaunch m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host line writes argument 4: the launch finds it as it was. -/
theorem atLaunch_arg4 (c : Dev nD) : atLaunch m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at grid point `t`, read off the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atLaunch m c (Pipeline.arrRef spec0 w))

/-- Input window 0's buffer holds the window's block at every point, whether or not the pipeline fetched it
    there: where it did not, the block index has not moved since the point that did. -/
theorem held0_of {c : Dev nD} (dat : Dat τ (Elt F) Unit ℕ (UR sig nD τ) ℕ cfg0 c) (hA : dat.A 0 = atLaunch m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's buffer holds the window's block at every point, whether or not the pipeline fetched it
    there: where it did not, the block index has not moved since the point that did. -/
theorem held1_of {c : Dev nD} (dat : Dat τ (Elt F) Unit ℕ (UR sig nD τ) ℕ cfg0 c) (hA : dat.A 1 = atLaunch m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's buffer holds the window's block at every point, whether or not the pipeline fetched it
    there: where it did not, the block index has not moved since the point that did. -/
theorem held2_of {c : Dev nD} (dat : Dat τ (Elt F) Unit ℕ (UR sig nD τ) ℕ cfg0 c) (hA : dat.A 2 = atLaunch m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's buffer holds the window's block at every point, whether or not the pipeline fetched it
    there: where it did not, the block index has not moved since the point that did. -/
theorem held3_of {c : Dev nD} (dat : Dat τ (Elt F) Unit ℕ (UR sig nD τ) ℕ cfg0 c) (hA : dat.A 3 = atLaunch m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's buffer holds the window's block at every point, whether or not the pipeline fetched it
    there: where it did not, the block index has not moved since the point that did. -/
theorem held4_of {c : Dev nD} (dat : Dat τ (Elt F) Unit ℕ (UR sig nD τ) ℕ cfg0 c) (hA : dat.A 4 = atLaunch m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- A run that ends with every window's array at what the write-backs make of it, and every other buffer as the
    launch found it, ends with the five argument arrays as they were: the input is the first window's array
    and is only read; the other four are staged by no window and written by no host line. -/
theorem args_kept_of (dats : (p : Fin 1) → (c : Dev nD) → Dat τ (Elt F) Unit ℕ (UR sig nD τ) ℕ (cfgs p) c)
    (hA : ∀ c w, (dats 0 c).A w = atLaunch m c (Pipeline.arrRef spec0 w))
    (h : θ_run defs (onTc (τ := τ) (main (F := F))) (s₀ m ρ) (Pipeline.FramePost cfgs dats 0 (atLaunch m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (atLaunch_arg0 m c))),
      ((h c).2 main_arg1 (Pipeline.mem_restRefs_of main_arg1 (by decide) (by decide))).trans (atLaunch_arg1 m c),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c)⟩) h

/-! ## What the body reads and what it stores -/

/-- The whole block of the input (and of the result). -/
abbrev wholeImage : Rect S1x128x56x56 := Rect.unit (s := S1x128x56x56) ![0, 0, 0, 0] S1x128x56x56.size inb_S1x128x56x56_S1x128x56x56_0_0_0_0
/-- The whole block of a per-channel column (the region lengths, the shifted left bounds). -/
abbrev wholeColumn : Rect S128x1x1 := Rect.unit (s := S128x1x1) ![0, 0, 0] S128x1x1.size inb_S128x1x1_S128x1x1_0_0_0
/-- Row `k` of a table block [8, 128, 1, 1]: the table's entry for region `k`, channel by channel. -/
abbrev row0 : Rect S8x128x1x1 := Rect.unit (s := S8x128x1x1) ![0, 0, 0, 0] S1x128x1x1.size inb_S8x128x1x1_S1x128x1x1_0_0_0_0
abbrev row1 : Rect S8x128x1x1 := Rect.unit (s := S8x128x1x1) ![1, 0, 0, 0] S1x128x1x1.size inb_S8x128x1x1_S1x128x1x1_1_0_0_0
abbrev row2 : Rect S8x128x1x1 := Rect.unit (s := S8x128x1x1) ![2, 0, 0, 0] S1x128x1x1.size inb_S8x128x1x1_S1x128x1x1_2_0_0_0
abbrev row3 : Rect S8x128x1x1 := Rect.unit (s := S8x128x1x1) ![3, 0, 0, 0] S1x128x1x1.size inb_S8x128x1x1_S1x128x1x1_3_0_0_0
abbrev row4 : Rect S8x128x1x1 := Rect.unit (s := S8x128x1x1) ![4, 0, 0, 0] S1x128x1x1.size inb_S8x128x1x1_S1x128x1x1_4_0_0_0
abbrev row5 : Rect S8x128x1x1 := Rect.unit (s := S8x128x1x1) ![5, 0, 0, 0] S1x128x1x1.size inb_S8x128x1x1_S1x128x1x1_5_0_0_0
abbrev row6 : Rect S8x128x1x1 := Rect.unit (s := S8x128x1x1) ![6, 0, 0, 0] S1x128x1x1.size inb_S8x128x1x1_S1x128x1x1_6_0_0_0
abbrev row7 : Rect S8x128x1x1 := Rect.unit (s := S8x128x1x1) ![7, 0, 0, 0] S1x128x1x1.size inb_S8x128x1x1_S1x128x1x1_7_0_0_0

/-- The value the body stores, from what it loaded: the input block `x`, the region lengths `len`, the shifted left
    bounds `lo`, and the eight rows `p k` of the left points and `s k` of the slopes. The region index is
    computed once (`k0_pay5`), the offset inside the region once (`k0_pay6`); the left point and the slope
    are then chosen by eight selects, one per region, starting from zero. -/
def stored (x : Vec F S1x128x56x56 .f32) (len lo : Vec F S128x1x1 .f32)
    (p0 s0 p1 s1 p2 s2 p3 s3 p4 s4 p5 s5 p6 s6 p7 s7 : Vec F S1x128x1x1 .f32) : FVec F S1x128x56x56 .f32 :=
  k0_pay1 (k0_pay5 x len lo) (k0_pay6 x len lo)
    (k0_pay19 (k0_pay5 x len lo) (k0_pay13 (k0_pay5 x len lo) (k0_pay7 (F := F)) (k0_pay9 x len lo) (k0_pay10 p0) p1 p2) (k0_pay15 (k0_pay5 x len lo)) (k0_pay16 p3) p4 p5)
    (k0_pay20 (k0_pay5 x len lo) (k0_pay14 (k0_pay5 x len lo) (k0_pay8 (F := F)) (k0_pay9 x len lo) s0 s1 s2) (k0_pay15 (k0_pay5 x len lo)) s3 s4 s5)
    (k0_pay21 (k0_pay5 x len lo)) p6 s6 p7 s7

/-- The result window's buffer after the body, from the five input blocks: the one store, over the whole block. -/
def blockValue (x : Vec F S1x128x56x56 .f32) (len lo : Vec F S128x1x1 .f32) (pts sls : Vec F S8x128x1x1 .f32) : Vec F S1x128x56x56 .f32 :=
  View.canon [⟨wholeImage, stored (View.ld x wholeImage) (View.ld len wholeColumn) (View.ld lo wholeColumn)
    (View.ld pts row0) (View.ld sls row0) (View.ld pts row1) (View.ld sls row1) (View.ld pts row2) (View.ld sls row2) (View.ld pts row3) (View.ld sls row3)
    (View.ld pts row4) (View.ld sls row4) (View.ld pts row5) (View.ld sls row5) (View.ld pts row6) (View.ld sls row6) (View.ld pts row7) (View.ld sls row7)⟩]

/-- The one store covers the block. -/
theorem store_covers (p0 : Vec F S1x128x56x56 .f32) (y : S1x128x56x56.Idx) :
    ∃ pc ∈ ([⟨wholeImage, p0⟩] : List (View.Piece (Elt F) S1x128x56x56 .f32)), y ∈ pc.1.set :=
  View.cover_of_tiled [⟨wholeImage, p0⟩] S1x128x56x56.size (by rfl) y

/-! ## The body's triple -/

set_option maxHeartbeats 4000000 in
/-- The body, on whole buffers holding the five input blocks and an output buffer holding anything, runs to the end
    leaving the inputs as they were and the output at `blockValue` of the inputs. -/
theorem body_runs (c : Dev nD) (E : Set ℕ) (i : grid0.Coords)
    (arg2 : Memref sig .tc .vmem S1x128x56x56 .f32) (harg2 : arg2.IsWhole) (arg3 : Memref sig .tc .vmem S128x1x1 .f32) (harg3 : arg3.IsWhole)
    (arg4 : Memref sig .tc .vmem S128x1x1 .f32) (harg4 : arg4.IsWhole) (arg5 : Memref sig .tc .vmem S8x128x1x1 .f32) (harg5 : arg5.IsWhole)
    (arg6 : Memref sig .tc .vmem S8x128x1x1 .f32) (harg6 : arg6.IsWhole) (arg7 : Memref sig .tc .vmem S1x128x56x56 .f32) (harg7 : arg7.IsWhole)
    (x : Vec F S1x128x56x56 .f32) (len lo : Vec F S128x1x1 .f32) (pts sls : Vec F S8x128x1x1 .f32) (K : PUnit → sProp 𝕄) :
    iprop(owns (c : Thread nD τ) arg2 fullShare x ∗ owns (c : Thread nD τ) arg3 fullShare len ∗ owns (c : Thread nD τ) arg4 fullShare lo
        ∗ owns (c : Thread nD τ) arg5 fullShare pts ∗ owns (c : Thread nD τ) arg6 fullShare sls ∗ (∃ d, owns (c : Thread nD τ) arg7 fullShare d)
        ∗ (iprop(owns (c : Thread nD τ) arg2 fullShare x ∗ owns (c : Thread nD τ) arg3 fullShare len ∗ owns (c : Thread nD τ) arg4 fullShare lo
            ∗ owns (c : Thread nD τ) arg5 fullShare pts ∗ owns (c : Thread nD τ) arg6 fullShare sls
            ∗ owns (c : Thread nD τ) arg7 fullShare (blockValue x len lo pts sls)) -∗ K ⟨⟩))
      ⊢ wp frame (wpE (defs₀ (F := F)) Variants.none c none) E (cc0__pwlu_kernel i arg2 harg2 arg3 harg3 arg4 harg4 arg5 harg5 arg6 harg6 arg7 harg7) K := by
  simp only [cc0__pwlu_kernel_eq_skeleton]; unfold cc0__pwlu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data of the launch -/

/-- At every grid point the body leaves each input buffer at its block and the result's buffer at `blockValue` of
    the five input blocks there; nothing else is touched, nothing is owed, every share is whole. -/
def data (_ : Fin 1) (c : Dev nD) : Dat τ (Elt F) Unit ℕ (UR sig nD τ) ℕ cfg0 c where
  A w := atLaunch m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockValue (blockAt m c 0 t) (blockAt m c 1 t) (blockAt m c 2 t) (blockAt m c 3 t) (blockAt m c 4 t)
  Φ _ := Pipeline.ΦA spec0 c
  q _ := fullShare
  owed _ := 0

theorem data_A (c : Dev nD) (w : Fin cfg0.W) : (data m 0 c).A w = atLaunch m c (Pipeline.arrRef spec0 w) := by
  dsimp only [data]

theorem after_x (c : Dev nD) (t : Fin cfg0.N) : (data m 0 c).after 0 t = blockAt m c 0 t := by dsimp only [data]
theorem after_len (c : Dev nD) (t : Fin cfg0.N) : (data m 0 c).after 1 t = blockAt m c 1 t := by dsimp only [data]
theorem after_lo (c : Dev nD) (t : Fin cfg0.N) : (data m 0 c).after 2 t = blockAt m c 2 t := by dsimp only [data]
theorem after_pts (c : Dev nD) (t : Fin cfg0.N) : (data m 0 c).after 3 t = blockAt m c 3 t := by dsimp only [data]
theorem after_sls (c : Dev nD) (t : Fin cfg0.N) : (data m 0 c).after 4 t = blockAt m c 4 t := by dsimp only [data]
theorem after_out (c : Dev nD) (t : Fin cfg0.N) : (data m 0 c).after 5 t
    = blockValue (blockAt m c 0 t) (blockAt m c 1 t) (blockAt m c 2 t) (blockAt m c 3 t) (blockAt m c 4 t) := by dsimp only [data]

theorem held_x (c : Dev nD) (t : Fin cfg0.N) (d) : (data m 0 c).before 0 t d = blockAt m c 0 t :=
  held0_of m (data m 0 c) (data_A m c 0) (after_x m c) t d
theorem held_len (c : Dev nD) (t : Fin cfg0.N) (d) : (data m 0 c).before 1 t d = blockAt m c 1 t :=
  held1_of m (data m 0 c) (data_A m c 1) (after_len m c) t d
theorem held_lo (c : Dev nD) (t : Fin cfg0.N) (d) : (data m 0 c).before 2 t d = blockAt m c 2 t :=
  held2_of m (data m 0 c) (data_A m c 2) (after_lo m c) t d
theorem held_pts (c : Dev nD) (t : Fin cfg0.N) (d) : (data m 0 c).before 3 t d = blockAt m c 3 t :=
  held3_of m (data m 0 c) (data_A m c 3) (after_pts m c) t d
theorem held_sls (c : Dev nD) (t : Fin cfg0.N) (d) : (data m 0 c).before 4 t d = blockAt m c 4 t :=
  held4_of m (data m 0 c) (data_A m c 4) (after_sls m c) t d

/-! ## The body at a grid point -/

/-- What the pipeline hands the body at point `t`, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- At any point the input buffers hold their blocks, so the body's triple applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [held_x, held_len, held_lo, held_pts, held_sls]
  rw [show (data m 0 c).Φ t.succ = (data m 0 c).Φ t.castSucc from rfl,
    show (data m 0 c).owesAt () t.succ = (data m 0 c).owesAt () t.castSucc from rfl,
    after_x, after_len, after_lo, after_pts, after_sls, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_everywhere (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- Every weakly fair execution of the entry point terminates without a fault; at the end every window's array is
    what the write-backs of `data` make of it, and every other buffer is as the launch found it. -/
theorem run : θ_run defs (onTc (τ := τ) (main (F := F))) (s₀ m ρ) (Pipeline.FramePost cfgs (data m) 0 (atLaunch m)) :=
  Pipeline.θ_run_frame cfgs (data m) (0 : Fin 1) launch0 defs₀ Variants.none m ρ main
    (hbody := fun c => (body_everywhere m c).loose) (hshare := fun c => (data m 0 c).share_full fun _ => rfl)
    (howed := fun _ _ => rfl) (V := atLaunch m) (hmain := main_to_launch m Variants.none) (hA := data_A m) (hΦ := fun _ _ => rfl)

/-- The program runs to the end and leaves its five argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept_of m ρ (data m) (data_A m) (run m ρ)

end Cert.KernelIdeal.Frame
end
-- ==== Proof.PwluCell.lean ====
/-
  One element of the piecewise-linear unit, as a function of scalars. An element `x` of channel `c` is first
  normalized, `xn = (x - lo) / scale`, where `lo` is the channel's left bound shifted one region to the left and
  `scale` is seven region lengths; its region is `r = floor (min 1.001 (max 0 xn) * 7)`, one of 0 … 7; the offset
  inside the region, in the input's units, is `(xn * 7 - r) * len`; and the value is the region's left point plus
  the offset times the region's slope. The two programs differ in how they spell "seven region lengths"
  (`len * 7` against `7 * len`) and in how they take the region's entry of a table of eight: eight selects
  on `r = k` starting from zero, against a bounds-checked look-up at `r`. Over the extended reals the product
  commutes, and `r` always lies in 0 … 7 because the clipped position lies in [0, 1.001] whatever `xn` is, so the
  two spellings denote one value.
-/
import Idealize.ShloMosaic.PureOps.Ideal
import Idealize.ShloMosaic.PureOps.Vector

noncomputable section

namespace Cert.Pwlu

open Idealize.ShloMosaic

variable {F : FTy → Type} [FloatOps F]

/-- The literals both programs spell: `7.0`, `0.0` and the single-precision value nearest `1.001`. -/
def seven : F .f32 := FloatOps.ofBits .f32 0x40E00000#32
def nought : F .f32 := FloatOps.ofBits .f32 0x00000000#32
def clipTop : F .f32 := FloatOps.ofBits .f32 0x3F8020C5#32

/-- The normalized position. -/
def position (scale x lo : F .f32) : F .f32 := FloatOps.divf (FloatOps.subf x lo) scale
/-- The region, as a float: the floor of seven times the clipped position. -/
def regionOf (xn : F .f32) : F .f32 :=
  FloatOps.floor (FloatOps.mulf (FloatOps.minimumf clipTop (FloatOps.maximumf nought xn)) seven)
/-- The offset inside the region, times the region length. -/
def offsetOf (xn len : F .f32) : F .f32 :=
  FloatOps.mulf (FloatOps.subf (FloatOps.mulf xn seven) (regionOf xn)) len

/-- Entry `r` of a table of eight by eight selects on `r = k`, the later ones outermost, from `z`. -/
def choose {α : Type} (r : BitVec 32) (z : α) (t : Fin 8 → α) : α :=
  Scalar.select (IntOp.cmpi .eq r 7#32) (t 7) (Scalar.select (IntOp.cmpi .eq r 6#32) (t 6)
  (Scalar.select (IntOp.cmpi .eq r 5#32) (t 5) (Scalar.select (IntOp.cmpi .eq r 4#32) (t 4)
  (Scalar.select (IntOp.cmpi .eq r 3#32) (t 3) (Scalar.select (IntOp.cmpi .eq r 2#32) (t 2)
  (Scalar.select (IntOp.cmpi .eq r 1#32) (t 1) (Scalar.select (IntOp.cmpi .eq r 0#32) (t 0) z)))))))

/-- The region as an integer. -/
def regionIndex (scale x lo : F .f32) : BitVec 32 := FloatOps.fptosi 32 (regionOf (position scale x lo))

/-- One element of the result: the region's left point plus the offset times the region's slope, the two
    table entries taken by `choose`. -/
def cell (scale x len lo : F .f32) (p s : Fin 8 → F .f32) : F .f32 :=
  FloatOps.addf (choose (regionIndex scale x lo) nought p)
    (FloatOps.mulf (offsetOf (position scale x lo) len) (choose (regionIndex scale x lo) nought s))

/-! ## Over the extended reals -/

theorem seven_eq : (seven : Ideal .f32) = ((7 : ℝ) : EReal) := by
  simp [seven, Ideal.ofBits, Ideal.ieee, -EReal.coe_mul]; norm_num
theorem nought_eq : (nought : Ideal .f32) = 0 := by
  simp [nought, Ideal.ofBits, Ideal.ieee]
theorem clipTop_eq : (clipTop : Ideal .f32) = ((8396997 / 8388608 : ℝ) : EReal) := by
  simp [clipTop, Ideal.ofBits, Ideal.ieee, -EReal.coe_mul]; norm_num

/-- Seven region lengths, in either order. -/
theorem scale_comm (len : EReal) : FloatOps.mulf (F := Ideal) (φ := .f32) len seven = FloatOps.mulf (F := Ideal) (φ := .f32) seven len := by
  simp only [Ideal.mulf_def]; exact mul_comm _ _

/-- Whatever the normalized position, the region index is one of 0 … 7. -/
theorem region_in_range (xn : EReal) :
    ∃ k : Fin 8, FloatOps.fptosi (F := Ideal) (φ := .f32) 32 (regionOf (F := Ideal) xn) = BitVec.ofNat 32 k.val := by
  unfold regionOf
  rw [show ∀ z : EReal, FloatOps.fptosi (F := Ideal) (φ := .f32) 32 z = Ideal.fptosi 32 z from fun _ => rfl]
  simp only [Ideal.floor_def, Ideal.mulf_def, Ideal.minimumf_def, Ideal.maximumf_def, seven_eq, nought_eq, clipTop_eq]
  have h0 : (0 : EReal) ≤ min ((8396997 / 8388608 : ℝ) : EReal) (max 0 xn) :=
    le_min (by exact_mod_cast (by norm_num : (0 : ℝ) ≤ 8396997 / 8388608)) (le_max_left _ _)
  have h1 : min ((8396997 / 8388608 : ℝ) : EReal) (max 0 xn) ≤ ((8396997 / 8388608 : ℝ) : EReal) := min_le_left _ _
  obtain ⟨y, hy⟩ : ∃ y : ℝ, min ((8396997 / 8388608 : ℝ) : EReal) (max 0 xn) = (y : EReal) := by
    induction h : min ((8396997 / 8388608 : ℝ) : EReal) (max 0 xn) using EReal.rec with
    | bot => rw [h] at h0; exact absurd h0 (by simp)
    | top => rw [h] at h1; exact absurd h1 (by simp)
    | coe y => exact ⟨y, rfl⟩
  rw [hy] at h0 h1 ⊢
  have y0 : 0 ≤ y := by exact_mod_cast h0
  have y1 : y ≤ 8396997 / 8388608 := by exact_mod_cast h1
  rw [← EReal.coe_mul]
  have f0 : 0 ≤ ⌊y * 7⌋ := Int.floor_nonneg.mpr (by positivity)
  have f7 : ⌊y * 7⌋ ≤ 7 := by
    have : ⌊y * 7⌋ < 8 := Int.floor_lt.mpr (by push_cast; nlinarith)
    omega
  refine ⟨⟨⌊y * 7⌋.toNat, by omega⟩, ?_⟩
  show Ideal.fptosi 32 (Ideal.liftRound Int.floor ((y * 7 : ℝ) : EReal)) = _
  show BitVec.ofInt 32 (Ideal.toIntClamped _ _ (((⌊y * 7⌋ : ℤ) : ℝ) : EReal)) = _
  show BitVec.ofInt 32 (max _ (min _ (if (0 : ℝ) ≤ ((⌊y * 7⌋ : ℤ) : ℝ) then ⌊((⌊y * 7⌋ : ℤ) : ℝ)⌋ else ⌈((⌊y * 7⌋ : ℤ) : ℝ)⌉))) = _
  rw [if_pos (by exact_mod_cast f0), Int.floor_intCast]
  have e : max (-((2 ^ (32 - 1) : ℕ) : ℤ)) (min (((2 ^ (32 - 1) : ℕ) : ℤ) - 1) ⌊y * 7⌋) = ⌊y * 7⌋ := by
    norm_num; omega
  rw [e]
  apply BitVec.eq_of_toNat_eq
  simp only [BitVec.toNat_ofInt, BitVec.toNat_ofNat]
  omega

/-- At an index in range the eight selects take the table's entry. -/
theorem choose_in_range {α : Type} (k : Fin 8) (z : α) (t : Fin 8 → α) : choose (BitVec.ofNat 32 k.val) z t = t k := by
  fin_cases k <;> rfl

end Cert.Pwlu

end
-- ==== Proof.KernelIdealValue.lean ====
/-
  What the kernel's result array holds after a run, element by element. At a grid point the body's one store is,
  at channel `c`, row `h`, column `w` of the block, the piecewise-linear cell (`Pwlu.cell`) of the input element
  there, of the channel's region length and shifted left bound, and of the channel's column of the two tables of
  eight — the scale spelt `len * 7`. The blocks of the six windows move together: the result's block at point
  (chunk, image) is rows [128·chunk, 128·chunk + 128) of image `image`, the input's block is the same rectangle,
  and the four per-channel operands' blocks are the same 128 channels. So every point writes back the block of ONE
  whole-array function of the five operand arrays, the 64 blocks cover the result, and the result array after
  the run is that function.
-/
import proofs.«114911_j23742579212531_2_alg».proof.Proof.KernelIdealFrame
import proofs.«114911_j23742579212531_2_alg».proof.Proof.PwluCell
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Frame Idealize.ShloMosaic Idealize.ShloMosaic.TcCoe Idealize.SL.Sem
open Idealize.ShloMosaic.ValueIdx (ix3 ix4 eq_ix3 eq_ix4)
open Idealize.ShloMosaic.Pipeline (Dat)

variable {F : FTy → Type} [FloatOps F]

/-! ## Reading the body's layout operations at an element -/

section Layout
variable {α : Type}

theorem offset4_zero : (![0, 0, 0, 0] : Fin 4 → Nat) = fun _ => 0 := funext fun a => by fin_cases a <;> rfl
theorem offset3_zero : (![0, 0, 0] : Fin 3 → Nat) = fun _ => 0 := funext fun a => by fin_cases a <;> rfl

/-- A per-channel column spread over the rows and columns of a channel reads the channel's entry. -/
theorem column_spread (v : S128x1x1.Idx → α) (c : Fin 128) (h w : Fin 56) :
    broadcastTo S128x56x56 v broadcasts_S128x1x1_S128x56x56 (ix3 c h w) = v (ix3 c 0 0) :=
  broadcastTo_apply v broadcasts_S128x1x1_S128x56x56 (ix3 c h w) (ix3 c 0 0) (fun a => match a with
    | ⟨0, _⟩ => rfl
    | ⟨1, _⟩ => rfl
    | ⟨2, _⟩ => rfl)
theorem column_same (v : S128x1x1.Idx → α) : shapeCast S128x1x1 v shapeCasts_S128x1x1_S128x1x1 = v := shapeCast_self v _
/-- A table row [1, 128, 1, 1] seen as a column [128, 1, 1]. -/
theorem row_as_column (p : S1x128x1x1.Idx → α) (c : Fin 128) :
    shapeCast S128x1x1 p shapeCasts_S1x128x1x1_S128x1x1 (ix3 c 0 0) = p (ix4 0 c 0 0) :=
  shapeCast_apply p shapeCasts_S1x128x1x1_S128x1x1 (ix3 c 0 0) (ix4 0 c 0 0)
    (by rewrite [Shape.rowMajor_val_four, Shape.rowMajor_val_three]; show ((0 * 128 + c.val) * 1 + 0) * 1 + 0 = (c.val * 1 + 0) * 1 + 0; omega)
/-- The block [1, 128, 56, 56] without its unit axis, and back. -/
theorem image_without_unit (v : S1x128x56x56.Idx → α) (c : Fin 128) (h w : Fin 56) :
    shapeCast S128x56x56 v shapeCasts_S1x128x56x56_S128x56x56 (ix3 c h w) = v (ix4 0 c h w) :=
  shapeCast_apply v shapeCasts_S1x128x56x56_S128x56x56 (ix3 c h w) (ix4 0 c h w)
    (by rewrite [Shape.rowMajor_val_four, Shape.rowMajor_val_three]; show ((0 * 128 + c.val) * 56 + h.val) * 56 + w.val = (c.val * 56 + h.val) * 56 + w.val; omega)
theorem image_with_unit (v : S128x56x56.Idx → α) (c : Fin 128) (h w : Fin 56) :
    shapeCast S1x128x56x56 v shapeCasts_S128x56x56_S1x128x56x56 (ix4 0 c h w) = v (ix3 c h w) :=
  shapeCast_apply v shapeCasts_S128x56x56_S1x128x56x56 (ix4 0 c h w) (ix3 c h w)
    (by rewrite [Shape.rowMajor_val_three, Shape.rowMajor_val_four]; show (c.val * 56 + h.val) * 56 + w.val = ((0 * 128 + c.val) * 56 + h.val) * 56 + w.val; omega)

/-- Row `k` of a table block, at channel `c`, is entry `(k, c)` of the block. -/
theorem row0_at (c : Fin 128) : (row0 : Rect S8x128x1x1).idx (ix4 0 c 0 0) = ix4 0 c 0 0 :=
  funext fun a => Fin.ext (by
    match a with
    | ⟨0, _⟩ => show 0 + 1 * 0 = 0; omega
    | ⟨1, _⟩ => show 0 + 1 * c.val = c.val; omega
    | ⟨2, _⟩ => show 0 + 1 * 0 = 0; omega
    | ⟨3, _⟩ => show 0 + 1 * 0 = 0; omega)
theorem row1_at (c : Fin 128) : (row1 : Rect S8x128x1x1).idx (ix4 0 c 0 0) = ix4 1 c 0 0 :=
  funext fun a => Fin.ext (by
    match a with
    | ⟨0, _⟩ => show 1 + 1 * 0 = 1; omega
    | ⟨1, _⟩ => show 0 + 1 * c.val = c.val; omega
    | ⟨2, _⟩ => show 0 + 1 * 0 = 0; omega
    | ⟨3, _⟩ => show 0 + 1 * 0 = 0; omega)
theorem row2_at (c : Fin 128) : (row2 : Rect S8x128x1x1).idx (ix4 0 c 0 0) = ix4 2 c 0 0 :=
  funext fun a => Fin.ext (by
    match a with
    | ⟨0, _⟩ => show 2 + 1 * 0 = 2; omega
    | ⟨1, _⟩ => show 0 + 1 * c.val = c.val; omega
    | ⟨2, _⟩ => show 0 + 1 * 0 = 0; omega
    | ⟨3, _⟩ => show 0 + 1 * 0 = 0; omega)
theorem row3_at (c : Fin 128) : (row3 : Rect S8x128x1x1).idx (ix4 0 c 0 0) = ix4 3 c 0 0 :=
  funext fun a => Fin.ext (by
    match a with
    | ⟨0, _⟩ => show 3 + 1 * 0 = 3; omega
    | ⟨1, _⟩ => show 0 + 1 * c.val = c.val; omega
    | ⟨2, _⟩ => show 0 + 1 * 0 = 0; omega
    | ⟨3, _⟩ => show 0 + 1 * 0 = 0; omega)
theorem row4_at (c : Fin 128) : (row4 : Rect S8x128x1x1).idx (ix4 0 c 0 0) = ix4 4 c 0 0 :=
  funext fun a => Fin.ext (by
    match a with
    | ⟨0, _⟩ => show 4 + 1 * 0 = 4; omega
    | ⟨1, _⟩ => show 0 + 1 * c.val = c.val; omega
    | ⟨2, _⟩ => show 0 + 1 * 0 = 0; omega
    | ⟨3, _⟩ => show 0 + 1 * 0 = 0; omega)
theorem row5_at (c : Fin 128) : (row5 : Rect S8x128x1x1).idx (ix4 0 c 0 0) = ix4 5 c 0 0 :=
  funext fun a => Fin.ext (by
    match a with
    | ⟨0, _⟩ => show 5 + 1 * 0 = 5; omega
    | ⟨1, _⟩ => show 0 + 1 * c.val = c.val; omega
    | ⟨2, _⟩ => show 0 + 1 * 0 = 0; omega
    | ⟨3, _⟩ => show 0 + 1 * 0 = 0; omega)
theorem row6_at (c : Fin 128) : (row6 : Rect S8x128x1x1).idx (ix4 0 c 0 0) = ix4 6 c 0 0 :=
  funext fun a => Fin.ext (by
    match a with
    | ⟨0, _⟩ => show 6 + 1 * 0 = 6; omega
    | ⟨1, _⟩ => show 0 + 1 * c.val = c.val; omega
    | ⟨2, _⟩ => show 0 + 1 * 0 = 0; omega
    | ⟨3, _⟩ => show 0 + 1 * 0 = 0; omega)
theorem row7_at (c : Fin 128) : (row7 : Rect S8x128x1x1).idx (ix4 0 c 0 0) = ix4 7 c 0 0 :=
  funext fun a => Fin.ext (by
    match a with
    | ⟨0, _⟩ => show 7 + 1 * 0 = 7; omega
    | ⟨1, _⟩ => show 0 + 1 * c.val = c.val; omega
    | ⟨2, _⟩ => show 0 + 1 * 0 = 0; omega
    | ⟨3, _⟩ => show 0 + 1 * 0 = 0; omega)

end Layout

/-! ## The body's store at an element -/

/-- The stored block at channel `c`, row `h`, column `w` is the cell of the element there, the scale spelt
    `len * 7`: the pointwise operations are read at the element, the spread columns at the channel. -/
theorem blockValue_at (x : Vec F S1x128x56x56 .f32) (len lo : Vec F S128x1x1 .f32) (pts sls : Vec F S8x128x1x1 .f32)
    (c : Fin 128) (h w : Fin 56) :
    blockValue x len lo pts sls (ix4 0 c h w)
      = Pwlu.cell (FloatOps.mulf (len (ix3 c 0 0)) Pwlu.seven) (x (ix4 0 c h w)) (len (ix3 c 0 0)) (lo (ix3 c 0 0))
          (fun k => pts (ix4 k c 0 0)) (fun k => sls (ix4 k c 0 0)) := by
  unfold blockValue
  rw [View.canon_unit_zero offset4_zero]
  simp only [View.ld_unit_zero (S := S1x128x56x56) offset4_zero, View.ld_unit_zero (S := S128x1x1) offset3_zero]
  unfold stored
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  rw [image_with_unit]
  simp only [addf, mulf, subf, divf, maximumf, minimumf, floor, fptosi, cmpi, select, broadcast,
    column_spread, column_same, row_as_column, image_without_unit,
    View.ld, row0_at, row1_at, row2_at, row3_at, row4_at, row5_at, row6_at, row7_at]
  rfl

/-! ## The result as one function of the operand arrays -/

/-- The per-channel operands' index for the channel of element `i`. -/
abbrev channelOf (i : S32x256x56x56.Idx) : S256x1x1.Idx := fun a => match a with
  | ⟨0, _⟩ => ⟨(i 1).val, by have h : (i 1).val < 256 := (i 1).isLt; exact h⟩
  | ⟨1, _⟩ => ⟨0, Nat.one_pos⟩
  | ⟨2, _⟩ => ⟨0, Nat.one_pos⟩
/-- The tables' index for entry `k` of the channel of element `i`. -/
abbrev entryOf (k : Fin 8) (i : S32x256x56x56.Idx) : S8x256x1x1.Idx := fun a => match a with
  | ⟨0, _⟩ => ⟨k.val, k.isLt⟩
  | ⟨1, _⟩ => ⟨(i 1).val, by have h : (i 1).val < 256 := (i 1).isLt; exact h⟩
  | ⟨2, _⟩ => ⟨0, Nat.one_pos⟩
  | ⟨3, _⟩ => ⟨0, Nat.one_pos⟩

/-- The result array as one function of the five arrays the kernel's windows stage: element `i` is the cell of the
    input's element `i` and of its channel's entries of the four per-channel arrays. -/
def wholeResult (X : S32x256x56x56.Idx → F .f32) (LEN LO : S256x1x1.Idx → F .f32) (PT SL : S8x256x1x1.Idx → F .f32) :
    S32x256x56x56.Idx → F .f32 := fun i =>
  Pwlu.cell (FloatOps.mulf (LEN (channelOf i)) Pwlu.seven) (X i) (LEN (channelOf i)) (LO (channelOf i))
    (fun k => PT (entryOf k i)) (fun k => SL (entryOf k i))

variable (m : (ℓ : Loc nD τ sig) → Buf (Elt F) ℓ) (ρ : Dev nD → PrngReg)

/-- The six windows' block indices over the grid: the input moves with the result; the per-channel operands follow
    the result's channel chunk and do not move otherwise. -/
theorem blocks_move_together : ∀ t : Fin cfg0.N,
    win0_0.index t (0 : Fin 4) = win0_5.index t (0 : Fin 4) ∧ win0_0.index t (1 : Fin 4) = win0_5.index t (1 : Fin 4)
    ∧ win0_0.index t (2 : Fin 4) = 0 ∧ win0_0.index t (3 : Fin 4) = 0
    ∧ win0_5.index t (2 : Fin 4) = 0 ∧ win0_5.index t (3 : Fin 4) = 0
    ∧ win0_1.index t (0 : Fin 3) = win0_5.index t (1 : Fin 4) ∧ win0_1.index t (1 : Fin 3) = 0 ∧ win0_1.index t (2 : Fin 3) = 0
    ∧ win0_2.index t (0 : Fin 3) = win0_5.index t (1 : Fin 4) ∧ win0_2.index t (1 : Fin 3) = 0 ∧ win0_2.index t (2 : Fin 3) = 0
    ∧ win0_3.index t (0 : Fin 4) = 0 ∧ win0_3.index t (1 : Fin 4) = win0_5.index t (1 : Fin 4)
    ∧ win0_3.index t (2 : Fin 4) = 0 ∧ win0_3.index t (3 : Fin 4) = 0
    ∧ win0_4.index t (0 : Fin 4) = 0 ∧ win0_4.index t (1 : Fin 4) = win0_5.index t (1 : Fin 4)
    ∧ win0_4.index t (2 : Fin 4) = 0 ∧ win0_4.index t (3 : Fin 4) = 0
    ∧ win0_5.index t (0 : Fin 4) ≤ 31 ∧ win0_5.index t (1 : Fin 4) ≤ 1 :=
  (by decide +kernel : ∀ t : Fin grid0.N, _)

/-- Every block of the result is some point's. -/
theorem every_block_written : ∀ (b : Fin 32) (k : Fin 2), ∃ t : Fin cfg0.N, win0_5.index t = ![b.val, k.val, 0, 0] :=
  (by decide +kernel : ∀ (b : Fin 32) (k : Fin 2), ∃ t : Fin grid0.N, win0_5.index t = ![b.val, k.val, 0, 0])

set_option maxHeartbeats 2000000 in
/-- What a point writes back is its block of the whole-array function of the five staged arrays. -/
theorem point_writes_block (c : Dev nD) (t : Fin cfg0.N) :
    (data m 0 c).flushed 5 t = ((cfg0.win 5).blk t).view.read (Elt F)
      (wholeResult (atLaunch m c main_arg0) (atLaunch m c main_v23) (atLaunch m c main_v24) (atLaunch m c main_v26) (atLaunch m c main_v28)) := by
  show (cfg0.win 5).cut (grid0.coords t) ((data m 0 c).after 5 t) = _
  rw [after_out]
  obtain ⟨e00, e01, e02, e03, e52, e53, e10, e11, e12, e20, e21, e22, e30, e31, e32, e33, e40, e41, e42, e43, -, -⟩ := blocks_move_together t
  refine funext fun (j : S1x128x56x56.Idx) => ?_
  have hj : j = ix4 0 (j 1) (j 2) (j 3) := funext fun a => by
    match a with
    | ⟨0, _⟩ => exact Fin.ext (by have h : (j 0).val < 1 := (j 0).isLt; show (j 0).val = 0; omega)
    | ⟨1, _⟩ => rfl
    | ⟨2, _⟩ => rfl
    | ⟨3, _⟩ => rfl
  obtain ⟨p, q, r, rfl⟩ : ∃ (p : Fin 128) (q r : Fin 56), j = ix4 0 p q r := ⟨j 1, j 2, j 3, hj⟩
  refine (blockValue_at (blockAt m c 0 t) (blockAt m c 1 t) (blockAt m c 2 t) (blockAt m c 3 t) (blockAt m c 4 t) p q r).trans ?_
  show _ = wholeResult _ _ _ _ _ (((cfg0.win 5).blk t).view.emb (ix4 0 p q r))
  unfold wholeResult
  have hx : blockAt m c 0 t (ix4 0 p q r) = atLaunch m c main_arg0 (((cfg0.win 5).blk t).view.emb (ix4 0 p q r)) :=
    congrArg (atLaunch m c main_arg0) (funext fun a => Fin.ext (by
      match a with
      | ⟨0, _⟩ => show win0_0.index t (0 : Fin 4) * 1 + 1 * 0 = win0_5.index t (0 : Fin 4) * 1 + 1 * 0; omega
      | ⟨1, _⟩ => show win0_0.index t (1 : Fin 4) * 128 + 1 * p.val = win0_5.index t (1 : Fin 4) * 128 + 1 * p.val; omega
      | ⟨2, _⟩ => show win0_0.index t (2 : Fin 4) * 56 + 1 * q.val = win0_5.index t (2 : Fin 4) * 56 + 1 * q.val; omega
      | ⟨3, _⟩ => show win0_0.index t (3 : Fin 4) * 56 + 1 * r.val = win0_5.index t (3 : Fin 4) * 56 + 1 * r.val; omega))
  have hlen : blockAt m c 1 t (ix3 p 0 0) = atLaunch m c main_v23 (channelOf (((cfg0.win 5).blk t).view.emb (ix4 0 p q r))) :=
    congrArg (atLaunch m c main_v23) (funext fun a => Fin.ext (by
      match a with
      | ⟨0, _⟩ => show win0_1.index t (0 : Fin 3) * 128 + 1 * p.val = win0_5.index t (1 : Fin 4) * 128 + 1 * p.val; omega
      | ⟨1, _⟩ => show win0_1.index t (1 : Fin 3) * 1 + 1 * 0 = 0; omega
      | ⟨2, _⟩ => show win0_1.index t (2 : Fin 3) * 1 + 1 * 0 = 0; omega))
  have hlo : blockAt m c 2 t (ix3 p 0 0) = atLaunch m c main_v24 (channelOf (((cfg0.win 5).blk t).view.emb (ix4 0 p q r))) :=
    congrArg (atLaunch m c main_v24) (funext fun a => Fin.ext (by
      match a with
      | ⟨0, _⟩ => show win0_2.index t (0 : Fin 3) * 128 + 1 * p.val = win0_5.index t (1 : Fin 4) * 128 + 1 * p.val; omega
      | ⟨1, _⟩ => show win0_2.index t (1 : Fin 3) * 1 + 1 * 0 = 0; omega
      | ⟨2, _⟩ => show win0_2.index t (2 : Fin 3) * 1 + 1 * 0 = 0; omega))
  have hpt : ∀ k : Fin 8, blockAt m c 3 t (ix4 k p 0 0) = atLaunch m c main_v26 (entryOf k (((cfg0.win 5).blk t).view.emb (ix4 0 p q r))) := fun k =>
    congrArg (atLaunch m c main_v26) (funext fun a => Fin.ext (by
      match a with
      | ⟨0, _⟩ => show win0_3.index t (0 : Fin 4) * 8 + 1 * k.val = k.val; omega
      | ⟨1, _⟩ => show win0_3.index t (1 : Fin 4) * 128 + 1 * p.val = win0_5.index t (1 : Fin 4) * 128 + 1 * p.val; omega
      | ⟨2, _⟩ => show win0_3.index t (2 : Fin 4) * 1 + 1 * 0 = 0; omega
      | ⟨3, _⟩ => show win0_3.index t (3 : Fin 4) * 1 + 1 * 0 = 0; omega))
  have hsl : ∀ k : Fin 8, blockAt m c 4 t (ix4 k p 0 0) = atLaunch m c main_v28 (entryOf k (((cfg0.win 5).blk t).view.emb (ix4 0 p q r))) := fun k =>
    congrArg (atLaunch m c main_v28) (funext fun a => Fin.ext (by
      match a with
      | ⟨0, _⟩ => show win0_4.index t (0 : Fin 4) * 8 + 1 * k.val = k.val; omega
      | ⟨1, _⟩ => show win0_4.index t (1 : Fin 4) * 128 + 1 * p.val = win0_5.index t (1 : Fin 4) * 128 + 1 * p.val; omega
      | ⟨2, _⟩ => show win0_4.index t (2 : Fin 4) * 1 + 1 * 0 = 0; omega
      | ⟨3, _⟩ => show win0_4.index t (3 : Fin 4) * 1 + 1 * 0 = 0; omega))
  rw [hx, hlen, hlo]
  simp only [hpt, hsl]

/-- An element of the result lies in a point's block iff each coordinate is in the block's range on its axis. -/
theorem in_block_iff (t : Fin cfg0.N) (i : S32x256x56x56.Idx) :
    i ∈ ((cfg0.win 5).blk t).view.set ↔ ∀ a : Fin 4, win0_5.index t a * S1x128x56x56.size a ≤ (i a).val ∧ (i a).val < win0_5.index t a * S1x128x56x56.size a + S1x128x56x56.size a := by
  show i ∈ ((View.whole main_v29).slice (win0_5.rect t)).set ↔ _
  rw [View.set_slice_whole, Rect.mem_set_unit]
  exact Iff.rfl

/-- Every element of the result is in the block of some point that writes back. -/
theorem blocks_cover (i : S32x256x56x56.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := every_block_written ⟨(i 0).val, hi0⟩ ⟨(i 1).val / 128, by omega⟩
  have q0 : win0_5.index t (0 : Fin 4) = (i 0).val := congrFun ht 0
  have q1 : win0_5.index t (1 : Fin 4) = (i 1).val / 128 := congrFun ht 1
  have q2 : win0_5.index t (2 : Fin 4) = 0 := congrFun ht 2
  have q3 : win0_5.index t (3 : Fin 4) = 0 := congrFun ht 3
  refine ⟨t, flush0_5 t, ?_⟩
  rw [in_block_iff]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 56 ≤ (i 2).val ∧ (i 2).val < win0_5.index t (2 : Fin 4) * 56 + 56; omega
  | ⟨3, _⟩ => show win0_5.index t (3 : Fin 4) * 56 ≤ (i 3).val ∧ (i 3).val < win0_5.index t (3 : Fin 4) * 56 + 56; omega

/-- The result array after the run is the whole-array function of the five staged arrays. -/
theorem result_after (c : Dev nD) : (data m 0 c).arrAt 5 cfg0.N
    = wholeResult (atLaunch m c main_arg0) (atLaunch m c main_v23) (atLaunch m c main_v24) (atLaunch m c main_v26) (atLaunch m c main_v28) :=
  (data m 0 c).arrAt_eq_of_cover 5 _ (fun t _ => point_writes_block m c t) blocks_cover

/-- Every weakly fair execution of the kernel's program terminates without a fault, with the result array at the
    whole-array function of the five staged arrays as the launch finds them, and the arguments unchanged. -/
theorem run_result : θ_run defs (onTc (τ := τ) (main (F := F))) ⟨m, fun _ => 0, ρ⟩ fun r => ∀ c : Dev nD,
      r.2.mem ((c.tc : Thread nD τ).loc main_v29)
        = wholeResult (atLaunch m c main_arg0) (atLaunch m c main_v23) (atLaunch m c main_v24) (atLaunch m c main_v26) (atLaunch m c main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (result_after m c),
      ((h c).1 0).trans (((data m 0 c).arrAt_in 0 rfl _).trans ((data_A m c 0).trans (atLaunch_arg0 m c))),
      ((h c).2 main_arg1 (Pipeline.mem_restRefs_of main_arg1 (by decide) (by decide))).trans (atLaunch_arg1 m c),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c)⟩)
    (Frame.run m ρ)

end Cert.KernelIdeal.Result
end
-- ==== Proof.RefRun.lean ====
/-
  The reference program's run, read back stage by stage. Its entry point is one straight line of 107 host
  operations; every weakly fair execution of such a line terminates with each buffer at the fold of the operations'
  results over the launch contents. The line is cut here into fifteen consecutive segments — the per-channel
  tables; the normalized input; the region and the offset; the left points; each of the two table look-ups in five
  parts (the index made non-negative, the two comparisons, their reduction over the unit axis, the read, the
  choice); the final combination — and each segment's results are read in terms of what the segment finds, so
  that a stage shared by several later operations is named once and never written out again. Composed, the result
  buffer holds the last stage (`ReadP.val_main_v51`) of the five argument arrays.
-/
import proofs.«114911_j23742579212531_2_alg».proof.Proof.RefReadP

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

/-- The entry point's operations in order, a called function's operations standing in its call's place. -/
abbrev line : List (HloOp τ sig (Elt F)) :=
  [ unary main_arg2 main_v0 ((extractStridedSlice S256x1 ![0, 0] · slices_S256x2_S256x1_0_0) : (⟨S256x2, .f32⟩ : BufTy).Contents (Elt F) → (⟨S256x1, .f32⟩ : BufTy).Contents (Elt F)),
    reshape main_v0 main_v1 rfl shapeCasts_S256x1_S256,
    unary main_arg2 main_v2 ((extractStridedSlice S256x1 ![0, 1] · slices_S256x2_S256x1_0_1) : (⟨S256x2, .f32⟩ : BufTy).Contents (Elt F) → (⟨S256x1, .f32⟩ : BufTy).Contents (Elt F)),
    reshape main_v2 main_v3 rfl shapeCasts_S256x1_S256,
    binary main_v3 main_v1 main_v4 (subf : (⟨S256, .f32⟩ : BufTy).Contents (Elt F) → (⟨S256, .f32⟩ : BufTy).Contents (Elt F) → (⟨S256, .f32⟩ : BufTy).Contents (Elt F)),
    nullary main_cst (constant S_ .f32 0x40C00000#32),
    unary main_cst main_v5 (broadcastInDim S256 ![] bcast_S_S256 : (⟨S_, .f32⟩ : BufTy).Contents (Elt F) → (⟨S256, .f32⟩ : BufTy).Contents (Elt F)),
    binary main_v4 main_v5 main_v6 (Host.divf : (⟨S256, .f32⟩ : BufTy).Contents (Elt F) → (⟨S256, .f32⟩ : BufTy).Contents (Elt F) → (⟨S256, .f32⟩ : BufTy).Contents (Elt F)),
    TRef.unary (TRef.of (T := ⟨S256x7, .f32⟩) main_arg1) (TRef.of (T := ⟨S256x1, .f32⟩) main_call0_v0) (extractStridedSlice S256x1 ![0, 6] · slices_S256x7_S256x1_0_6),
    TRef.unary (TRef.of (T := ⟨S256x7, .f32⟩) main_arg1) (TRef.of (T := ⟨S256x6, .f32⟩) main_call0_v1) (extractStridedSlice S256x6 ![0, 0] · slices_S256x7_S256x6_0_0),
    TRef.binary (TRef.of (T := ⟨S256x1, .f32⟩) main_call0_v0) (TRef.of (T := ⟨S256x6, .f32⟩) main_call0_v1) (TRef.of (T := ⟨S256x7, .f32⟩) main_v7) (fun a b => concatenate S256x7 1 [⟨S256x1, a⟩, ⟨S256x6, b⟩] concatenates_S256x1_S256x6_S256x7_d1),
    binary main_arg1 main_v7 main_v8 (subf : (⟨S256x7, .f32⟩ : BufTy).Contents (Elt F) → (⟨S256x7, .f32⟩ : BufTy).Contents (Elt F) → (⟨S256x7, .f32⟩ : BufTy).Contents (Elt F)),
    unary main_v8 main_v9 ((extractStridedSlice S256x6 ![0, 1] · slices_S256x7_S256x6_0_1) : (⟨S256x7, .f32⟩ : BufTy).Contents (Elt F) → (⟨S256x6, .f32⟩ : BufTy).Contents (Elt F)),
    unary main_v6 main_v10 (broadcastInDim S256x1 ![0] bcast_S256_S256x1_0 : (⟨S256, .f32⟩ : BufTy).Contents (Elt F) → (⟨S256x1, .f32⟩ : BufTy).Contents (Elt F)),
    unary main_v10 main_v11 (broadcastInDim S256x6 ![0, 1] bcast_S256x1_S256x6_0_1 : (⟨S256x1, .f32⟩ : BufTy).Contents (Elt F) → (⟨S256x6, .f32⟩ : BufTy).Contents (Elt F)),
    binary main_v9 main_v11 main_v12 (Host.divf : (⟨S256x6, .f32⟩ : BufTy).Contents (Elt F) → (⟨S256x6, .f32⟩ : BufTy).Contents (Elt F) → (⟨S256x6, .f32⟩ : BufTy).Contents (Elt F)),
    unary main_arg3 main_v13 (broadcastInDim S256x1 ![0] bcast_S256_S256x1_0 : (⟨S256, .f32⟩ : BufTy).Contents (Elt F) → (⟨S256x1, .f32⟩ : BufTy).Contents (Elt F)),
    unary main_arg4 main_v14 (broadcastInDim S256x1 ![0] bcast_S256_S256x1_0 : (⟨S256, .f32⟩ : BufTy).Contents (Elt F) → (⟨S256x1, .f32⟩ : BufTy).Contents (Elt F)),
    nary ![main_v13, main_v12, main_v14] main_v15 (fun u => concatenate S256x8 1 [⟨S256x1, u 0⟩, ⟨S256x6, u 1⟩, ⟨S256x1, u 2⟩] concatenates_S256x1_S256x6_S256x1_S256x8_d1),
    binary main_v1 main_v6 main_v16 (subf : (⟨S256, .f32⟩ : BufTy).Contents (Elt F) → (⟨S256, .f32⟩ : BufTy).Contents (Elt F) → (⟨S256, .f32⟩ : BufTy).Contents (Elt F)),
    unary main_arg0 main_v17 ((transpose S32x56x56x256 [0, 2, 3, 1] · transposes_S32x256x56x56_S32x56x56x256_0_2_3_1) : (⟨S32x256x56x56, .f32⟩ : BufTy).Contents (Elt F) → (⟨S32x56x56x256, .f32⟩ : BufTy).Contents (Elt F)),
    unary main_v16 main_v18 (broadcastInDim S1x1x1x256 ![3] bcast_S256_S1x1x1x256_3 : (⟨S256, .f32⟩ : BufTy).Contents (Elt F) → (⟨S1x1x1x256, .f32⟩ : BufTy).Contents (Elt F)),
    unary main_v18 main_v19 (broadcastInDim S32x56x56x256 ![0, 1, 2, 3] bcast_S1x1x1x256_S32x56x56x256_0_1_2_3 : (⟨S1x1x1x256, .f32⟩ : BufTy).Contents (Elt F) → (⟨S32x56x56x256, .f32⟩ : BufTy).Contents (Elt F)),
    binary main_v17 main_v19 main_v20 (subf : (⟨S32x56x56x256, .f32⟩ : BufTy).Contents (Elt F) → (⟨S32x56x56x256, .f32⟩ : BufTy).Contents (Elt F) → (⟨S32x56x56x256, .f32⟩ : BufTy).Contents (Elt F)),
    nullary main_cst_0 (constant S_ .f32 0x40E00000#32),
    unary main_cst_0 main_v21 (broadcastInDim S256 ![] bcast_S_S256 : (⟨S_, .f32⟩ : BufTy).Contents (Elt F) → (⟨S256, .f32⟩ : BufTy).Contents (Elt F)),
    binary main_v21 main_v6 main_v22 (mulf : (⟨S256, .f32⟩ : BufTy).Contents (Elt F) → (⟨S256, .f32⟩ : BufTy).Contents (Elt F) → (⟨S256, .f32⟩ : BufTy).Contents (Elt F)),
    unary main_v22 main_v23 (broadcastInDim S1x1x1x256 ![3] bcast_S256_S1x1x1x256_3 : (⟨S256, .f32⟩ : BufTy).Contents (Elt F) → (⟨S1x1x1x256, .f32⟩ : BufTy).Contents (Elt F)),
    unary main_v23 main_v24 (broadcastInDim S32x56x56x256 ![0, 1, 2, 3] bcast_S1x1x1x256_S32x56x56x256_0_1_2_3 : (⟨S1x1x1x256, .f32⟩ : BufTy).Contents (Elt F) → (⟨S32x56x56x256, .f32⟩ : BufTy).Contents (Elt F)),
    binary main_v20 main_v24 main_v25 (Host.divf : (⟨S32x56x56x256, .f32⟩ : BufTy).Contents (Elt F) → (⟨S32x56x56x256, .f32⟩ : BufTy).Contents (Elt F) → (⟨S32x56x56x256, .f32⟩ : BufTy).Contents (Elt F)),
    unary main_v25 main_v26 ((transpose S256x32x56x56 [3, 0, 1, 2] · transposes_S32x56x56x256_S256x32x56x56_3_0_1_2) : (⟨S32x56x56x256, .f32⟩ : BufTy).Contents (Elt F) → (⟨S256x32x56x56, .f32⟩ : BufTy).Contents (Elt F)),
    nullary main_cst_1 (constant S_ .f32 0x00000000#32),
    nullary main_cst_2 (constant S_ .f32 0x3F8020C5#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S256x32x56x56, .f32⟩) main_call1_v1) (broadcastInDim S256x32x56x56 ![] bcast_S_S256x32x56x56),
    TRef.binary (TRef.of (T := ⟨S256x32x56x56, .f32⟩) main_call1_v1) (TRef.of (T := ⟨S256x32x56x56, .f32⟩) main_v26) (TRef.of (T := ⟨S256x32x56x56, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S256x32x56x56, .f32⟩) main_call1_v4) (broadcastInDim S256x32x56x56 ![] bcast_S_S256x32x56x56),
    TRef.binary (TRef.of (T := ⟨S256x32x56x56, .f32⟩) main_call1_v4) (TRef.of (T := ⟨S256x32x56x56, .f32⟩) main_call1_v2) (TRef.of (T := ⟨S256x32x56x56, .f32⟩) main_v27) minimumf,
    nullary main_cst_3 (constant S_ .f32 0x40E00000#32),
    unary main_cst_3 main_v28 (broadcastInDim S256x32x56x56 ![] bcast_S_S256x32x56x56 : (⟨S_, .f32⟩ : BufTy).Contents (Elt F) → (⟨S256x32x56x56, .f32⟩ : BufTy).Contents (Elt F)),
    binary main_v27 main_v28 main_v29 (mulf : (⟨S256x32x56x56, .f32⟩ : BufTy).Contents (Elt F) → (⟨S256x32x56x56, .f32⟩ : BufTy).Contents (Elt F) → (⟨S256x32x56x56, .f32⟩ : BufTy).Contents (Elt F)),
    unary main_v29 main_v30 (Host.floor : (⟨S256x32x56x56, .f32⟩ : BufTy).Contents (Elt F) → (⟨S256x32x56x56, .f32⟩ : BufTy).Contents (Elt F)),
    nullary main_cst_4 (constant S_ .f32 0x40E00000#32),
    unary main_cst_4 main_v31 (broadcastInDim S256x32x56x56 ![] bcast_S_S256x32x56x56 : (⟨S_, .f32⟩ : BufTy).Contents (Elt F) → (⟨S256x32x56x56, .f32⟩ : BufTy).Contents (Elt F)),
    binary main_v26 main_v31 main_v32 (mulf : (⟨S256x32x56x56, .f32⟩ : BufTy).Contents (Elt F) → (⟨S256x32x56x56, .f32⟩ : BufTy).Contents (Elt F) → (⟨S256x32x56x56, .f32⟩ : BufTy).Contents (Elt F)),
    binary main_v32 main_v30 main_v33 (subf : (⟨S256x32x56x56, .f32⟩ : BufTy).Contents (Elt F) → (⟨S256x32x56x56, .f32⟩ : BufTy).Contents (Elt F) → (⟨S256x32x56x56, .f32⟩ : BufTy).Contents (Elt F)),
    reshape main_v6 main_v34 rfl shapeCasts_S256_S256x1x1x1,
    unary main_v34 main_v35 (broadcastInDim S256x32x56x56 ![0, 1, 2, 3] bcast_S256x1x1x1_S256x32x56x56_0_1_2_3 : (⟨S256x1x1x1, .f32⟩ : BufTy).Contents (Elt F) → (⟨S256x32x56x56, .f32⟩ : BufTy).Contents (Elt F)),
    binary main_v33 main_v35 main_v36 (mulf : (⟨S256x32x56x56, .f32⟩ : BufTy).Contents (Elt F) → (⟨S256x32x56x56, .f32⟩ : BufTy).Contents (Elt F) → (⟨S256x32x56x56, .f32⟩ : BufTy).Contents (Elt F)),
    unary main_v30 main_v37 (fptosi 32 : (⟨S256x32x56x56, .f32⟩ : BufTy).Contents (Elt F) → (⟨S256x32x56x56, .i32⟩ : BufTy).Contents (Elt F)),
    reshape main_v37 main_v38 rfl shapeCasts_S256x32x56x56_S256x100352,
    unary main_arg1 main_v39 ((extractStridedSlice S256x1 ![0, 0] · slices_S256x7_S256x1_0_0) : (⟨S256x7, .f32⟩ : BufTy).Contents (Elt F) → (⟨S256x1, .f32⟩ : BufTy).Contents (Elt F)),
    reshape main_v39 main_v40 rfl shapeCasts_S256x1_S256,
    binary main_arg3 main_v6 main_v41 (mulf : (⟨S256, .f32⟩ : BufTy).Contents (Elt F) → (⟨S256, .f32⟩ : BufTy).Contents (Elt F) → (⟨S256, .f32⟩ : BufTy).Contents (Elt F)),
    binary main_v40 main_v41 main_v42 (subf : (⟨S256, .f32⟩ : BufTy).Contents (Elt F) → (⟨S256, .f32⟩ : BufTy).Contents (Elt F) → (⟨S256, .f32⟩ : BufTy).Contents (Elt F)),
    unary main_v42 main_v43 (broadcastInDim S256x1 ![0] bcast_S256_S256x1_0 : (⟨S256, .f32⟩ : BufTy).Contents (Elt F) → (⟨S256x1, .f32⟩ : BufTy).Contents (Elt F)),
    binary main_v43 main_arg1 main_v44 ((fun a b => concatenate S256x8 1 [⟨S256x1, a⟩, ⟨S256x7, b⟩] concatenates_S256x1_S256x7_S256x8_d1) : (⟨S256x1, .f32⟩ : BufTy).Contents (Elt F) → (⟨S256x7, .f32⟩ : BufTy).Contents (Elt F) → (⟨S256x8, .f32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S256x100352, .i32⟩) main_call2_v0) (broadcastInDim S256x100352 ![] bcast_S_S256x100352),
    TRef.binary (TRef.of (T := ⟨S256x100352, .i32⟩) main_v38) (TRef.of (T := ⟨S256x100352, .i32⟩) main_call2_v0) (TRef.of (T := ⟨S256x100352, .i1⟩) main_call2_v1) (cmpi .slt),
    TRef.nullary (TRef.of (T := ⟨S_, .i32⟩) main_call2_c_0) (constantI S_ 32 8#32),
    TRef.unary (TRef.of (T := ⟨S_, .i32⟩) main_call2_c_0) (TRef.of (T := ⟨S256x100352, .i32⟩) main_call2_v2) (broadcastInDim S256x100352 ![] bcast_S_S256x100352),
    TRef.binary (TRef.of (T := ⟨S256x100352, .i32⟩) main_v38) (TRef.of (T := ⟨S256x100352, .i32⟩) main_call2_v2) (TRef.of (T := ⟨S256x100352, .i32⟩) main_call2_v3) addi,
    TRef.ternary (TRef.of (T := ⟨S256x100352, .i1⟩) main_call2_v1) (TRef.of (T := ⟨S256x100352, .i32⟩) main_call2_v3) (TRef.of (T := ⟨S256x100352, .i32⟩) main_v38) (TRef.of (T := ⟨S256x100352, .i32⟩) main_call2_v4) select,
    TRef.reshape (TRef.of (T := ⟨S256x100352, .i32⟩) main_call2_v4) (TRef.of (T := ⟨S256x100352x1, .i32⟩) main_call2_v5) rfl shapeCasts_S256x100352_S256x100352x1,
    TRef.nullary (TRef.of (T := ⟨S1, .i32⟩) main_call2_c_1) (constantI S1 32 7#32),
    TRef.nullary (TRef.of (T := ⟨S_, .i32⟩) main_call2_c_2) (constantI S_ 32 0#32),
    TRef.unary (TRef.of (T := ⟨S_, .i32⟩) main_call2_c_2) (TRef.of (T := ⟨S256x100352x1, .i32⟩) main_call2_v6) (broadcastInDim S256x100352x1 ![] bcast_S_S256x100352x1),
    TRef.binary (TRef.of (T := ⟨S256x100352x1, .i32⟩) main_call2_v5) (TRef.of (T := ⟨S256x100352x1, .i32⟩) main_call2_v6) (TRef.of (T := ⟨S256x100352x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S256x100352x1, .i32⟩) main_call2_v9) (broadcastInDim S256x100352x1 ![0, 1, 2] bcast_S1x1x1_S256x100352x1_0_1_2),
    TRef.binary (TRef.of (T := ⟨S256x100352x1, .i32⟩) main_call2_v5) (TRef.of (T := ⟨S256x100352x1, .i32⟩) main_call2_v9) (TRef.of (T := ⟨S256x100352x1, .i1⟩) main_call2_v10) (cmpi .sle),
    TRef.binary (TRef.of (T := ⟨S256x100352x1, .i1⟩) main_call2_v7) (TRef.of (T := ⟨S256x100352x1, .i1⟩) main_call2_v10) (TRef.of (T := ⟨S256x100352x1, .i1⟩) main_call2_v11) andi,
    TRef.nullary (TRef.of (T := ⟨S_, .i1⟩) main_call2_c_3) (constantI S_ 1 1#1),
    TRef.binary (TRef.of (T := ⟨S256x100352x1, .i1⟩) main_call2_v11) (TRef.of (T := ⟨S_, .i1⟩) main_call2_c_3) (TRef.of (T := ⟨S256x100352, .i1⟩) main_call2_v12) (fun x v => Host.reduce IntOp.andi x v reducesTo_S256x100352x1_S256x100352_d2 h_S_),
    TRef.binary (TRef.of (T := ⟨S256x8, .f32⟩) main_v44) (TRef.of (T := ⟨S256x100352x1, .i32⟩) main_call2_v5) (TRef.of (T := ⟨S256x100352, .f32⟩) main_call2_v13) (fun x i => Host.gather gather_S256x8_S256x100352x1_S256x100352_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S256x100352, .f32⟩) main_call2_v14) (broadcastInDim S256x100352 ![] bcast_S_S256x100352),
    TRef.ternary (TRef.of (T := ⟨S256x100352, .i1⟩) main_call2_v12) (TRef.of (T := ⟨S256x100352, .f32⟩) main_call2_v13) (TRef.of (T := ⟨S256x100352, .f32⟩) main_call2_v14) (TRef.of (T := ⟨S256x100352, .f32⟩) main_v45) select,
    reshape main_v45 main_v46 rfl shapeCasts_S256x100352_S256x32x56x56,
    TRef.nullary (TRef.of (T := ⟨S_, .i32⟩) main_call3_c) (constantI S_ 32 0#32),
    TRef.unary (TRef.of (T := ⟨S_, .i32⟩) main_call3_c) (TRef.of (T := ⟨S256x100352, .i32⟩) main_call3_v0) (broadcastInDim S256x100352 ![] bcast_S_S256x100352),
    TRef.binary (TRef.of (T := ⟨S256x100352, .i32⟩) main_v38) (TRef.of (T := ⟨S256x100352, .i32⟩) main_call3_v0) (TRef.of (T := ⟨S256x100352, .i1⟩) main_call3_v1) (cmpi .slt),
    TRef.nullary (TRef.of (T := ⟨S_, .i32⟩) main_call3_c_0) (constantI S_ 32 8#32),
    TRef.unary (TRef.of (T := ⟨S_, .i32⟩) main_call3_c_0) (TRef.of (T := ⟨S256x100352, .i32⟩) main_call3_v2) (broadcastInDim S256x100352 ![] bcast_S_S256x100352),
    TRef.binary (TRef.of (T := ⟨S256x100352, .i32⟩) main_v38) (TRef.of (T := ⟨S256x100352, .i32⟩) main_call3_v2) (TRef.of (T := ⟨S256x100352, .i32⟩) main_call3_v3) addi,
    TRef.ternary (TRef.of (T := ⟨S256x100352, .i1⟩) main_call3_v1) (TRef.of (T := ⟨S256x100352, .i32⟩) main_call3_v3) (TRef.of (T := ⟨S256x100352, .i32⟩) main_v38) (TRef.of (T := ⟨S256x100352, .i32⟩) main_call3_v4) select,
    TRef.reshape (TRef.of (T := ⟨S256x100352, .i32⟩) main_call3_v4) (TRef.of (T := ⟨S256x100352x1, .i32⟩) main_call3_v5) rfl shapeCasts_S256x100352_S256x100352x1,
    TRef.nullary (TRef.of (T := ⟨S1, .i32⟩) main_call3_c_1) (constantI S1 32 7#32),
    TRef.nullary (TRef.of (T := ⟨S_, .i32⟩) main_call3_c_2) (constantI S_ 32 0#32),
    TRef.unary (TRef.of (T := ⟨S_, .i32⟩) main_call3_c_2) (TRef.of (T := ⟨S256x100352x1, .i32⟩) main_call3_v6) (broadcastInDim S256x100352x1 ![] bcast_S_S256x100352x1),
    TRef.binary (TRef.of (T := ⟨S256x100352x1, .i32⟩) main_call3_v5) (TRef.of (T := ⟨S256x100352x1, .i32⟩) main_call3_v6) (TRef.of (T := ⟨S256x100352x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S256x100352x1, .i32⟩) main_call3_v9) (broadcastInDim S256x100352x1 ![0, 1, 2] bcast_S1x1x1_S256x100352x1_0_1_2),
    TRef.binary (TRef.of (T := ⟨S256x100352x1, .i32⟩) main_call3_v5) (TRef.of (T := ⟨S256x100352x1, .i32⟩) main_call3_v9) (TRef.of (T := ⟨S256x100352x1, .i1⟩) main_call3_v10) (cmpi .sle),
    TRef.binary (TRef.of (T := ⟨S256x100352x1, .i1⟩) main_call3_v7) (TRef.of (T := ⟨S256x100352x1, .i1⟩) main_call3_v10) (TRef.of (T := ⟨S256x100352x1, .i1⟩) main_call3_v11) andi,
    TRef.nullary (TRef.of (T := ⟨S_, .i1⟩) main_call3_c_3) (constantI S_ 1 1#1),
    TRef.binary (TRef.of (T := ⟨S256x100352x1, .i1⟩) main_call3_v11) (TRef.of (T := ⟨S_, .i1⟩) main_call3_c_3) (TRef.of (T := ⟨S256x100352, .i1⟩) main_call3_v12) (fun x v => Host.reduce IntOp.andi x v reducesTo_S256x100352x1_S256x100352_d2 h_S_),
    TRef.binary (TRef.of (T := ⟨S256x8, .f32⟩) main_v15) (TRef.of (T := ⟨S256x100352x1, .i32⟩) main_call3_v5) (TRef.of (T := ⟨S256x100352, .f32⟩) main_call3_v13) (fun x i => Host.gather gather_S256x8_S256x100352x1_S256x100352_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S256x100352, .f32⟩) main_call3_v14) (broadcastInDim S256x100352 ![] bcast_S_S256x100352),
    TRef.ternary (TRef.of (T := ⟨S256x100352, .i1⟩) main_call3_v12) (TRef.of (T := ⟨S256x100352, .f32⟩) main_call3_v13) (TRef.of (T := ⟨S256x100352, .f32⟩) main_call3_v14) (TRef.of (T := ⟨S256x100352, .f32⟩) main_v47) select,
    reshape main_v47 main_v48 rfl shapeCasts_S256x100352_S256x32x56x56,
    binary main_v36 main_v48 main_v49 (mulf : (⟨S256x32x56x56, .f32⟩ : BufTy).Contents (Elt F) → (⟨S256x32x56x56, .f32⟩ : BufTy).Contents (Elt F) → (⟨S256x32x56x56, .f32⟩ : BufTy).Contents (Elt F)),
    binary main_v46 main_v49 main_v50 (addf : (⟨S256x32x56x56, .f32⟩ : BufTy).Contents (Elt F) → (⟨S256x32x56x56, .f32⟩ : BufTy).Contents (Elt F) → (⟨S256x32x56x56, .f32⟩ : BufTy).Contents (Elt F)),
    unary main_v50 main_v51 ((transpose S32x256x56x56 [1, 0, 2, 3] · transposes_S256x32x56x56_S32x256x56x56_1_0_2_3) : (⟨S256x32x56x56, .f32⟩ : BufTy).Contents (Elt F) → (⟨S32x256x56x56, .f32⟩ : BufTy).Contents (Elt F)) ]

/-- The per-channel tables: the region length, the rolled points and the eight slopes, the shifted left bound. -/
abbrev tableLines : List (HloOp τ sig (Elt F)) :=
  [ unary main_arg2 main_v0 ((extractStridedSlice S256x1 ![0, 0] · slices_S256x2_S256x1_0_0) : (⟨S256x2, .f32⟩ : BufTy).Contents (Elt F) → (⟨S256x1, .f32⟩ : BufTy).Contents (Elt F)),
    reshape main_v0 main_v1 rfl shapeCasts_S256x1_S256,
    unary main_arg2 main_v2 ((extractStridedSlice S256x1 ![0, 1] · slices_S256x2_S256x1_0_1) : (⟨S256x2, .f32⟩ : BufTy).Contents (Elt F) → (⟨S256x1, .f32⟩ : BufTy).Contents (Elt F)),
    reshape main_v2 main_v3 rfl shapeCasts_S256x1_S256,
    binary main_v3 main_v1 main_v4 (subf : (⟨S256, .f32⟩ : BufTy).Contents (Elt F) → (⟨S256, .f32⟩ : BufTy).Contents (Elt F) → (⟨S256, .f32⟩ : BufTy).Contents (Elt F)),
    nullary main_cst (constant S_ .f32 0x40C00000#32),
    unary main_cst main_v5 (broadcastInDim S256 ![] bcast_S_S256 : (⟨S_, .f32⟩ : BufTy).Contents (Elt F) → (⟨S256, .f32⟩ : BufTy).Contents (Elt F)),
    binary main_v4 main_v5 main_v6 (Host.divf : (⟨S256, .f32⟩ : BufTy).Contents (Elt F) → (⟨S256, .f32⟩ : BufTy).Contents (Elt F) → (⟨S256, .f32⟩ : BufTy).Contents (Elt F)),
    TRef.unary (TRef.of (T := ⟨S256x7, .f32⟩) main_arg1) (TRef.of (T := ⟨S256x1, .f32⟩) main_call0_v0) (extractStridedSlice S256x1 ![0, 6] · slices_S256x7_S256x1_0_6),
    TRef.unary (TRef.of (T := ⟨S256x7, .f32⟩) main_arg1) (TRef.of (T := ⟨S256x6, .f32⟩) main_call0_v1) (extractStridedSlice S256x6 ![0, 0] · slices_S256x7_S256x6_0_0),
    TRef.binary (TRef.of (T := ⟨S256x1, .f32⟩) main_call0_v0) (TRef.of (T := ⟨S256x6, .f32⟩) main_call0_v1) (TRef.of (T := ⟨S256x7, .f32⟩) main_v7) (fun a b => concatenate S256x7 1 [⟨S256x1, a⟩, ⟨S256x6, b⟩] concatenates_S256x1_S256x6_S256x7_d1),
    binary main_arg1 main_v7 main_v8 (subf : (⟨S256x7, .f32⟩ : BufTy).Contents (Elt F) → (⟨S256x7, .f32⟩ : BufTy).Contents (Elt F) → (⟨S256x7, .f32⟩ : BufTy).Contents (Elt F)),
    unary main_v8 main_v9 ((extractStridedSlice S256x6 ![0, 1] · slices_S256x7_S256x6_0_1) : (⟨S256x7, .f32⟩ : BufTy).Contents (Elt F) → (⟨S256x6, .f32⟩ : BufTy).Contents (Elt F)),
    unary main_v6 main_v10 (broadcastInDim S256x1 ![0] bcast_S256_S256x1_0 : (⟨S256, .f32⟩ : BufTy).Contents (Elt F) → (⟨S256x1, .f32⟩ : BufTy).Contents (Elt F)),
    unary main_v10 main_v11 (broadcastInDim S256x6 ![0, 1] bcast_S256x1_S256x6_0_1 : (⟨S256x1, .f32⟩ : BufTy).Contents (Elt F) → (⟨S256x6, .f32⟩ : BufTy).Contents (Elt F)),
    binary main_v9 main_v11 main_v12 (Host.divf : (⟨S256x6, .f32⟩ : BufTy).Contents (Elt F) → (⟨S256x6, .f32⟩ : BufTy).Contents (Elt F) → (⟨S256x6, .f32⟩ : BufTy).Contents (Elt F)),
    unary main_arg3 main_v13 (broadcastInDim S256x1 ![0] bcast_S256_S256x1_0 : (⟨S256, .f32⟩ : BufTy).Contents (Elt F) → (⟨S256x1, .f32⟩ : BufTy).Contents (Elt F)),
    unary main_arg4 main_v14 (broadcastInDim S256x1 ![0] bcast_S256_S256x1_0 : (⟨S256, .f32⟩ : BufTy).Contents (Elt F) → (⟨S256x1, .f32⟩ : BufTy).Contents (Elt F)),
    nary ![main_v13, main_v12, main_v14] main_v15 (fun u => concatenate S256x8 1 [⟨S256x1, u 0⟩, ⟨S256x6, u 1⟩, ⟨S256x1, u 2⟩] concatenates_S256x1_S256x6_S256x1_S256x8_d1),
    binary main_v1 main_v6 main_v16 (subf : (⟨S256, .f32⟩ : BufTy).Contents (Elt F) → (⟨S256, .f32⟩ : BufTy).Contents (Elt F) → (⟨S256, .f32⟩ : BufTy).Contents (Elt F)) ]

/-- The input normalized channel by channel: moved channels-last, shifted by the left bound, divided by seven region lengths, moved channels-first. -/
abbrev normalLines : List (HloOp τ sig (Elt F)) :=
  [ unary main_arg0 main_v17 ((transpose S32x56x56x256 [0, 2, 3, 1] · transposes_S32x256x56x56_S32x56x56x256_0_2_3_1) : (⟨S32x256x56x56, .f32⟩ : BufTy).Contents (Elt F) → (⟨S32x56x56x256, .f32⟩ : BufTy).Contents (Elt F)),
    unary main_v16 main_v18 (broadcastInDim S1x1x1x256 ![3] bcast_S256_S1x1x1x256_3 : (⟨S256, .f32⟩ : BufTy).Contents (Elt F) → (⟨S1x1x1x256, .f32⟩ : BufTy).Contents (Elt F)),
    unary main_v18 main_v19 (broadcastInDim S32x56x56x256 ![0, 1, 2, 3] bcast_S1x1x1x256_S32x56x56x256_0_1_2_3 : (⟨S1x1x1x256, .f32⟩ : BufTy).Contents (Elt F) → (⟨S32x56x56x256, .f32⟩ : BufTy).Contents (Elt F)),
    binary main_v17 main_v19 main_v20 (subf : (⟨S32x56x56x256, .f32⟩ : BufTy).Contents (Elt F) → (⟨S32x56x56x256, .f32⟩ : BufTy).Contents (Elt F) → (⟨S32x56x56x256, .f32⟩ : BufTy).Contents (Elt F)),
    nullary main_cst_0 (constant S_ .f32 0x40E00000#32),
    unary main_cst_0 main_v21 (broadcastInDim S256 ![] bcast_S_S256 : (⟨S_, .f32⟩ : BufTy).Contents (Elt F) → (⟨S256, .f32⟩ : BufTy).Contents (Elt F)),
    binary main_v21 main_v6 main_v22 (mulf : (⟨S256, .f32⟩ : BufTy).Contents (Elt F) → (⟨S256, .f32⟩ : BufTy).Contents (Elt F) → (⟨S256, .f32⟩ : BufTy).Contents (Elt F)),
    unary main_v22 main_v23 (broadcastInDim S1x1x1x256 ![3] bcast_S256_S1x1x1x256_3 : (⟨S256, .f32⟩ : BufTy).Contents (Elt F) → (⟨S1x1x1x256, .f32⟩ : BufTy).Contents (Elt F)),
    unary main_v23 main_v24 (broadcastInDim S32x56x56x256 ![0, 1, 2, 3] bcast_S1x1x1x256_S32x56x56x256_0_1_2_3 : (⟨S1x1x1x256, .f32⟩ : BufTy).Contents (Elt F) → (⟨S32x56x56x256, .f32⟩ : BufTy).Contents (Elt F)),
    binary main_v20 main_v24 main_v25 (Host.divf : (⟨S32x56x56x256, .f32⟩ : BufTy).Contents (Elt F) → (⟨S32x56x56x256, .f32⟩ : BufTy).Contents (Elt F) → (⟨S32x56x56x256, .f32⟩ : BufTy).Contents (Elt F)),
    unary main_v25 main_v26 ((transpose S256x32x56x56 [3, 0, 1, 2] · transposes_S32x56x56x256_S256x32x56x56_3_0_1_2) : (⟨S32x56x56x256, .f32⟩ : BufTy).Contents (Elt F) → (⟨S256x32x56x56, .f32⟩ : BufTy).Contents (Elt F)) ]

/-- The clipped position, its region (the floor of seven times it), the offset inside the region times the region length, and the region as an integer index, flattened per channel. -/
abbrev regionLines : List (HloOp τ sig (Elt F)) :=
  [ nullary main_cst_1 (constant S_ .f32 0x00000000#32),
    nullary main_cst_2 (constant S_ .f32 0x3F8020C5#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S256x32x56x56, .f32⟩) main_call1_v1) (broadcastInDim S256x32x56x56 ![] bcast_S_S256x32x56x56),
    TRef.binary (TRef.of (T := ⟨S256x32x56x56, .f32⟩) main_call1_v1) (TRef.of (T := ⟨S256x32x56x56, .f32⟩) main_v26) (TRef.of (T := ⟨S256x32x56x56, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S256x32x56x56, .f32⟩) main_call1_v4) (broadcastInDim S256x32x56x56 ![] bcast_S_S256x32x56x56),
    TRef.binary (TRef.of (T := ⟨S256x32x56x56, .f32⟩) main_call1_v4) (TRef.of (T := ⟨S256x32x56x56, .f32⟩) main_call1_v2) (TRef.of (T := ⟨S256x32x56x56, .f32⟩) main_v27) minimumf,
    nullary main_cst_3 (constant S_ .f32 0x40E00000#32),
    unary main_cst_3 main_v28 (broadcastInDim S256x32x56x56 ![] bcast_S_S256x32x56x56 : (⟨S_, .f32⟩ : BufTy).Contents (Elt F) → (⟨S256x32x56x56, .f32⟩ : BufTy).Contents (Elt F)),
    binary main_v27 main_v28 main_v29 (mulf : (⟨S256x32x56x56, .f32⟩ : BufTy).Contents (Elt F) → (⟨S256x32x56x56, .f32⟩ : BufTy).Contents (Elt F) → (⟨S256x32x56x56, .f32⟩ : BufTy).Contents (Elt F)),
    unary main_v29 main_v30 (Host.floor : (⟨S256x32x56x56, .f32⟩ : BufTy).Contents (Elt F) → (⟨S256x32x56x56, .f32⟩ : BufTy).Contents (Elt F)),
    nullary main_cst_4 (constant S_ .f32 0x40E00000#32),
    unary main_cst_4 main_v31 (broadcastInDim S256x32x56x56 ![] bcast_S_S256x32x56x56 : (⟨S_, .f32⟩ : BufTy).Contents (Elt F) → (⟨S256x32x56x56, .f32⟩ : BufTy).Contents (Elt F)),
    binary main_v26 main_v31 main_v32 (mulf : (⟨S256x32x56x56, .f32⟩ : BufTy).Contents (Elt F) → (⟨S256x32x56x56, .f32⟩ : BufTy).Contents (Elt F) → (⟨S256x32x56x56, .f32⟩ : BufTy).Contents (Elt F)),
    binary main_v32 main_v30 main_v33 (subf : (⟨S256x32x56x56, .f32⟩ : BufTy).Contents (Elt F) → (⟨S256x32x56x56, .f32⟩ : BufTy).Contents (Elt F) → (⟨S256x32x56x56, .f32⟩ : BufTy).Contents (Elt F)),
    reshape main_v6 main_v34 rfl shapeCasts_S256_S256x1x1x1,
    unary main_v34 main_v35 (broadcastInDim S256x32x56x56 ![0, 1, 2, 3] bcast_S256x1x1x1_S256x32x56x56_0_1_2_3 : (⟨S256x1x1x1, .f32⟩ : BufTy).Contents (Elt F) → (⟨S256x32x56x56, .f32⟩ : BufTy).Contents (Elt F)),
    binary main_v33 main_v35 main_v36 (mulf : (⟨S256x32x56x56, .f32⟩ : BufTy).Contents (Elt F) → (⟨S256x32x56x56, .f32⟩ : BufTy).Contents (Elt F) → (⟨S256x32x56x56, .f32⟩ : BufTy).Contents (Elt F)),
    unary main_v30 main_v37 (fptosi 32 : (⟨S256x32x56x56, .f32⟩ : BufTy).Contents (Elt F) → (⟨S256x32x56x56, .i32⟩ : BufTy).Contents (Elt F)),
    reshape main_v37 main_v38 rfl shapeCasts_S256x32x56x56_S256x100352 ]

/-- The eight left points per channel: the point left of the left bound, then the seven points. -/
abbrev pointLines : List (HloOp τ sig (Elt F)) :=
  [ unary main_arg1 main_v39 ((extractStridedSlice S256x1 ![0, 0] · slices_S256x7_S256x1_0_0) : (⟨S256x7, .f32⟩ : BufTy).Contents (Elt F) → (⟨S256x1, .f32⟩ : BufTy).Contents (Elt F)),
    reshape main_v39 main_v40 rfl shapeCasts_S256x1_S256,
    binary main_arg3 main_v6 main_v41 (mulf : (⟨S256, .f32⟩ : BufTy).Contents (Elt F) → (⟨S256, .f32⟩ : BufTy).Contents (Elt F) → (⟨S256, .f32⟩ : BufTy).Contents (Elt F)),
    binary main_v40 main_v41 main_v42 (subf : (⟨S256, .f32⟩ : BufTy).Contents (Elt F) → (⟨S256, .f32⟩ : BufTy).Contents (Elt F) → (⟨S256, .f32⟩ : BufTy).Contents (Elt F)),
    unary main_v42 main_v43 (broadcastInDim S256x1 ![0] bcast_S256_S256x1_0 : (⟨S256, .f32⟩ : BufTy).Contents (Elt F) → (⟨S256x1, .f32⟩ : BufTy).Contents (Elt F)),
    binary main_v43 main_arg1 main_v44 ((fun a b => concatenate S256x8 1 [⟨S256x1, a⟩, ⟨S256x7, b⟩] concatenates_S256x1_S256x7_S256x8_d1) : (⟨S256x1, .f32⟩ : BufTy).Contents (Elt F) → (⟨S256x7, .f32⟩ : BufTy).Contents (Elt F) → (⟨S256x8, .f32⟩ : BufTy).Contents (Elt F)) ]

/-- The look-up of the left points, first part: a negative index is moved up by eight, and the index is given a unit axis. -/
abbrev pointIndexLines : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S256x100352, .i32⟩) main_call2_v0) (broadcastInDim S256x100352 ![] bcast_S_S256x100352),
    TRef.binary (TRef.of (T := ⟨S256x100352, .i32⟩) main_v38) (TRef.of (T := ⟨S256x100352, .i32⟩) main_call2_v0) (TRef.of (T := ⟨S256x100352, .i1⟩) main_call2_v1) (cmpi .slt),
    TRef.nullary (TRef.of (T := ⟨S_, .i32⟩) main_call2_c_0) (constantI S_ 32 8#32),
    TRef.unary (TRef.of (T := ⟨S_, .i32⟩) main_call2_c_0) (TRef.of (T := ⟨S256x100352, .i32⟩) main_call2_v2) (broadcastInDim S256x100352 ![] bcast_S_S256x100352),
    TRef.binary (TRef.of (T := ⟨S256x100352, .i32⟩) main_v38) (TRef.of (T := ⟨S256x100352, .i32⟩) main_call2_v2) (TRef.of (T := ⟨S256x100352, .i32⟩) main_call2_v3) addi,
    TRef.ternary (TRef.of (T := ⟨S256x100352, .i1⟩) main_call2_v1) (TRef.of (T := ⟨S256x100352, .i32⟩) main_call2_v3) (TRef.of (T := ⟨S256x100352, .i32⟩) main_v38) (TRef.of (T := ⟨S256x100352, .i32⟩) main_call2_v4) select,
    TRef.reshape (TRef.of (T := ⟨S256x100352, .i32⟩) main_call2_v4) (TRef.of (T := ⟨S256x100352x1, .i32⟩) main_call2_v5) rfl shapeCasts_S256x100352_S256x100352x1 ]

/-- Second part: the two comparisons of the index with 0 and with 7, and their conjunction. -/
abbrev pointRangeLines : List (HloOp τ sig (Elt F)) :=
  [ TRef.nullary (TRef.of (T := ⟨S1, .i32⟩) main_call2_c_1) (constantI S1 32 7#32),
    TRef.nullary (TRef.of (T := ⟨S_, .i32⟩) main_call2_c_2) (constantI S_ 32 0#32),
    TRef.unary (TRef.of (T := ⟨S_, .i32⟩) main_call2_c_2) (TRef.of (T := ⟨S256x100352x1, .i32⟩) main_call2_v6) (broadcastInDim S256x100352x1 ![] bcast_S_S256x100352x1),
    TRef.binary (TRef.of (T := ⟨S256x100352x1, .i32⟩) main_call2_v5) (TRef.of (T := ⟨S256x100352x1, .i32⟩) main_call2_v6) (TRef.of (T := ⟨S256x100352x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S256x100352x1, .i32⟩) main_call2_v9) (broadcastInDim S256x100352x1 ![0, 1, 2] bcast_S1x1x1_S256x100352x1_0_1_2),
    TRef.binary (TRef.of (T := ⟨S256x100352x1, .i32⟩) main_call2_v5) (TRef.of (T := ⟨S256x100352x1, .i32⟩) main_call2_v9) (TRef.of (T := ⟨S256x100352x1, .i1⟩) main_call2_v10) (cmpi .sle),
    TRef.binary (TRef.of (T := ⟨S256x100352x1, .i1⟩) main_call2_v7) (TRef.of (T := ⟨S256x100352x1, .i1⟩) main_call2_v10) (TRef.of (T := ⟨S256x100352x1, .i1⟩) main_call2_v11) andi ]

/-- Third part: the conjunction reduced over the unit axis: whether the index lies in 0 … 7. -/
abbrev pointMaskLines : List (HloOp τ sig (Elt F)) :=
  [ TRef.nullary (TRef.of (T := ⟨S_, .i1⟩) main_call2_c_3) (constantI S_ 1 1#1),
    TRef.binary (TRef.of (T := ⟨S256x100352x1, .i1⟩) main_call2_v11) (TRef.of (T := ⟨S_, .i1⟩) main_call2_c_3) (TRef.of (T := ⟨S256x100352, .i1⟩) main_call2_v12) (fun x v => Host.reduce IntOp.andi x v reducesTo_S256x100352x1_S256x100352_d2 h_S_) ]

/-- Fourth part: the left points table read along its second axis at the index. -/
abbrev pointGatherLines : List (HloOp τ sig (Elt F)) :=
  [ TRef.binary (TRef.of (T := ⟨S256x8, .f32⟩) main_v44) (TRef.of (T := ⟨S256x100352x1, .i32⟩) main_call2_v5) (TRef.of (T := ⟨S256x100352, .f32⟩) main_call2_v13) (fun x i => Host.gather gather_S256x8_S256x100352x1_S256x100352_n_1_0_0_1_2_11 x i) ]

/-- Last part: the entry read where the index is in range, a not-a-number pattern elsewhere; then the element's shape. -/
abbrev pointPickLines : List (HloOp τ sig (Elt F)) :=
  [ TRef.nullary (TRef.of (T := ⟨S_, .f32⟩) main_call2_cst) (constant S_ .f32 0x7FC00000#32),
    TRef.unary (TRef.of (T := ⟨S_, .f32⟩) main_call2_cst) (TRef.of (T := ⟨S256x100352, .f32⟩) main_call2_v14) (broadcastInDim S256x100352 ![] bcast_S_S256x100352),
    TRef.ternary (TRef.of (T := ⟨S256x100352, .i1⟩) main_call2_v12) (TRef.of (T := ⟨S256x100352, .f32⟩) main_call2_v13) (TRef.of (T := ⟨S256x100352, .f32⟩) main_call2_v14) (TRef.of (T := ⟨S256x100352, .f32⟩) main_v45) select,
    reshape main_v45 main_v46 rfl shapeCasts_S256x100352_S256x32x56x56 ]

/-- The look-up of the slopes, first part: a negative index is moved up by eight, and the index is given a unit axis. -/
abbrev slopeIndexLines : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S256x100352, .i32⟩) main_call3_v0) (broadcastInDim S256x100352 ![] bcast_S_S256x100352),
    TRef.binary (TRef.of (T := ⟨S256x100352, .i32⟩) main_v38) (TRef.of (T := ⟨S256x100352, .i32⟩) main_call3_v0) (TRef.of (T := ⟨S256x100352, .i1⟩) main_call3_v1) (cmpi .slt),
    TRef.nullary (TRef.of (T := ⟨S_, .i32⟩) main_call3_c_0) (constantI S_ 32 8#32),
    TRef.unary (TRef.of (T := ⟨S_, .i32⟩) main_call3_c_0) (TRef.of (T := ⟨S256x100352, .i32⟩) main_call3_v2) (broadcastInDim S256x100352 ![] bcast_S_S256x100352),
    TRef.binary (TRef.of (T := ⟨S256x100352, .i32⟩) main_v38) (TRef.of (T := ⟨S256x100352, .i32⟩) main_call3_v2) (TRef.of (T := ⟨S256x100352, .i32⟩) main_call3_v3) addi,
    TRef.ternary (TRef.of (T := ⟨S256x100352, .i1⟩) main_call3_v1) (TRef.of (T := ⟨S256x100352, .i32⟩) main_call3_v3) (TRef.of (T := ⟨S256x100352, .i32⟩) main_v38) (TRef.of (T := ⟨S256x100352, .i32⟩) main_call3_v4) select,
    TRef.reshape (TRef.of (T := ⟨S256x100352, .i32⟩) main_call3_v4) (TRef.of (T := ⟨S256x100352x1, .i32⟩) main_call3_v5) rfl shapeCasts_S256x100352_S256x100352x1 ]

/-- Second part: the two comparisons of the index with 0 and with 7, and their conjunction. -/
abbrev slopeRangeLines : List (HloOp τ sig (Elt F)) :=
  [ TRef.nullary (TRef.of (T := ⟨S1, .i32⟩) main_call3_c_1) (constantI S1 32 7#32),
    TRef.nullary (TRef.of (T := ⟨S_, .i32⟩) main_call3_c_2) (constantI S_ 32 0#32),
    TRef.unary (TRef.of (T := ⟨S_, .i32⟩) main_call3_c_2) (TRef.of (T := ⟨S256x100352x1, .i32⟩) main_call3_v6) (broadcastInDim S256x100352x1 ![] bcast_S_S256x100352x1),
    TRef.binary (TRef.of (T := ⟨S256x100352x1, .i32⟩) main_call3_v5) (TRef.of (T := ⟨S256x100352x1, .i32⟩) main_call3_v6) (TRef.of (T := ⟨S256x100352x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S256x100352x1, .i32⟩) main_call3_v9) (broadcastInDim S256x100352x1 ![0, 1, 2] bcast_S1x1x1_S256x100352x1_0_1_2),
    TRef.binary (TRef.of (T := ⟨S256x100352x1, .i32⟩) main_call3_v5) (TRef.of (T := ⟨S256x100352x1, .i32⟩) main_call3_v9) (TRef.of (T := ⟨S256x100352x1, .i1⟩) main_call3_v10) (cmpi .sle),
    TRef.binary (TRef.of (T := ⟨S256x100352x1, .i1⟩) main_call3_v7) (TRef.of (T := ⟨S256x100352x1, .i1⟩) main_call3_v10) (TRef.of (T := ⟨S256x100352x1, .i1⟩) main_call3_v11) andi ]

/-- Third part: the conjunction reduced over the unit axis: whether the index lies in 0 … 7. -/
abbrev slopeMaskLines : List (HloOp τ sig (Elt F)) :=
  [ TRef.nullary (TRef.of (T := ⟨S_, .i1⟩) main_call3_c_3) (constantI S_ 1 1#1),
    TRef.binary (TRef.of (T := ⟨S256x100352x1, .i1⟩) main_call3_v11) (TRef.of (T := ⟨S_, .i1⟩) main_call3_c_3) (TRef.of (T := ⟨S256x100352, .i1⟩) main_call3_v12) (fun x v => Host.reduce IntOp.andi x v reducesTo_S256x100352x1_S256x100352_d2 h_S_) ]

/-- Fourth part: the slopes table read along its second axis at the index. -/
abbrev slopeGatherLines : List (HloOp τ sig (Elt F)) :=
  [ TRef.binary (TRef.of (T := ⟨S256x8, .f32⟩) main_v15) (TRef.of (T := ⟨S256x100352x1, .i32⟩) main_call3_v5) (TRef.of (T := ⟨S256x100352, .f32⟩) main_call3_v13) (fun x i => Host.gather gather_S256x8_S256x100352x1_S256x100352_n_1_0_0_1_2_11 x i) ]

/-- Last part: the entry read where the index is in range, a not-a-number pattern elsewhere; then the element's shape. -/
abbrev slopePickLines : List (HloOp τ sig (Elt F)) :=
  [ TRef.nullary (TRef.of (T := ⟨S_, .f32⟩) main_call3_cst) (constant S_ .f32 0x7FC00000#32),
    TRef.unary (TRef.of (T := ⟨S_, .f32⟩) main_call3_cst) (TRef.of (T := ⟨S256x100352, .f32⟩) main_call3_v14) (broadcastInDim S256x100352 ![] bcast_S_S256x100352),
    TRef.ternary (TRef.of (T := ⟨S256x100352, .i1⟩) main_call3_v12) (TRef.of (T := ⟨S256x100352, .f32⟩) main_call3_v13) (TRef.of (T := ⟨S256x100352, .f32⟩) main_call3_v14) (TRef.of (T := ⟨S256x100352, .f32⟩) main_v47) select,
    reshape main_v47 main_v48 rfl shapeCasts_S256x100352_S256x32x56x56 ]

/-- The left point plus the offset times the slope, moved back to [image, channel, row, column]. -/
abbrev combineLines : List (HloOp τ sig (Elt F)) :=
  [ binary main_v36 main_v48 main_v49 (mulf : (⟨S256x32x56x56, .f32⟩ : BufTy).Contents (Elt F) → (⟨S256x32x56x56, .f32⟩ : BufTy).Contents (Elt F) → (⟨S256x32x56x56, .f32⟩ : BufTy).Contents (Elt F)),
    binary main_v46 main_v49 main_v50 (addf : (⟨S256x32x56x56, .f32⟩ : BufTy).Contents (Elt F) → (⟨S256x32x56x56, .f32⟩ : BufTy).Contents (Elt F) → (⟨S256x32x56x56, .f32⟩ : BufTy).Contents (Elt F)),
    unary main_v50 main_v51 ((transpose S32x256x56x56 [1, 0, 2, 3] · transposes_S256x32x56x56_S32x256x56x56_1_0_2_3) : (⟨S256x32x56x56, .f32⟩ : BufTy).Contents (Elt F) → (⟨S32x256x56x56, .f32⟩ : BufTy).Contents (Elt F)) ]

set_option maxRecDepth 8192 in
set_option maxHeartbeats 4000000 in
theorem main_is_line (c : Dev nD) : main (F := F) c = seq line := rfl
theorem nothing_scoped : (Finset.univ.filter fun b : Ref sig .tc => b.isScoped) = ∅ := by decide
theorem no_scoped_semaphore : (Finset.univ.filter fun sm : SemLoc sig => sm.isScoped .tc) = ∅ := by decide
set_option maxRecDepth 8192 in
theorem line_on_core : (line : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., unary_bufs_sub .., unary_bufs_sub .., binary_bufs_sub .., binary_bufs_sub .., unary_bufs_sub .., unary_bufs_sub .., unary_bufs_sub .., binary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., reshape_bufs_sub .., unary_bufs_sub .., binary_bufs_sub .., unary_bufs_sub .., reshape_bufs_sub .., unary_bufs_sub .., reshape_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., binary_bufs_sub .., unary_bufs_sub ..⟩

set_option maxRecDepth 8192 in
set_option maxHeartbeats 4000000 in
/-- The line is its fifteen segments in order. -/
theorem line_cut : (line : List (HloOp τ sig (Elt F))) = tableLines ++ normalLines ++ regionLines ++ pointLines ++ pointIndexLines ++ pointRangeLines ++ pointMaskLines ++ pointGatherLines ++ pointPickLines ++ slopeIndexLines ++ slopeRangeLines ++ slopeMaskLines ++ slopeGatherLines ++ slopePickLines ++ combineLines := rfl

/-- Contents after two stretches of operations are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each segment leaves untouched -/

theorem tableLines_keep_arg0 (W : Valuation τ sig (Elt F)) : after tableLines W (Proc.devRef .tc main_arg0) = W (Proc.devRef .tc main_arg0) := by
  after_results_simp
theorem tableLines_keep_arg1 (W : Valuation τ sig (Elt F)) : after tableLines W (Proc.devRef .tc main_arg1) = W (Proc.devRef .tc main_arg1) := by
  after_results_simp
theorem tableLines_keep_arg3 (W : Valuation τ sig (Elt F)) : after tableLines W (Proc.devRef .tc main_arg3) = W (Proc.devRef .tc main_arg3) := by
  after_results_simp
theorem normalLines_keep_arg1 (W : Valuation τ sig (Elt F)) : after normalLines W (Proc.devRef .tc main_arg1) = W (Proc.devRef .tc main_arg1) := by
  after_results_simp
theorem normalLines_keep_arg3 (W : Valuation τ sig (Elt F)) : after normalLines W (Proc.devRef .tc main_arg3) = W (Proc.devRef .tc main_arg3) := by
  after_results_simp
theorem normalLines_keep_v6 (W : Valuation τ sig (Elt F)) : after normalLines W (Proc.devRef .tc main_v6) = W (Proc.devRef .tc main_v6) := by
  after_results_simp
theorem normalLines_keep_v15 (W : Valuation τ sig (Elt F)) : after normalLines W (Proc.devRef .tc main_v15) = W (Proc.devRef .tc main_v15) := by
  after_results_simp
theorem regionLines_keep_arg1 (W : Valuation τ sig (Elt F)) : after regionLines W (Proc.devRef .tc main_arg1) = W (Proc.devRef .tc main_arg1) := by
  after_results_simp
theorem regionLines_keep_arg3 (W : Valuation τ sig (Elt F)) : after regionLines W (Proc.devRef .tc main_arg3) = W (Proc.devRef .tc main_arg3) := by
  after_results_simp
theorem regionLines_keep_v6 (W : Valuation τ sig (Elt F)) : after regionLines W (Proc.devRef .tc main_v6) = W (Proc.devRef .tc main_v6) := by
  after_results_simp
theorem regionLines_keep_v15 (W : Valuation τ sig (Elt F)) : after regionLines W (Proc.devRef .tc main_v15) = W (Proc.devRef .tc main_v15) := by
  after_results_simp
theorem pointLines_keep_v15 (W : Valuation τ sig (Elt F)) : after pointLines W (Proc.devRef .tc main_v15) = W (Proc.devRef .tc main_v15) := by
  after_results_simp
theorem pointLines_keep_v36 (W : Valuation τ sig (Elt F)) : after pointLines W (Proc.devRef .tc main_v36) = W (Proc.devRef .tc main_v36) := by
  after_results_simp
theorem pointLines_keep_v38 (W : Valuation τ sig (Elt F)) : after pointLines W (Proc.devRef .tc main_v38) = W (Proc.devRef .tc main_v38) := by
  after_results_simp
theorem pointIndexLines_keep_v15 (W : Valuation τ sig (Elt F)) : after pointIndexLines W (Proc.devRef .tc main_v15) = W (Proc.devRef .tc main_v15) := by
  after_results_simp
theorem pointIndexLines_keep_v36 (W : Valuation τ sig (Elt F)) : after pointIndexLines W (Proc.devRef .tc main_v36) = W (Proc.devRef .tc main_v36) := by
  after_results_simp
theorem pointIndexLines_keep_v38 (W : Valuation τ sig (Elt F)) : after pointIndexLines W (Proc.devRef .tc main_v38) = W (Proc.devRef .tc main_v38) := by
  after_results_simp
theorem pointIndexLines_keep_v44 (W : Valuation τ sig (Elt F)) : after pointIndexLines W (Proc.devRef .tc main_v44) = W (Proc.devRef .tc main_v44) := by
  after_results_simp
theorem pointRangeLines_keep_v15 (W : Valuation τ sig (Elt F)) : after pointRangeLines W (Proc.devRef .tc main_v15) = W (Proc.devRef .tc main_v15) := by
  after_results_simp
theorem pointRangeLines_keep_v36 (W : Valuation τ sig (Elt F)) : after pointRangeLines W (Proc.devRef .tc main_v36) = W (Proc.devRef .tc main_v36) := by
  after_results_simp
theorem pointRangeLines_keep_v38 (W : Valuation τ sig (Elt F)) : after pointRangeLines W (Proc.devRef .tc main_v38) = W (Proc.devRef .tc main_v38) := by
  after_results_simp
theorem pointRangeLines_keep_v44 (W : Valuation τ sig (Elt F)) : after pointRangeLines W (Proc.devRef .tc main_v44) = W (Proc.devRef .tc main_v44) := by
  after_results_simp
theorem pointRangeLines_keep_call2_v5 (W : Valuation τ sig (Elt F)) : after pointRangeLines W (Proc.devRef .tc main_call2_v5) = W (Proc.devRef .tc main_call2_v5) := by
  after_results_simp
theorem pointMaskLines_keep_v15 (W : Valuation τ sig (Elt F)) : after pointMaskLines W (Proc.devRef .tc main_v15) = W (Proc.devRef .tc main_v15) := by
  after_results_simp
theorem pointMaskLines_keep_v36 (W : Valuation τ sig (Elt F)) : after pointMaskLines W (Proc.devRef .tc main_v36) = W (Proc.devRef .tc main_v36) := by
  after_results_simp
theorem pointMaskLines_keep_v38 (W : Valuation τ sig (Elt F)) : after pointMaskLines W (Proc.devRef .tc main_v38) = W (Proc.devRef .tc main_v38) := by
  after_results_simp
theorem pointMaskLines_keep_v44 (W : Valuation τ sig (Elt F)) : after pointMaskLines W (Proc.devRef .tc main_v44) = W (Proc.devRef .tc main_v44) := by
  after_results_simp
theorem pointMaskLines_keep_call2_v5 (W : Valuation τ sig (Elt F)) : after pointMaskLines W (Proc.devRef .tc main_call2_v5) = W (Proc.devRef .tc main_call2_v5) := by
  after_results_simp
theorem pointGatherLines_keep_v15 (W : Valuation τ sig (Elt F)) : after pointGatherLines W (Proc.devRef .tc main_v15) = W (Proc.devRef .tc main_v15) := by
  after_results_simp
theorem pointGatherLines_keep_v36 (W : Valuation τ sig (Elt F)) : after pointGatherLines W (Proc.devRef .tc main_v36) = W (Proc.devRef .tc main_v36) := by
  after_results_simp
theorem pointGatherLines_keep_v38 (W : Valuation τ sig (Elt F)) : after pointGatherLines W (Proc.devRef .tc main_v38) = W (Proc.devRef .tc main_v38) := by
  after_results_simp
theorem pointGatherLines_keep_call2_v12 (W : Valuation τ sig (Elt F)) : after pointGatherLines W (Proc.devRef .tc main_call2_v12) = W (Proc.devRef .tc main_call2_v12) := by
  after_results_simp
theorem pointPickLines_keep_v15 (W : Valuation τ sig (Elt F)) : after pointPickLines W (Proc.devRef .tc main_v15) = W (Proc.devRef .tc main_v15) := by
  after_results_simp
theorem pointPickLines_keep_v36 (W : Valuation τ sig (Elt F)) : after pointPickLines W (Proc.devRef .tc main_v36) = W (Proc.devRef .tc main_v36) := by
  after_results_simp
theorem pointPickLines_keep_v38 (W : Valuation τ sig (Elt F)) : after pointPickLines W (Proc.devRef .tc main_v38) = W (Proc.devRef .tc main_v38) := by
  after_results_simp
theorem slopeIndexLines_keep_v15 (W : Valuation τ sig (Elt F)) : after slopeIndexLines W (Proc.devRef .tc main_v15) = W (Proc.devRef .tc main_v15) := by
  after_results_simp
theorem slopeIndexLines_keep_v36 (W : Valuation τ sig (Elt F)) : after slopeIndexLines W (Proc.devRef .tc main_v36) = W (Proc.devRef .tc main_v36) := by
  after_results_simp
theorem slopeIndexLines_keep_v46 (W : Valuation τ sig (Elt F)) : after slopeIndexLines W (Proc.devRef .tc main_v46) = W (Proc.devRef .tc main_v46) := by
  after_results_simp
theorem slopeRangeLines_keep_v15 (W : Valuation τ sig (Elt F)) : after slopeRangeLines W (Proc.devRef .tc main_v15) = W (Proc.devRef .tc main_v15) := by
  after_results_simp
theorem slopeRangeLines_keep_v36 (W : Valuation τ sig (Elt F)) : after slopeRangeLines W (Proc.devRef .tc main_v36) = W (Proc.devRef .tc main_v36) := by
  after_results_simp
theorem slopeRangeLines_keep_v46 (W : Valuation τ sig (Elt F)) : after slopeRangeLines W (Proc.devRef .tc main_v46) = W (Proc.devRef .tc main_v46) := by
  after_results_simp
theorem slopeRangeLines_keep_call3_v5 (W : Valuation τ sig (Elt F)) : after slopeRangeLines W (Proc.devRef .tc main_call3_v5) = W (Proc.devRef .tc main_call3_v5) := by
  after_results_simp
theorem slopeMaskLines_keep_v15 (W : Valuation τ sig (Elt F)) : after slopeMaskLines W (Proc.devRef .tc main_v15) = W (Proc.devRef .tc main_v15) := by
  after_results_simp
theorem slopeMaskLines_keep_v36 (W : Valuation τ sig (Elt F)) : after slopeMaskLines W (Proc.devRef .tc main_v36) = W (Proc.devRef .tc main_v36) := by
  after_results_simp
theorem slopeMaskLines_keep_v46 (W : Valuation τ sig (Elt F)) : after slopeMaskLines W (Proc.devRef .tc main_v46) = W (Proc.devRef .tc main_v46) := by
  after_results_simp
theorem slopeMaskLines_keep_call3_v5 (W : Valuation τ sig (Elt F)) : after slopeMaskLines W (Proc.devRef .tc main_call3_v5) = W (Proc.devRef .tc main_call3_v5) := by
  after_results_simp
theorem slopeGatherLines_keep_v36 (W : Valuation τ sig (Elt F)) : after slopeGatherLines W (Proc.devRef .tc main_v36) = W (Proc.devRef .tc main_v36) := by
  after_results_simp
theorem slopeGatherLines_keep_v46 (W : Valuation τ sig (Elt F)) : after slopeGatherLines W (Proc.devRef .tc main_v46) = W (Proc.devRef .tc main_v46) := by
  after_results_simp
theorem slopeGatherLines_keep_call3_v12 (W : Valuation τ sig (Elt F)) : after slopeGatherLines W (Proc.devRef .tc main_call3_v12) = W (Proc.devRef .tc main_call3_v12) := by
  after_results_simp
theorem slopePickLines_keep_v36 (W : Valuation τ sig (Elt F)) : after slopePickLines W (Proc.devRef .tc main_v36) = W (Proc.devRef .tc main_v36) := by
  after_results_simp
theorem slopePickLines_keep_v46 (W : Valuation τ sig (Elt F)) : after slopePickLines W (Proc.devRef .tc main_v46) = W (Proc.devRef .tc main_v46) := by
  after_results_simp

/-! ## What each segment computes, from what it finds -/

/-- The per-channel tables: the region length, the rolled points and the eight slopes, the shifted left bound. -/
theorem tableLines_reads (W : Valuation τ sig (Elt F)) :
    after tableLines W (Proc.devRef .tc main_v6) = ReadP.val_main_v6 (W (Proc.devRef .tc main_arg2))
    ∧ after tableLines W (Proc.devRef .tc main_v16) = ReadP.val_main_v16 (W (Proc.devRef .tc main_arg2))
    ∧ after tableLines W (Proc.devRef .tc main_v15) = ReadP.val_main_v15 (W (Proc.devRef .tc main_arg1)) (W (Proc.devRef .tc main_arg2)) (W (Proc.devRef .tc main_arg3)) (W (Proc.devRef .tc main_arg4)) := by
  refine ⟨?_, ?_, ?_⟩ <;> after_results_simp <;> rfl

/-- The input normalized channel by channel: moved channels-last, shifted by the left bound, divided by seven region lengths, moved channels-first. -/
theorem normalLines_reads (W : Valuation τ sig (Elt F)) (x0 : (⟨S32x256x56x56, .f32⟩ : BufTy).Contents (Elt F)) (x2 : (⟨S256x2, .f32⟩ : BufTy).Contents (Elt F))
    (h_arg0 : W (Proc.devRef .tc main_arg0) = x0) (h_v16 : W (Proc.devRef .tc main_v16) = ReadP.val_main_v16 x2) (h_v6 : W (Proc.devRef .tc main_v6) = ReadP.val_main_v6 x2) :
    after normalLines W (Proc.devRef .tc main_v26) = ReadP.val_main_v26 x0 x2 := by
  after_results_simp <;> (try rw [h_arg0]) <;> (try rw [h_v16]) <;> (try rw [h_v6]) <;> rfl

/-- The clipped position, its region (the floor of seven times it), the offset inside the region times the region length, and the region as an integer index, flattened per channel. -/
theorem regionLines_reads (W : Valuation τ sig (Elt F)) (x0 : (⟨S32x256x56x56, .f32⟩ : BufTy).Contents (Elt F)) (x2 : (⟨S256x2, .f32⟩ : BufTy).Contents (Elt F))
    (h_v26 : W (Proc.devRef .tc main_v26) = ReadP.val_main_v26 x0 x2) (h_v6 : W (Proc.devRef .tc main_v6) = ReadP.val_main_v6 x2) :
    after regionLines W (Proc.devRef .tc main_v36) = ReadP.val_main_v36 x0 x2
    ∧ after regionLines W (Proc.devRef .tc main_v38) = ReadP.val_main_v38 x0 x2 := by
  refine ⟨?_, ?_⟩ <;> after_results_simp <;> (try rw [h_v26]) <;> (try rw [h_v6]) <;> rfl

/-- The eight left points per channel: the point left of the left bound, then the seven points. -/
theorem pointLines_reads (W : Valuation τ sig (Elt F)) (x1 : (⟨S256x7, .f32⟩ : BufTy).Contents (Elt F)) (x2 : (⟨S256x2, .f32⟩ : BufTy).Contents (Elt F)) (x3 : (⟨S256, .f32⟩ : BufTy).Contents (Elt F))
    (h_arg1 : W (Proc.devRef .tc main_arg1) = x1) (h_arg3 : W (Proc.devRef .tc main_arg3) = x3) (h_v6 : W (Proc.devRef .tc main_v6) = ReadP.val_main_v6 x2) :
    after pointLines W (Proc.devRef .tc main_v44) = ReadP.val_main_v44 x1 x2 x3 := by
  after_results <;> (try rw [h_arg1]) <;> (try rw [h_arg3]) <;> (try rw [h_v6]) <;> rfl

/-- The look-up of the left points, first part: a negative index is moved up by eight, and the index is given a unit axis. -/
theorem pointIndexLines_reads (W : Valuation τ sig (Elt F)) (x0 : (⟨S32x256x56x56, .f32⟩ : BufTy).Contents (Elt F)) (x2 : (⟨S256x2, .f32⟩ : BufTy).Contents (Elt F))
    (h_v38 : W (Proc.devRef .tc main_v38) = ReadP.val_main_v38 x0 x2) :
    after pointIndexLines W (Proc.devRef .tc main_call2_v5) = ReadP.val_main_call2_v5 x0 x2 := by
  after_results_simp <;> (try rw [h_v38]) <;> rfl

/-- Second part: the two comparisons of the index with 0 and with 7, and their conjunction. -/
theorem pointRangeLines_reads (W : Valuation τ sig (Elt F)) (x0 : (⟨S32x256x56x56, .f32⟩ : BufTy).Contents (Elt F)) (x2 : (⟨S256x2, .f32⟩ : BufTy).Contents (Elt F))
    (h_call2_v5 : W (Proc.devRef .tc main_call2_v5) = ReadP.val_main_call2_v5 x0 x2) :
    after pointRangeLines W (Proc.devRef .tc main_call2_v11) = ReadP.val_main_call2_v11 x0 x2 := by
  (after_results_simp; (try rw [h_call2_v5]); simp only [ReadP.val_main_call2_c_1, ReadP.val_main_call2_c_2, ReadP.val_main_call2_v6, ReadP.val_main_call2_v7, ReadP.val_main_call2_v8, ReadP.val_main_call2_v9, ReadP.val_main_call2_v10, ReadP.val_main_call2_v11]; (try generalize ReadP.val_main_call2_v5 x0 x2 = I_call2_v5); rfl)

/-- Third part: the conjunction reduced over the unit axis: whether the index lies in 0 … 7. -/
theorem pointMaskLines_reads (W : Valuation τ sig (Elt F)) (x0 : (⟨S32x256x56x56, .f32⟩ : BufTy).Contents (Elt F)) (x2 : (⟨S256x2, .f32⟩ : BufTy).Contents (Elt F))
    (h_call2_v11 : W (Proc.devRef .tc main_call2_v11) = ReadP.val_main_call2_v11 x0 x2) :
    after pointMaskLines W (Proc.devRef .tc main_call2_v12) = ReadP.val_main_call2_v12 x0 x2 := by
  (after_results_simp; (try rw [h_call2_v11]); simp only [ReadP.val_main_call2_c_3, ReadP.val_main_call2_v12]; (try generalize ReadP.val_main_call2_v11 x0 x2 = I_call2_v11); simp only [TRef.toBuf, TRef.ofBuf, cast_eq])

/-- Fourth part: the left points table read along its second axis at the index. -/
theorem pointGatherLines_reads (W : Valuation τ sig (Elt F)) (x0 : (⟨S32x256x56x56, .f32⟩ : BufTy).Contents (Elt F)) (x1 : (⟨S256x7, .f32⟩ : BufTy).Contents (Elt F)) (x2 : (⟨S256x2, .f32⟩ : BufTy).Contents (Elt F)) (x3 : (⟨S256, .f32⟩ : BufTy).Contents (Elt F))
    (h_v44 : W (Proc.devRef .tc main_v44) = ReadP.val_main_v44 x1 x2 x3) (h_call2_v5 : W (Proc.devRef .tc main_call2_v5) = ReadP.val_main_call2_v5 x0 x2) :
    after pointGatherLines W (Proc.devRef .tc main_call2_v13) = ReadP.val_main_call2_v13 x0 x1 x2 x3 := by
  (after_results_simp; (try rw [h_v44]); (try rw [h_call2_v5]); simp only [ReadP.val_main_call2_v13]; (try generalize ReadP.val_main_v44 x1 x2 x3 = I_v44); (try generalize ReadP.val_main_call2_v5 x0 x2 = I_call2_v5); (try simp only [TRef.toBuf, TRef.ofBuf, cast_eq]); (try rfl))

/-- Last part: the entry read where the index is in range, a not-a-number pattern elsewhere; then the element's shape. (For any range test `M` and any entries read `G`.) -/
theorem pointPickLines_generic (W : Valuation τ sig (Elt F)) (M : (⟨S256x100352, .i1⟩ : BufTy).Contents (Elt F)) (G : (⟨S256x100352, .f32⟩ : BufTy).Contents (Elt F))
    (hM : W (Proc.devRef .tc main_call2_v12) = M) (hG : W (Proc.devRef .tc main_call2_v13) = G) :
    after pointPickLines W (Proc.devRef .tc main_v46) = shapeCast S256x32x56x56 (select M G (broadcastInDim S256x100352 ![] bcast_S_S256x100352 (constant S_ .f32 0x7FC00000#32))) shapeCasts_S256x100352_S256x32x56x56 := by
  after_results_simp
  rw [hM, hG]
  rfl

/-- Last part: the entry read where the index is in range, a not-a-number pattern elsewhere; then the element's shape. -/
theorem pointPickLines_reads (W : Valuation τ sig (Elt F)) (x0 : (⟨S32x256x56x56, .f32⟩ : BufTy).Contents (Elt F)) (x1 : (⟨S256x7, .f32⟩ : BufTy).Contents (Elt F)) (x2 : (⟨S256x2, .f32⟩ : BufTy).Contents (Elt F)) (x3 : (⟨S256, .f32⟩ : BufTy).Contents (Elt F))
    (h_call2_v12 : W (Proc.devRef .tc main_call2_v12) = ReadP.val_main_call2_v12 x0 x2) (h_call2_v13 : W (Proc.devRef .tc main_call2_v13) = ReadP.val_main_call2_v13 x0 x1 x2 x3) :
    after pointPickLines W (Proc.devRef .tc main_v46) = ReadP.val_main_v46 x0 x1 x2 x3 :=
  (pointPickLines_generic W _ _ h_call2_v12 h_call2_v13).trans
    (rfl : shapeCast S256x32x56x56 (select (ReadP.val_main_call2_v12 x0 x2) (ReadP.val_main_call2_v13 x0 x1 x2 x3) (broadcastInDim S256x100352 ![] bcast_S_S256x100352 (constant S_ .f32 0x7FC00000#32))) shapeCasts_S256x100352_S256x32x56x56 = ReadP.val_main_v46 x0 x1 x2 x3)

/-- The look-up of the slopes, first part: a negative index is moved up by eight, and the index is given a unit axis. -/
theorem slopeIndexLines_reads (W : Valuation τ sig (Elt F)) (x0 : (⟨S32x256x56x56, .f32⟩ : BufTy).Contents (Elt F)) (x2 : (⟨S256x2, .f32⟩ : BufTy).Contents (Elt F))
    (h_v38 : W (Proc.devRef .tc main_v38) = ReadP.val_main_v38 x0 x2) :
    after slopeIndexLines W (Proc.devRef .tc main_call3_v5) = ReadP.val_main_call3_v5 x0 x2 := by
  after_results_simp <;> (try rw [h_v38]) <;> rfl

/-- Second part: the two comparisons of the index with 0 and with 7, and their conjunction. -/
theorem slopeRangeLines_reads (W : Valuation τ sig (Elt F)) (x0 : (⟨S32x256x56x56, .f32⟩ : BufTy).Contents (Elt F)) (x2 : (⟨S256x2, .f32⟩ : BufTy).Contents (Elt F))
    (h_call3_v5 : W (Proc.devRef .tc main_call3_v5) = ReadP.val_main_call3_v5 x0 x2) :
    after slopeRangeLines W (Proc.devRef .tc main_call3_v11) = ReadP.val_main_call3_v11 x0 x2 := by
  (after_results_simp; (try rw [h_call3_v5]); simp only [ReadP.val_main_call3_c_1, ReadP.val_main_call3_c_2, ReadP.val_main_call3_v6, ReadP.val_main_call3_v7, ReadP.val_main_call3_v8, ReadP.val_main_call3_v9, ReadP.val_main_call3_v10, ReadP.val_main_call3_v11]; (try generalize ReadP.val_main_call3_v5 x0 x2 = I_call3_v5); rfl)

/-- Third part: the conjunction reduced over the unit axis: whether the index lies in 0 … 7. -/
theorem slopeMaskLines_reads (W : Valuation τ sig (Elt F)) (x0 : (⟨S32x256x56x56, .f32⟩ : BufTy).Contents (Elt F)) (x2 : (⟨S256x2, .f32⟩ : BufTy).Contents (Elt F))
    (h_call3_v11 : W (Proc.devRef .tc main_call3_v11) = ReadP.val_main_call3_v11 x0 x2) :
    after slopeMaskLines W (Proc.devRef .tc main_call3_v12) = ReadP.val_main_call3_v12 x0 x2 := by
  (after_results_simp; (try rw [h_call3_v11]); simp only [ReadP.val_main_call3_c_3, ReadP.val_main_call3_v12]; (try generalize ReadP.val_main_call3_v11 x0 x2 = I_call3_v11); simp only [TRef.toBuf, TRef.ofBuf, cast_eq])

/-- Fourth part: the slopes table read along its second axis at the index. -/
theorem slopeGatherLines_reads (W : Valuation τ sig (Elt F)) (x0 : (⟨S32x256x56x56, .f32⟩ : BufTy).Contents (Elt F)) (x1 : (⟨S256x7, .f32⟩ : BufTy).Contents (Elt F)) (x2 : (⟨S256x2, .f32⟩ : BufTy).Contents (Elt F)) (x3 : (⟨S256, .f32⟩ : BufTy).Contents (Elt F)) (x4 : (⟨S256, .f32⟩ : BufTy).Contents (Elt F))
    (h_v15 : W (Proc.devRef .tc main_v15) = ReadP.val_main_v15 x1 x2 x3 x4) (h_call3_v5 : W (Proc.devRef .tc main_call3_v5) = ReadP.val_main_call3_v5 x0 x2) :
    after slopeGatherLines W (Proc.devRef .tc main_call3_v13) = ReadP.val_main_call3_v13 x0 x1 x2 x3 x4 := by
  (after_results_simp; (try rw [h_v15]); (try rw [h_call3_v5]); simp only [ReadP.val_main_call3_v13]; (try generalize ReadP.val_main_v15 x1 x2 x3 x4 = I_v15); (try generalize ReadP.val_main_call3_v5 x0 x2 = I_call3_v5); (try simp only [TRef.toBuf, TRef.ofBuf, cast_eq]); (try rfl))

/-- Last part: the entry read where the index is in range, a not-a-number pattern elsewhere; then the element's shape. (For any range test `M` and any entries read `G`.) -/
theorem slopePickLines_generic (W : Valuation τ sig (Elt F)) (M : (⟨S256x100352, .i1⟩ : BufTy).Contents (Elt F)) (G : (⟨S256x100352, .f32⟩ : BufTy).Contents (Elt F))
    (hM : W (Proc.devRef .tc main_call3_v12) = M) (hG : W (Proc.devRef .tc main_call3_v13) = G) :
    after slopePickLines W (Proc.devRef .tc main_v48) = shapeCast S256x32x56x56 (select M G (broadcastInDim S256x100352 ![] bcast_S_S256x100352 (constant S_ .f32 0x7FC00000#32))) shapeCasts_S256x100352_S256x32x56x56 := by
  after_results_simp
  rw [hM, hG]
  rfl

/-- Last part: the entry read where the index is in range, a not-a-number pattern elsewhere; then the element's shape. -/
theorem slopePickLines_reads (W : Valuation τ sig (Elt F)) (x0 : (⟨S32x256x56x56, .f32⟩ : BufTy).Contents (Elt F)) (x1 : (⟨S256x7, .f32⟩ : BufTy).Contents (Elt F)) (x2 : (⟨S256x2, .f32⟩ : BufTy).Contents (Elt F)) (x3 : (⟨S256, .f32⟩ : BufTy).Contents (Elt F)) (x4 : (⟨S256, .f32⟩ : BufTy).Contents (Elt F))
    (h_call3_v12 : W (Proc.devRef .tc main_call3_v12) = ReadP.val_main_call3_v12 x0 x2) (h_call3_v13 : W (Proc.devRef .tc main_call3_v13) = ReadP.val_main_call3_v13 x0 x1 x2 x3 x4) :
    after slopePickLines W (Proc.devRef .tc main_v48) = ReadP.val_main_v48 x0 x1 x2 x3 x4 :=
  (slopePickLines_generic W _ _ h_call3_v12 h_call3_v13).trans
    (rfl : shapeCast S256x32x56x56 (select (ReadP.val_main_call3_v12 x0 x2) (ReadP.val_main_call3_v13 x0 x1 x2 x3 x4) (broadcastInDim S256x100352 ![] bcast_S_S256x100352 (constant S_ .f32 0x7FC00000#32))) shapeCasts_S256x100352_S256x32x56x56 = ReadP.val_main_v48 x0 x1 x2 x3 x4)

/-- The left point plus the offset times the slope, moved back to [image, channel, row, column]. -/
theorem combineLines_reads (W : Valuation τ sig (Elt F)) (x0 : (⟨S32x256x56x56, .f32⟩ : BufTy).Contents (Elt F)) (x1 : (⟨S256x7, .f32⟩ : BufTy).Contents (Elt F)) (x2 : (⟨S256x2, .f32⟩ : BufTy).Contents (Elt F)) (x3 : (⟨S256, .f32⟩ : BufTy).Contents (Elt F)) (x4 : (⟨S256, .f32⟩ : BufTy).Contents (Elt F))
    (h_v36 : W (Proc.devRef .tc main_v36) = ReadP.val_main_v36 x0 x2) (h_v48 : W (Proc.devRef .tc main_v48) = ReadP.val_main_v48 x0 x1 x2 x3 x4) (h_v46 : W (Proc.devRef .tc main_v46) = ReadP.val_main_v46 x0 x1 x2 x3) :
    after combineLines W (Proc.devRef .tc main_v51) = ReadP.val_main_v51 x0 x1 x2 x3 x4 := by
  after_results_simp <;> (try rw [h_v36]) <;> (try rw [h_v48]) <;> (try rw [h_v46]) <;> rfl

/-! ## The whole line -/

/-- After the whole line the result buffer holds the last stage of the five argument arrays: each segment's
    inputs are followed from the segment that wrote them through the segments that leave them untouched. -/
theorem result_is_last_stage (V : Valuation τ sig (Elt F)) :
    after line V (Proc.devRef .tc main_v51)
      = ReadP.val_main_v51 (V (Proc.devRef .tc main_arg0)) (V (Proc.devRef .tc main_arg1)) (V (Proc.devRef .tc main_arg2)) (V (Proc.devRef .tc main_arg3)) (V (Proc.devRef .tc main_arg4)) := by
  rw [line_cut]; simp only [after_append]
  have out0 := tableLines_reads V
  have live0_arg0 := (tableLines_keep_arg0 V).trans (rfl : V (Proc.devRef .tc main_arg0) = (V (Proc.devRef .tc main_arg0)))
  have live0_arg1 := (tableLines_keep_arg1 V).trans (rfl : V (Proc.devRef .tc main_arg1) = (V (Proc.devRef .tc main_arg1)))
  have live0_arg3 := (tableLines_keep_arg3 V).trans (rfl : V (Proc.devRef .tc main_arg3) = (V (Proc.devRef .tc main_arg3)))
  have live0_v6 := out0.1
  have live0_v16 := out0.2.1
  have live0_v15 := out0.2.2
  have out1 := normalLines_reads (after tableLines V) (V (Proc.devRef .tc main_arg0)) (V (Proc.devRef .tc main_arg2)) live0_arg0 live0_v16 live0_v6
  have live1_arg1 := (normalLines_keep_arg1 (after tableLines V)).trans live0_arg1
  have live1_arg3 := (normalLines_keep_arg3 (after tableLines V)).trans live0_arg3
  have live1_v6 := (normalLines_keep_v6 (after tableLines V)).trans live0_v6
  have live1_v15 := (normalLines_keep_v15 (after tableLines V)).trans live0_v15
  have live1_v26 := out1
  have out2 := regionLines_reads (after normalLines (after tableLines V)) (V (Proc.devRef .tc main_arg0)) (V (Proc.devRef .tc main_arg2)) live1_v26 live1_v6
  have live2_arg1 := (regionLines_keep_arg1 (after normalLines (after tableLines V))).trans live1_arg1
  have live2_arg3 := (regionLines_keep_arg3 (after normalLines (after tableLines V))).trans live1_arg3
  have live2_v6 := (regionLines_keep_v6 (after normalLines (after tableLines V))).trans live1_v6
  have live2_v15 := (regionLines_keep_v15 (after normalLines (after tableLines V))).trans live1_v15
  have live2_v36 := out2.1
  have live2_v38 := out2.2
  have out3 := pointLines_reads (after regionLines (after normalLines (after tableLines V))) (V (Proc.devRef .tc main_arg1)) (V (Proc.devRef .tc main_arg2)) (V (Proc.devRef .tc main_arg3)) live2_arg1 live2_arg3 live2_v6
  have live3_v15 := (pointLines_keep_v15 (after regionLines (after normalLines (after tableLines V)))).trans live2_v15
  have live3_v36 := (pointLines_keep_v36 (after regionLines (after normalLines (after tableLines V)))).trans live2_v36
  have live3_v38 := (pointLines_keep_v38 (after regionLines (after normalLines (after tableLines V)))).trans live2_v38
  have live3_v44 := out3
  have out4 := pointIndexLines_reads (after pointLines (after regionLines (after normalLines (after tableLines V)))) (V (Proc.devRef .tc main_arg0)) (V (Proc.devRef .tc main_arg2)) live3_v38
  have live4_v15 := (pointIndexLines_keep_v15 (after pointLines (after regionLines (after normalLines (after tableLines V))))).trans live3_v15
  have live4_v36 := (pointIndexLines_keep_v36 (after pointLines (after regionLines (after normalLines (after tableLines V))))).trans live3_v36
  have live4_v38 := (pointIndexLines_keep_v38 (after pointLines (after regionLines (after normalLines (after tableLines V))))).trans live3_v38
  have live4_v44 := (pointIndexLines_keep_v44 (after pointLines (after regionLines (after normalLines (after tableLines V))))).trans live3_v44
  have live4_call2_v5 := out4
  have out5 := pointRangeLines_reads (after pointIndexLines (after pointLines (after regionLines (after normalLines (after tableLines V))))) (V (Proc.devRef .tc main_arg0)) (V (Proc.devRef .tc main_arg2)) live4_call2_v5
  have live5_v15 := (pointRangeLines_keep_v15 (after pointIndexLines (after pointLines (after regionLines (after normalLines (after tableLines V)))))).trans live4_v15
  have live5_v36 := (pointRangeLines_keep_v36 (after pointIndexLines (after pointLines (after regionLines (after normalLines (after tableLines V)))))).trans live4_v36
  have live5_v38 := (pointRangeLines_keep_v38 (after pointIndexLines (after pointLines (after regionLines (after normalLines (after tableLines V)))))).trans live4_v38
  have live5_v44 := (pointRangeLines_keep_v44 (after pointIndexLines (after pointLines (after regionLines (after normalLines (after tableLines V)))))).trans live4_v44
  have live5_call2_v5 := (pointRangeLines_keep_call2_v5 (after pointIndexLines (after pointLines (after regionLines (after normalLines (after tableLines V)))))).trans live4_call2_v5
  have live5_call2_v11 := out5
  have out6 := pointMaskLines_reads (after pointRangeLines (after pointIndexLines (after pointLines (after regionLines (after normalLines (after tableLines V)))))) (V (Proc.devRef .tc main_arg0)) (V (Proc.devRef .tc main_arg2)) live5_call2_v11
  have live6_v15 := (pointMaskLines_keep_v15 (after pointRangeLines (after pointIndexLines (after pointLines (after regionLines (after normalLines (after tableLines V))))))).trans live5_v15
  have live6_v36 := (pointMaskLines_keep_v36 (after pointRangeLines (after pointIndexLines (after pointLines (after regionLines (after normalLines (after tableLines V))))))).trans live5_v36
  have live6_v38 := (pointMaskLines_keep_v38 (after pointRangeLines (after pointIndexLines (after pointLines (after regionLines (after normalLines (after tableLines V))))))).trans live5_v38
  have live6_v44 := (pointMaskLines_keep_v44 (after pointRangeLines (after pointIndexLines (after pointLines (after regionLines (after normalLines (after tableLines V))))))).trans live5_v44
  have live6_call2_v5 := (pointMaskLines_keep_call2_v5 (after pointRangeLines (after pointIndexLines (after pointLines (after regionLines (after normalLines (after tableLines V))))))).trans live5_call2_v5
  have live6_call2_v12 := out6
  have out7 := pointGatherLines_reads (after pointMaskLines (after pointRangeLines (after pointIndexLines (after pointLines (after regionLines (after normalLines (after tableLines V))))))) (V (Proc.devRef .tc main_arg0)) (V (Proc.devRef .tc main_arg1)) (V (Proc.devRef .tc main_arg2)) (V (Proc.devRef .tc main_arg3)) live6_v44 live6_call2_v5
  have live7_v15 := (pointGatherLines_keep_v15 (after pointMaskLines (after pointRangeLines (after pointIndexLines (after pointLines (after regionLines (after normalLines (after tableLines V)))))))).trans live6_v15
  have live7_v36 := (pointGatherLines_keep_v36 (after pointMaskLines (after pointRangeLines (after pointIndexLines (after pointLines (after regionLines (after normalLines (after tableLines V)))))))).trans live6_v36
  have live7_v38 := (pointGatherLines_keep_v38 (after pointMaskLines (after pointRangeLines (after pointIndexLines (after pointLines (after regionLines (after normalLines (after tableLines V)))))))).trans live6_v38
  have live7_call2_v12 := (pointGatherLines_keep_call2_v12 (after pointMaskLines (after pointRangeLines (after pointIndexLines (after pointLines (after regionLines (after normalLines (after tableLines V)))))))).trans live6_call2_v12
  have live7_call2_v13 := out7
  have out8 := pointPickLines_reads (after pointGatherLines (after pointMaskLines (after pointRangeLines (after pointIndexLines (after pointLines (after regionLines (after normalLines (after tableLines V)))))))) (V (Proc.devRef .tc main_arg0)) (V (Proc.devRef .tc main_arg1)) (V (Proc.devRef .tc main_arg2)) (V (Proc.devRef .tc main_arg3)) live7_call2_v12 live7_call2_v13
  have live8_v15 := (pointPickLines_keep_v15 (after pointGatherLines (after pointMaskLines (after pointRangeLines (after pointIndexLines (after pointLines (after regionLines (after normalLines (after tableLines V))))))))).trans live7_v15
  have live8_v36 := (pointPickLines_keep_v36 (after pointGatherLines (after pointMaskLines (after pointRangeLines (after pointIndexLines (after pointLines (after regionLines (after normalLines (after tableLines V))))))))).trans live7_v36
  have live8_v38 := (pointPickLines_keep_v38 (after pointGatherLines (after pointMaskLines (after pointRangeLines (after pointIndexLines (after pointLines (after regionLines (after normalLines (after tableLines V))))))))).trans live7_v38
  have live8_v46 := out8
  have out9 := slopeIndexLines_reads (after pointPickLines (after pointGatherLines (after pointMaskLines (after pointRangeLines (after pointIndexLines (after pointLines (after regionLines (after normalLines (after tableLines V))))))))) (V (Proc.devRef .tc main_arg0)) (V (Proc.devRef .tc main_arg2)) live8_v38
  have live9_v15 := (slopeIndexLines_keep_v15 (after pointPickLines (after pointGatherLines (after pointMaskLines (after pointRangeLines (after pointIndexLines (after pointLines (after regionLines (after normalLines (after tableLines V)))))))))).trans live8_v15
  have live9_v36 := (slopeIndexLines_keep_v36 (after pointPickLines (after pointGatherLines (after pointMaskLines (after pointRangeLines (after pointIndexLines (after pointLines (after regionLines (after normalLines (after tableLines V)))))))))).trans live8_v36
  have live9_v46 := (slopeIndexLines_keep_v46 (after pointPickLines (after pointGatherLines (after pointMaskLines (after pointRangeLines (after pointIndexLines (after pointLines (after regionLines (after normalLines (after tableLines V)))))))))).trans live8_v46
  have live9_call3_v5 := out9
  have out10 := slopeRangeLines_reads (after slopeIndexLines (after pointPickLines (after pointGatherLines (after pointMaskLines (after pointRangeLines (after pointIndexLines (after pointLines (after regionLines (after normalLines (after tableLines V)))))))))) (V (Proc.devRef .tc main_arg0)) (V (Proc.devRef .tc main_arg2)) live9_call3_v5
  have live10_v15 := (slopeRangeLines_keep_v15 (after slopeIndexLines (after pointPickLines (after pointGatherLines (after pointMaskLines (after pointRangeLines (after pointIndexLines (after pointLines (after regionLines (after normalLines (after tableLines V))))))))))).trans live9_v15
  have live10_v36 := (slopeRangeLines_keep_v36 (after slopeIndexLines (after pointPickLines (after pointGatherLines (after pointMaskLines (after pointRangeLines (after pointIndexLines (after pointLines (after regionLines (after normalLines (after tableLines V))))))))))).trans live9_v36
  have live10_v46 := (slopeRangeLines_keep_v46 (after slopeIndexLines (after pointPickLines (after pointGatherLines (after pointMaskLines (after pointRangeLines (after pointIndexLines (after pointLines (after regionLines (after normalLines (after tableLines V))))))))))).trans live9_v46
  have live10_call3_v5 := (slopeRangeLines_keep_call3_v5 (after slopeIndexLines (after pointPickLines (after pointGatherLines (after pointMaskLines (after pointRangeLines (after pointIndexLines (after pointLines (after regionLines (after normalLines (after tableLines V))))))))))).trans live9_call3_v5
  have live10_call3_v11 := out10
  have out11 := slopeMaskLines_reads (after slopeRangeLines (after slopeIndexLines (after pointPickLines (after pointGatherLines (after pointMaskLines (after pointRangeLines (after pointIndexLines (after pointLines (after regionLines (after normalLines (after tableLines V))))))))))) (V (Proc.devRef .tc main_arg0)) (V (Proc.devRef .tc main_arg2)) live10_call3_v11
  have live11_v15 := (slopeMaskLines_keep_v15 (after slopeRangeLines (after slopeIndexLines (after pointPickLines (after pointGatherLines (after pointMaskLines (after pointRangeLines (after pointIndexLines (after pointLines (after regionLines (after normalLines (after tableLines V)))))))))))).trans live10_v15
  have live11_v36 := (slopeMaskLines_keep_v36 (after slopeRangeLines (after slopeIndexLines (after pointPickLines (after pointGatherLines (after pointMaskLines (after pointRangeLines (after pointIndexLines (after pointLines (after regionLines (after normalLines (after tableLines V)))))))))))).trans live10_v36
  have live11_v46 := (slopeMaskLines_keep_v46 (after slopeRangeLines (after slopeIndexLines (after pointPickLines (after pointGatherLines (after pointMaskLines (after pointRangeLines (after pointIndexLines (after pointLines (after regionLines (after normalLines (after tableLines V)))))))))))).trans live10_v46
  have live11_call3_v5 := (slopeMaskLines_keep_call3_v5 (after slopeRangeLines (after slopeIndexLines (after pointPickLines (after pointGatherLines (after pointMaskLines (after pointRangeLines (after pointIndexLines (after pointLines (after regionLines (after normalLines (after tableLines V)))))))))))).trans live10_call3_v5
  have live11_call3_v12 := out11
  have out12 := slopeGatherLines_reads (after slopeMaskLines (after slopeRangeLines (after slopeIndexLines (after pointPickLines (after pointGatherLines (after pointMaskLines (after pointRangeLines (after pointIndexLines (after pointLines (after regionLines (after normalLines (after tableLines V)))))))))))) (V (Proc.devRef .tc main_arg0)) (V (Proc.devRef .tc main_arg1)) (V (Proc.devRef .tc main_arg2)) (V (Proc.devRef .tc main_arg3)) (V (Proc.devRef .tc main_arg4)) live11_v15 live11_call3_v5
  have live12_v36 := (slopeGatherLines_keep_v36 (after slopeMaskLines (after slopeRangeLines (after slopeIndexLines (after pointPickLines (after pointGatherLines (after pointMaskLines (after pointRangeLines (after pointIndexLines (after pointLines (after regionLines (after normalLines (after tableLines V))))))))))))).trans live11_v36
  have live12_v46 := (slopeGatherLines_keep_v46 (after slopeMaskLines (after slopeRangeLines (after slopeIndexLines (after pointPickLines (after pointGatherLines (after pointMaskLines (after pointRangeLines (after pointIndexLines (after pointLines (after regionLines (after normalLines (after tableLines V))))))))))))).trans live11_v46
  have live12_call3_v12 := (slopeGatherLines_keep_call3_v12 (after slopeMaskLines (after slopeRangeLines (after slopeIndexLines (after pointPickLines (after pointGatherLines (after pointMaskLines (after pointRangeLines (after pointIndexLines (after pointLines (after regionLines (after normalLines (after tableLines V))))))))))))).trans live11_call3_v12
  have live12_call3_v13 := out12
  have out13 := slopePickLines_reads (after slopeGatherLines (after slopeMaskLines (after slopeRangeLines (after slopeIndexLines (after pointPickLines (after pointGatherLines (after pointMaskLines (after pointRangeLines (after pointIndexLines (after pointLines (after regionLines (after normalLines (after tableLines V))))))))))))) (V (Proc.devRef .tc main_arg0)) (V (Proc.devRef .tc main_arg1)) (V (Proc.devRef .tc main_arg2)) (V (Proc.devRef .tc main_arg3)) (V (Proc.devRef .tc main_arg4)) live12_call3_v12 live12_call3_v13
  have live13_v36 := (slopePickLines_keep_v36 (after slopeGatherLines (after slopeMaskLines (after slopeRangeLines (after slopeIndexLines (after pointPickLines (after pointGatherLines (after pointMaskLines (after pointRangeLines (after pointIndexLines (after pointLines (after regionLines (after normalLines (after tableLines V)))))))))))))).trans live12_v36
  have live13_v46 := (slopePickLines_keep_v46 (after slopeGatherLines (after slopeMaskLines (after slopeRangeLines (after slopeIndexLines (after pointPickLines (after pointGatherLines (after pointMaskLines (after pointRangeLines (after pointIndexLines (after pointLines (after regionLines (after normalLines (after tableLines V)))))))))))))).trans live12_v46
  have live13_v48 := out13
  have out14 := combineLines_reads (after slopePickLines (after slopeGatherLines (after slopeMaskLines (after slopeRangeLines (after slopeIndexLines (after pointPickLines (after pointGatherLines (after pointMaskLines (after pointRangeLines (after pointIndexLines (after pointLines (after regionLines (after normalLines (after tableLines V)))))))))))))) (V (Proc.devRef .tc main_arg0)) (V (Proc.devRef .tc main_arg1)) (V (Proc.devRef .tc main_arg2)) (V (Proc.devRef .tc main_arg3)) (V (Proc.devRef .tc main_arg4)) live13_v36 live13_v48 live13_v46
  exact out14

set_option maxRecDepth 8192 in
set_option maxHeartbeats 4000000 in
/-- Every weakly fair execution of the reference terminates without a fault, with the result at the last stage of
    the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = ReadP.val_main_v51 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v51).trans (result_is_last_stage _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq nothing_scoped no_scoped_semaphore defs main (fun _ => line) main_is_line (fun _ => line_on_core) m ρ)

end Cert.ReferenceIdeal.StagedRun

end
-- ==== Proof.RefValue.lean ====
/-
  The reference's result, element by element. Reading the stages of its run one operation at a time: element
  (image, channel, row, column) of the result is the element (channel, image, row, column) of the sum of the
  looked-up left point and the offset times the looked-up slope; the normalized position there is the input's
  element minus the channel's shifted left bound, over seven (written first) times the channel's region length;
  the region and the offset are the cell's; and each look-up along the table's second axis — a negative index
  moved up by eight, a range test, a gather, a choice between the entry and a not-a-number pattern — reads
  the entry at the region, because the region index is one of 0 … 7 whatever the position is. So the element is the
  piecewise-linear cell of the input's element and of the channel's entries of the four tables, with the scale
  spelt `7 * len` and the table entries taken directly.
-/
import proofs.«114911_j23742579212531_2_alg».proof.Proof.RefReadP
import proofs.«114911_j23742579212531_2_alg».proof.Proof.PwluCell
import Idealize.ShloMosaic.PureOps.Reduce

set_option maxRecDepth 16384

noncomputable section

namespace Cert.ReferenceIdeal.AtElement

open Cert.ReferenceIdeal Cert.ReferenceIdeal.Gen Cert.ReferenceIdeal.ReadP Idealize.ShloMosaic Idealize.ShloMosaic.TcCoe Idealize.SL.Sem

/-! ## Two general reads -/

/-- A reduction by `and` from 1 over operands that are 1 wherever they reduce into `j` is 1 at `j`. -/
theorem reduce_and_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  have key : ∀ (l : List s.Idx) (a : BitVec 1), a = 1#1 → (∀ i ∈ l, x i = 1#1) →
      l.foldl (fun r i => IntOp.andi r (x i)) a = 1#1 := by
    intro l
    induction l with
    | nil => intro a ha _; exact ha
    | cons b l ih =>
      intro a ha hl
      rw [List.foldl_cons]
      refine ih _ ?_ (fun i hi => hl i (List.mem_cons_of_mem _ hi))
      rw [ha, hl b List.mem_cons_self]; rfl
  refine key _ _ hinit (fun i hi => hx i ?_)
  have := (List.mem_filter.1 hi).2
  simpa using this

/-- The start-indices index of result index `n`: `n` with the unit axis. -/
abbrev unitAxis (n : S256x100352.Idx) : S256x100352x1.Idx := fun a => match a with
  | ⟨0, _⟩ => ⟨(n 0).val, (n 0).isLt⟩
  | ⟨1, _⟩ => ⟨(n 1).val, (n 1).isLt⟩
  | ⟨2, _⟩ => ⟨0, Nat.one_pos⟩

/-- The gather along the second axis of a table [256, 8], batched over the first: result index `n` reads row
    `n 0` at the start index given for `n`, read signed and clamped into 0 … 7. -/
theorem table_read {α : Type} (T : S256x8.Idx → α) (idx : IVec S256x100352x1 32) (n : S256x100352.Idx) :
    Host.gather gather_S256x8_S256x100352x1_S256x100352_n_1_0_0_1_2_11 T idx n
      = T (fun a => match a with
          | ⟨0, _⟩ => ⟨(n 0).val, (n 0).isLt⟩
          | ⟨1, _⟩ => ⟨min (idx (unitAxis n)).toInt.toNat 7, by show min _ 7 < 8; omega⟩) := by
  unfold Host.gather
  refine congrArg T (funext fun a => Fin.ext ?_)
  show gather_S256x8_S256x100352x1_S256x100352_n_1_0_0_1_2_11.start n idx a
      + gather_S256x8_S256x100352x1_S256x100352_n_1_0_0_1_2_11.batchCoord n a
      + gather_S256x8_S256x100352x1_S256x100352_n_1_0_0_1_2_11.offCoord n a = _
  have ha : a = 0 ∨ a = 1 := by
    rcases a with ⟨_ | _ | a, h⟩
    · exact Or.inl rfl
    · exact Or.inr rfl
    · exact absurd h (by show ¬ (a + 2 < 2); omega)
  rcases ha with rfl | rfl
  · have hb : (0 : Fin 2) ∈ gather_S256x8_S256x100352x1_S256x100352_n_1_0_0_1_2_11.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  · have hc : (1 : Fin 2) ∈ gather_S256x8_S256x100352x1_S256x100352_n_1_0_0_1_2_11.collapsedSliceDims := List.mem_singleton.mpr rfl
    have hs : (1 : Fin 2) ∈ gather_S256x8_S256x100352x1_S256x100352_n_1_0_0_1_2_11.startIndexMap := List.mem_singleton.mpr rfl
    have hnb : (1 : Fin 2) ∉ gather_S256x8_S256x100352x1_S256x100352_n_1_0_0_1_2_11.operandBatchingDims := by decide
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hs]
    have hsi : gather_S256x8_S256x100352x1_S256x100352_n_1_0_0_1_2_11.siIdx n
        ⟨List.idxOf (1 : Fin 2) gather_S256x8_S256x100352x1_S256x100352_n_1_0_0_1_2_11.startIndexMap,
          List.idxOf_lt_length_iff.2 hs⟩ = unitAxis n := by
      funext b; refine Fin.ext ?_
      match b with
      | ⟨0, _⟩ => rfl
      | ⟨1, _⟩ => rfl
      | ⟨2, _⟩ => rfl
    rw [hsi]
    rfl

/-! ## Index bookkeeping -/

/-- The channel of element `i`, as an index of a per-channel array. -/
abbrev chan (i : S32x256x56x56.Idx) : S256.Idx := fun a => match a with
  | ⟨0, _⟩ => ⟨(i 1).val, by have h : (i 1).val < 256 := (i 1).isLt; exact h⟩
/-- Entry `k` of row `n 0` of a table. -/
abbrev rowEntry (n : S256x100352.Idx) (k : Fin 8) : S256x8.Idx := fun a => match a with
  | ⟨0, _⟩ => ⟨(n 0).val, (n 0).isLt⟩
  | ⟨1, _⟩ => ⟨k.val, k.isLt⟩

/-- For an index in 0 … 7: it is not negative, so it is not moved; it passes the range test; clamping keeps it. -/
theorem kept_index (k : Fin 8) : Scalar.select (IntOp.cmpi .slt (BitVec.ofNat 32 k.val) 0#32) (IntOp.addi (BitVec.ofNat 32 k.val) 8#32) (BitVec.ofNat 32 k.val) = BitVec.ofNat 32 k.val := by
  fin_cases k <;> rfl
theorem in_range_mask (k : Fin 8) :
    IntOp.andi (IntOp.cmpi .sge (Scalar.select (IntOp.cmpi .slt (BitVec.ofNat 32 k.val) 0#32) (IntOp.addi (BitVec.ofNat 32 k.val) 8#32) (BitVec.ofNat 32 k.val)) 0#32)
      (IntOp.cmpi .sle (Scalar.select (IntOp.cmpi .slt (BitVec.ofNat 32 k.val) 0#32) (IntOp.addi (BitVec.ofNat 32 k.val) 8#32) (BitVec.ofNat 32 k.val)) 7#32) = 1#1 := by
  fin_cases k <;> rfl
theorem clamped_index (k : Fin 8) :
    min (Scalar.select (IntOp.cmpi .slt (BitVec.ofNat 32 k.val) 0#32) (IntOp.addi (BitVec.ofNat 32 k.val) 8#32) (BitVec.ofNat 32 k.val)).toInt.toNat 7 = k.val := by
  fin_cases k <;> rfl

/-! ### The look-up of the points -/

/-- Where the region index is `k` (one of 0 … 7), the range test of this look-up answers 1. -/
theorem points_mask (x0 : (⟨S32x256x56x56, .f32⟩ : BufTy).Contents (Elt Ideal)) (x2 : (⟨S256x2, .f32⟩ : BufTy).Contents (Elt Ideal))
    (n : S256x100352.Idx) (k : Fin 8) (hk : val_main_v38 (F := Ideal) x0 x2 n = BitVec.ofNat 32 k.val) :
    val_main_call2_v12 (F := Ideal) x0 x2 n = 1#1 := by
  unfold val_main_call2_v12
  refine reduce_and_one _ _ _ _ n rfl (fun m hm => ?_)
  have em : idx_main_call2_v5 m = n := by
    have h0 : (m 0).val = (n 0).val := by
      have := Shape.ReducesTo.drop_apply_val_of_eq reducesTo_S256x100352x1_S256x100352_d2 m (0 : Fin 2) (0 : Fin 3)
      rw [hm] at this; exact this.symm
    have h1 : (m 1).val = (n 1).val := by
      have := Shape.ReducesTo.drop_apply_val_of_eq reducesTo_S256x100352x1_S256x100352_d2 m (1 : Fin 2) (1 : Fin 3)
      rw [hm] at this; exact this.symm
    have h2 : (m 2).val < 1 := (m 2).isLt
    have b1 : (m 1).val < 100352 := (m 1).isLt
    funext a; refine Fin.ext ?_
    match a with
    | ⟨0, _⟩ => show (((m 0).val * 100352 + (m 1).val) * 1 + (m 2).val) / 100352 = (n 0).val; omega
    | ⟨1, _⟩ => show (((m 0).val * 100352 + (m 1).val) * 1 + (m 2).val) % 100352 = (n 1).val; omega
  rw [val_main_call2_v11_apply, val_main_call2_v7_apply, val_main_call2_v10_apply, val_main_call2_v5_apply, em,
    val_main_call2_v4_apply, val_main_call2_v1_apply, val_main_call2_v3_apply, hk]
  exact in_range_mask k

/-- Where the region index is `k`, this look-up reads entry `k` of the channel's row of the table. -/
theorem points_read (x0 : (⟨S32x256x56x56, .f32⟩ : BufTy).Contents (Elt Ideal)) (x1 : (⟨S256x7, .f32⟩ : BufTy).Contents (Elt Ideal)) (x2 : (⟨S256x2, .f32⟩ : BufTy).Contents (Elt Ideal)) (x3 : (⟨S256, .f32⟩ : BufTy).Contents (Elt Ideal))
    (n : S256x100352.Idx) (k : Fin 8) (hk : val_main_v38 (F := Ideal) x0 x2 n = BitVec.ofNat 32 k.val) :
    val_main_call2_v13 (F := Ideal) x0 x1 x2 x3 n = val_main_v44 (F := Ideal) x1 x2 x3 (rowEntry n k) := by
  unfold val_main_call2_v13
  rw [table_read]
  refine congrArg _ (funext fun a => Fin.ext ?_)
  match a with
  | ⟨0, _⟩ => rfl
  | ⟨1, _⟩ =>
    show min (val_main_call2_v5 (F := Ideal) x0 x2 (unitAxis n)).toInt.toNat 7 = k.val
    have em : idx_main_call2_v5 (unitAxis n) = n := by
      have b1 : (n 1).val < 100352 := (n 1).isLt
      funext a; refine Fin.ext ?_
      match a with
      | ⟨0, _⟩ => show (((n 0).val * 100352 + (n 1).val) * 1 + 0) / 100352 = (n 0).val; omega
      | ⟨1, _⟩ => show (((n 0).val * 100352 + (n 1).val) * 1 + 0) % 100352 = (n 1).val; omega
    rw [val_main_call2_v5_apply, em, val_main_call2_v4_apply, val_main_call2_v1_apply, val_main_call2_v3_apply, hk]
    exact clamped_index k

/-- So the look-up's result there is that entry. -/
theorem points_taken (x0 : (⟨S32x256x56x56, .f32⟩ : BufTy).Contents (Elt Ideal)) (x1 : (⟨S256x7, .f32⟩ : BufTy).Contents (Elt Ideal)) (x2 : (⟨S256x2, .f32⟩ : BufTy).Contents (Elt Ideal)) (x3 : (⟨S256, .f32⟩ : BufTy).Contents (Elt Ideal))
    (n : S256x100352.Idx) (k : Fin 8) (hk : val_main_v38 (F := Ideal) x0 x2 n = BitVec.ofNat 32 k.val) :
    val_main_v45 (F := Ideal) x0 x1 x2 x3 n = val_main_v44 (F := Ideal) x1 x2 x3 (rowEntry n k) := by
  rw [val_main_v45_apply, points_mask x0 x2 n k hk, points_read x0 x1 x2 x3 n k hk]
  rfl

/-! ### The look-up of the slopes -/

/-- Where the region index is `k` (one of 0 … 7), the range test of this look-up answers 1. -/
theorem slopes_mask (x0 : (⟨S32x256x56x56, .f32⟩ : BufTy).Contents (Elt Ideal)) (x2 : (⟨S256x2, .f32⟩ : BufTy).Contents (Elt Ideal))
    (n : S256x100352.Idx) (k : Fin 8) (hk : val_main_v38 (F := Ideal) x0 x2 n = BitVec.ofNat 32 k.val) :
    val_main_call3_v12 (F := Ideal) x0 x2 n = 1#1 := by
  unfold val_main_call3_v12
  refine reduce_and_one _ _ _ _ n rfl (fun m hm => ?_)
  have em : idx_main_call3_v5 m = n := by
    have h0 : (m 0).val = (n 0).val := by
      have := Shape.ReducesTo.drop_apply_val_of_eq reducesTo_S256x100352x1_S256x100352_d2 m (0 : Fin 2) (0 : Fin 3)
      rw [hm] at this; exact this.symm
    have h1 : (m 1).val = (n 1).val := by
      have := Shape.ReducesTo.drop_apply_val_of_eq reducesTo_S256x100352x1_S256x100352_d2 m (1 : Fin 2) (1 : Fin 3)
      rw [hm] at this; exact this.symm
    have h2 : (m 2).val < 1 := (m 2).isLt
    have b1 : (m 1).val < 100352 := (m 1).isLt
    funext a; refine Fin.ext ?_
    match a with
    | ⟨0, _⟩ => show (((m 0).val * 100352 + (m 1).val) * 1 + (m 2).val) / 100352 = (n 0).val; omega
    | ⟨1, _⟩ => show (((m 0).val * 100352 + (m 1).val) * 1 + (m 2).val) % 100352 = (n 1).val; omega
  rw [val_main_call3_v11_apply, val_main_call3_v7_apply, val_main_call3_v10_apply, val_main_call3_v5_apply, em,
    val_main_call3_v4_apply, val_main_call3_v1_apply, val_main_call3_v3_apply, hk]
  exact in_range_mask k

/-- Where the region index is `k`, this look-up reads entry `k` of the channel's row of the table. -/
theorem slopes_read (x0 : (⟨S32x256x56x56, .f32⟩ : BufTy).Contents (Elt Ideal)) (x1 : (⟨S256x7, .f32⟩ : BufTy).Contents (Elt Ideal)) (x2 : (⟨S256x2, .f32⟩ : BufTy).Contents (Elt Ideal)) (x3 : (⟨S256, .f32⟩ : BufTy).Contents (Elt Ideal)) (x4 : (⟨S256, .f32⟩ : BufTy).Contents (Elt Ideal))
    (n : S256x100352.Idx) (k : Fin 8) (hk : val_main_v38 (F := Ideal) x0 x2 n = BitVec.ofNat 32 k.val) :
    val_main_call3_v13 (F := Ideal) x0 x1 x2 x3 x4 n = val_main_v15 (F := Ideal) x1 x2 x3 x4 (rowEntry n k) := by
  unfold val_main_call3_v13
  rw [table_read]
  refine congrArg _ (funext fun a => Fin.ext ?_)
  match a with
  | ⟨0, _⟩ => rfl
  | ⟨1, _⟩ =>
    show min (val_main_call3_v5 (F := Ideal) x0 x2 (unitAxis n)).toInt.toNat 7 = k.val
    have em : idx_main_call3_v5 (unitAxis n) = n := by
      have b1 : (n 1).val < 100352 := (n 1).isLt
      funext a; refine Fin.ext ?_
      match a with
      | ⟨0, _⟩ => show (((n 0).val * 100352 + (n 1).val) * 1 + 0) / 100352 = (n 0).val; omega
      | ⟨1, _⟩ => show (((n 0).val * 100352 + (n 1).val) * 1 + 0) % 100352 = (n 1).val; omega
    rw [val_main_call3_v5_apply, em, val_main_call3_v4_apply, val_main_call3_v1_apply, val_main_call3_v3_apply, hk]
    exact clamped_index k

/-- So the look-up's result there is that entry. -/
theorem slopes_taken (x0 : (⟨S32x256x56x56, .f32⟩ : BufTy).Contents (Elt Ideal)) (x1 : (⟨S256x7, .f32⟩ : BufTy).Contents (Elt Ideal)) (x2 : (⟨S256x2, .f32⟩ : BufTy).Contents (Elt Ideal)) (x3 : (⟨S256, .f32⟩ : BufTy).Contents (Elt Ideal)) (x4 : (⟨S256, .f32⟩ : BufTy).Contents (Elt Ideal))
    (n : S256x100352.Idx) (k : Fin 8) (hk : val_main_v38 (F := Ideal) x0 x2 n = BitVec.ofNat 32 k.val) :
    val_main_v47 (F := Ideal) x0 x1 x2 x3 x4 n = val_main_v15 (F := Ideal) x1 x2 x3 x4 (rowEntry n k) := by
  rw [val_main_v47_apply, slopes_mask x0 x2 n k hk, slopes_read x0 x1 x2 x3 x4 n k hk]
  rfl

/-! ## The stages at an element -/

/-- Entry `k` of the row of a table for the channel of element `i`. -/
abbrev tableEntry (i : S32x256x56x56.Idx) (k : Fin 8) : S256x8.Idx := fun a => match a with
  | ⟨0, _⟩ => ⟨(i 1).val, by have h : (i 1).val < 256 := (i 1).isLt; exact h⟩
  | ⟨1, _⟩ => ⟨k.val, k.isLt⟩

/-- The normalized position of element `i`: the input's element minus the channel's shifted left bound, over seven
    times the channel's region length. -/
theorem position_at (x0 : (⟨S32x256x56x56, .f32⟩ : BufTy).Contents (Elt Ideal)) (x2 : (⟨S256x2, .f32⟩ : BufTy).Contents (Elt Ideal)) (i : S32x256x56x56.Idx) :
    val_main_v26 (F := Ideal) x0 x2 (idx_main_v51 i)
      = Pwlu.position (F := Ideal) (FloatOps.mulf (F := Ideal) (φ := .f32) Pwlu.seven (val_main_v6 (F := Ideal) x2 (chan i))) (x0 i) (val_main_v16 (F := Ideal) x2 (chan i)) := by
  rw [val_main_v26_apply, val_main_v25_apply, val_main_v20_apply, val_main_v17_apply, val_main_v19_apply, val_main_v18_apply,
    val_main_v24_apply, val_main_v23_apply, val_main_v22_apply, val_main_v21_apply, val_main_cst_0_apply]
  have e0 : idx_main_v17 (idx_main_v26 (idx_main_v51 i)) = i := funext fun a => Fin.ext (by
    match a with
    | ⟨0, _⟩ => rfl
    | ⟨1, _⟩ => rfl
    | ⟨2, _⟩ => rfl
    | ⟨3, _⟩ => rfl)
  have e1 : idx_main_v18 (idx_main_v19 (idx_main_v26 (idx_main_v51 i))) = chan i := funext fun a => Fin.ext (by
    match a with
    | ⟨0, _⟩ => rfl)
  have e2 : idx_main_v23 (idx_main_v24 (idx_main_v26 (idx_main_v51 i))) = chan i := funext fun a => Fin.ext (by
    match a with
    | ⟨0, _⟩ => rfl)
  rw [e0, e1, e2]
  rfl

/-- The region, as a float, is the cell's region of the position. -/
theorem region_at (x0 : (⟨S32x256x56x56, .f32⟩ : BufTy).Contents (Elt Ideal)) (x2 : (⟨S256x2, .f32⟩ : BufTy).Contents (Elt Ideal)) (j : S256x32x56x56.Idx) :
    val_main_v30 (F := Ideal) x0 x2 j = Pwlu.regionOf (F := Ideal) (val_main_v26 (F := Ideal) x0 x2 j) := by
  rw [val_main_v30_apply, val_main_v29_apply, val_main_v27_apply, val_main_call1_v2_apply]
  rfl

/-- The offset times the region length is the cell's. -/
theorem offset_at (x0 : (⟨S32x256x56x56, .f32⟩ : BufTy).Contents (Elt Ideal)) (x2 : (⟨S256x2, .f32⟩ : BufTy).Contents (Elt Ideal)) (i : S32x256x56x56.Idx) :
    val_main_v36 (F := Ideal) x0 x2 (idx_main_v51 i)
      = Pwlu.offsetOf (F := Ideal) (val_main_v26 (F := Ideal) x0 x2 (idx_main_v51 i)) (val_main_v6 (F := Ideal) x2 (chan i)) := by
  rw [val_main_v36_apply, val_main_v33_apply, val_main_v32_apply, val_main_v35_apply, val_main_v34_apply, region_at]
  have e : idx_main_v34 (idx_main_v35 (idx_main_v51 i)) = chan i := funext fun a => Fin.ext (by
    match a with
    | ⟨0, _⟩ => show (((i 1).val * 1 + 0) * 1 + 0) * 1 + 0 = (i 1).val; omega)
  rw [e]
  rfl

/-- Flattening [256, 32, 56, 56] to [256, 100352] and back is the identity on indices. -/
theorem unflatten_flatten (j : S256x32x56x56.Idx) : idx_main_v38 (idx_main_v46 j) = j := by
  have h0 : (j 0).val < 256 := (j 0).isLt
  have h1 : (j 1).val < 32 := (j 1).isLt
  have h2 : (j 2).val < 56 := (j 2).isLt
  have h3 : (j 3).val < 56 := (j 3).isLt
  funext a; refine Fin.ext ?_
  match a with
  | ⟨0, _⟩ => show (((((j 0).val * 32 + (j 1).val) * 56 + (j 2).val) * 56 + (j 3).val) / 100352 * 100352 + ((((j 0).val * 32 + (j 1).val) * 56 + (j 2).val) * 56 + (j 3).val) % 100352) / 100352 = (j 0).val; omega
  | ⟨1, _⟩ => show (((((j 0).val * 32 + (j 1).val) * 56 + (j 2).val) * 56 + (j 3).val) / 100352 * 100352 + ((((j 0).val * 32 + (j 1).val) * 56 + (j 2).val) * 56 + (j 3).val) % 100352) / 3136 % 32 = (j 1).val; omega
  | ⟨2, _⟩ => show (((((j 0).val * 32 + (j 1).val) * 56 + (j 2).val) * 56 + (j 3).val) / 100352 * 100352 + ((((j 0).val * 32 + (j 1).val) * 56 + (j 2).val) * 56 + (j 3).val) % 100352) / 56 % 56 = (j 2).val; omega
  | ⟨3, _⟩ => show (((((j 0).val * 32 + (j 1).val) * 56 + (j 2).val) * 56 + (j 3).val) / 100352 * 100352 + ((((j 0).val * 32 + (j 1).val) * 56 + (j 2).val) * 56 + (j 3).val) % 100352) % 56 = (j 3).val; omega

/-- The two look-ups flatten their indices the same way. -/
theorem flatten_same (j : S256x32x56x56.Idx) : idx_main_v48 j = idx_main_v46 j := rfl

/-- The region index at the flattened position of `j` is the integer of the region at `j`. -/
theorem index_at (x0 : (⟨S32x256x56x56, .f32⟩ : BufTy).Contents (Elt Ideal)) (x2 : (⟨S256x2, .f32⟩ : BufTy).Contents (Elt Ideal)) (j : S256x32x56x56.Idx) :
    val_main_v38 (F := Ideal) x0 x2 (idx_main_v46 j) = FloatOps.fptosi (F := Ideal) (φ := .f32) 32 (val_main_v30 (F := Ideal) x0 x2 j) := by
  rw [val_main_v38_apply, val_main_v37_apply, unflatten_flatten]

/-- The row read for element `i` at its flattened position is the row of `i`'s channel. -/
theorem row_of_element (i : S32x256x56x56.Idx) (k : Fin 8) : rowEntry (idx_main_v46 (idx_main_v51 i)) k = tableEntry i k := by
  have h0 : (i 0).val < 32 := (i 0).isLt
  have h1 : (i 1).val < 256 := (i 1).isLt
  have h2 : (i 2).val < 56 := (i 2).isLt
  have h3 : (i 3).val < 56 := (i 3).isLt
  funext a; refine Fin.ext ?_
  match a with
  | ⟨0, _⟩ => show ((((i 1).val * 32 + (i 0).val) * 56 + (i 2).val) * 56 + (i 3).val) / 100352 = (i 1).val; omega
  | ⟨1, _⟩ => rfl

/-! ## The reference's result at an element -/

/-- Element `i` of the reference's result is the cell of the input's element `i` and of its channel's entries of
    the four tables, the scale spelt `7 * len`. -/
theorem reference_at (x0 : (⟨S32x256x56x56, .f32⟩ : BufTy).Contents (Elt Ideal)) (x1 : (⟨S256x7, .f32⟩ : BufTy).Contents (Elt Ideal)) (x2 : (⟨S256x2, .f32⟩ : BufTy).Contents (Elt Ideal)) (x3 : (⟨S256, .f32⟩ : BufTy).Contents (Elt Ideal)) (x4 : (⟨S256, .f32⟩ : BufTy).Contents (Elt Ideal)) (i : S32x256x56x56.Idx) :
    val_main_v51 (F := Ideal) x0 x1 x2 x3 x4 i
      = Pwlu.cell (F := Ideal) (FloatOps.mulf (F := Ideal) (φ := .f32) Pwlu.seven (val_main_v6 (F := Ideal) x2 (chan i))) (x0 i)
          (val_main_v6 (F := Ideal) x2 (chan i)) (val_main_v16 (F := Ideal) x2 (chan i))
          (fun k => val_main_v44 (F := Ideal) x1 x2 x3 (tableEntry i k)) (fun k => val_main_v15 (F := Ideal) x1 x2 x3 x4 (tableEntry i k)) := by
  rw [val_main_v51_apply, val_main_v50_apply, val_main_v49_apply, val_main_v46_apply, val_main_v48_apply, flatten_same]
  obtain ⟨k, hk⟩ := Pwlu.region_in_range (val_main_v26 (F := Ideal) x0 x2 (idx_main_v51 i))
  have h38 : val_main_v38 (F := Ideal) x0 x2 (idx_main_v46 (idx_main_v51 i)) = BitVec.ofNat 32 k.val := by
    rw [index_at, region_at]; exact hk
  rw [points_taken x0 x1 x2 x3 _ k h38, slopes_taken x0 x1 x2 x3 x4 _ k h38, offset_at, row_of_element]
  rw [position_at] at hk ⊢
  unfold Pwlu.cell Pwlu.regionIndex
  rw [hk, Pwlu.choose_in_range, Pwlu.choose_in_range]

end Cert.ReferenceIdeal.AtElement
end
-- ==== Proof.Bridge.lean ====
/-
  The two programs compute one function. The kernel's host lines prepare, from the arguments, exactly the
  reference's per-channel tables — the region lengths, the shifted left bounds, the left points and the slopes —
  the first two given two unit axes, the last two transposed to [8, 256] and given two unit axes; so each staged
  array read at the index of a channel (and a table entry) is the reference's table read there. Element by element
  the kernel's result is then the cell with the scale `len * 7` and the reference's the cell with the scale
  `7 * len`, of the same input element and the same table entries; over the extended reals the product commutes,
  and nothing else differs.
-/
import proofs.«114911_j23742579212531_2_alg».proof.Proof.KernelIdealValue
import proofs.«114911_j23742579212531_2_alg».proof.Proof.RefValue
import proofs.«114911_j23742579212531_2_alg».proof.Proof.RefRun
import Idealize.ShloMosaic.Lib.StableHlo.Run

set_option maxRecDepth 16384

noncomputable section

namespace Cert.Bridge

open Cert.KernelIdeal Cert.KernelIdeal.Gen Cert.KernelIdeal.Frame Cert.KernelIdeal.Result
open Idealize.ShloMosaic Idealize.ShloMosaic.TcCoe Idealize.SL.Sem Idealize.ShloMosaic.StableHlo
open Cert.ReferenceIdeal.ReadP (val_main_v6 val_main_v16 val_main_v44 val_main_v15 val_main_v51)
open Cert.ReferenceIdeal.AtElement (chan tableEntry)

variable {F : FTy → Type} [FloatOps F]
variable (m : (ℓ : Loc nD τ sig) → Buf (Elt F) ℓ)

/-! ## The staged arrays are the reference's tables -/

/-- The region lengths as the launch finds them: the reference's stage, with two unit axes. -/
theorem lengths_at_launch (c : Dev nD) :
    (atLaunch m c main_v23 : S256x1x1.Idx → Elt F .f32)
      = shapeCast S256x1x1 (val_main_v6 (F := F) (m ((c.tc : Thread nD τ).loc main_arg2))) shapeCasts_S256_S256x1x1 := by
  dsimp only [atLaunch]
  simp only [hostOps0, hostOps0_1, hostOps0_2, List.flatten_cons, List.flatten_nil, List.append_nil, List.cons_append, List.nil_append]
  after_results_simp <;> rfl

/-- The shifted left bounds as the launch finds them. -/
theorem bounds_at_launch (c : Dev nD) :
    (atLaunch m c main_v24 : S256x1x1.Idx → Elt F .f32)
      = shapeCast S256x1x1 (val_main_v16 (F := F) (m ((c.tc : Thread nD τ).loc main_arg2))) shapeCasts_S256_S256x1x1 := by
  dsimp only [atLaunch]
  simp only [hostOps0, hostOps0_1, hostOps0_2, List.flatten_cons, List.flatten_nil, List.append_nil, List.cons_append, List.nil_append]
  after_results_simp <;> rfl

/-- The left points as the launch finds them: the reference's table transposed, with two unit axes. -/
theorem points_at_launch (c : Dev nD) :
    (atLaunch m c main_v26 : S8x256x1x1.Idx → Elt F .f32)
      = shapeCast S8x256x1x1 (transpose S8x256 [1, 0]
          (val_main_v44 (F := F) (m ((c.tc : Thread nD τ).loc main_arg1)) (m ((c.tc : Thread nD τ).loc main_arg2)) (m ((c.tc : Thread nD τ).loc main_arg3)))
          transposes_S256x8_S8x256_1_0) shapeCasts_S8x256_S8x256x1x1 := by
  dsimp only [atLaunch]
  simp only [hostOps0, hostOps0_1, hostOps0_2, List.flatten_cons, List.flatten_nil, List.append_nil, List.cons_append, List.nil_append]
  after_results_simp <;> rfl

/-- The slopes as the launch finds them. -/
theorem slopes_at_launch (c : Dev nD) :
    (atLaunch m c main_v28 : S8x256x1x1.Idx → Elt F .f32)
      = shapeCast S8x256x1x1 (transpose S8x256 [1, 0]
          (val_main_v15 (F := F) (m ((c.tc : Thread nD τ).loc main_arg1)) (m ((c.tc : Thread nD τ).loc main_arg2)) (m ((c.tc : Thread nD τ).loc main_arg3)) (m ((c.tc : Thread nD τ).loc main_arg4)))
          transposes_S256x8_S8x256_1_0) shapeCasts_S8x256_S8x256x1x1 := by
  dsimp only [atLaunch]
  simp only [hostOps0, hostOps0_1, hostOps0_2, List.flatten_cons, List.flatten_nil, List.append_nil, List.cons_append, List.nil_append]
  after_results_simp <;> rfl

/-! ## The kernel's result at an element, over the tables -/

/-- A per-channel array with two unit axes, read at the channel of element `i`. -/
theorem column_at {α : Type} (L : Cert.ReferenceIdeal.S256.Idx → α) (i : S32x256x56x56.Idx) :
    shapeCast S256x1x1 L shapeCasts_S256_S256x1x1 (channelOf i) = L (chan i) :=
  shapeCast_apply L shapeCasts_S256_S256x1x1 (channelOf i) (chan i)
    (by rewrite [Shape.rowMajor_val_one, Shape.rowMajor_val_three]; show (i 1).val = ((i 1).val * 1 + 0) * 1 + 0; omega)

/-- A table transposed and given two unit axes, read at entry `k` of the channel of element `i`. -/
theorem entry_at {α : Type} (P : Cert.ReferenceIdeal.S256x8.Idx → α) (k : Fin 8) (i : S32x256x56x56.Idx) :
    shapeCast S8x256x1x1 (transpose S8x256 [1, 0] P transposes_S256x8_S8x256_1_0) shapeCasts_S8x256_S8x256x1x1 (entryOf k i)
      = P (tableEntry i k) := by
  have h1 : (i 1).val < 256 := (i 1).isLt
  refine (shapeCast_apply _ shapeCasts_S8x256_S8x256x1x1 (entryOf k i)
    (fun a => match a with | ⟨0, _⟩ => ⟨k.val, k.isLt⟩ | ⟨1, _⟩ => ⟨(i 1).val, h1⟩)
    (by rewrite [Shape.rowMajor_val_two, Shape.rowMajor_val_four]; show k.val * 256 + (i 1).val = ((k.val * 256 + (i 1).val) * 1 + 0) * 1 + 0; omega)).trans ?_
  exact transpose_apply [1, 0] P transposes_S256x8_S8x256_1_0 _ (tableEntry i k) (fun b => match b with
    | ⟨0, _⟩ => rfl
    | ⟨1, _⟩ => rfl)

/-- The kernel's whole-array function over the reference's tables: element `i` is the cell with the scale
    `len * 7`. -/
theorem kernel_at (X : S32x256x56x56.Idx → F .f32) (L LO : Cert.ReferenceIdeal.S256.Idx → F .f32)
    (P S : Cert.ReferenceIdeal.S256x8.Idx → F .f32) (i : S32x256x56x56.Idx) :
    wholeResult X (shapeCast S256x1x1 L shapeCasts_S256_S256x1x1) (shapeCast S256x1x1 LO shapeCasts_S256_S256x1x1)
        (shapeCast S8x256x1x1 (transpose S8x256 [1, 0] P transposes_S256x8_S8x256_1_0) shapeCasts_S8x256_S8x256x1x1)
        (shapeCast S8x256x1x1 (transpose S8x256 [1, 0] S transposes_S256x8_S8x256_1_0) shapeCasts_S8x256_S8x256x1x1) i
      = Pwlu.cell (FloatOps.mulf (L (chan i)) Pwlu.seven) (X i) (L (chan i)) (LO (chan i))
          (fun k => P (tableEntry i k)) (fun k => S (tableEntry i k)) := by
  unfold wholeResult
  rw [column_at L i, column_at LO i]
  simp only [entry_at P _ i, entry_at S _ i]

/-! ## One function -/

/-- Over the extended reals, from arguments that agree, the kernel's result array and the reference's are equal. -/
theorem results_agree (m : (ℓ : Loc nD τ sig) → Buf (Elt Ideal) ℓ) (c : Dev nD)
    (y0 : (⟨Cert.ReferenceIdeal.S32x256x56x56, .f32⟩ : BufTy).Contents (Elt Ideal)) (y1 : (⟨Cert.ReferenceIdeal.S256x7, .f32⟩ : BufTy).Contents (Elt Ideal))
    (y2 : (⟨Cert.ReferenceIdeal.S256x2, .f32⟩ : BufTy).Contents (Elt Ideal)) (y3 y4 : (⟨Cert.ReferenceIdeal.S256, .f32⟩ : BufTy).Contents (Elt Ideal))
    (h0 : y0 = m ((c.tc : Thread nD τ).loc main_arg0)) (h1 : y1 = m ((c.tc : Thread nD τ).loc main_arg1))
    (h2 : y2 = m ((c.tc : Thread nD τ).loc main_arg2)) (h3 : y3 = m ((c.tc : Thread nD τ).loc main_arg3))
    (h4 : y4 = m ((c.tc : Thread nD τ).loc main_arg4)) :
    val_main_v51 (F := Ideal) y0 y1 y2 y3 y4
      = wholeResult (F := Ideal) (atLaunch m c main_arg0) (atLaunch m c main_v23) (atLaunch m c main_v24) (atLaunch m c main_v26) (atLaunch m c main_v28) := by
  subst h0 h1 h2 h3 h4
  funext i
  rw [lengths_at_launch, bounds_at_launch, points_at_launch, slopes_at_launch, kernel_at, Cert.ReferenceIdeal.AtElement.reference_at,
    atLaunch_arg0, Pwlu.scale_comm]

end Cert.Bridge
end
-- ==== Proof.lean ====
/-
  The piecewise-linear unit, kernel against reference, over the extended reals.

  Both programs take an input [32, 256, 56, 56] and, per channel, seven points, two bounds and two outer slopes. Per
  channel they form the region length `len = (right - left) / 6`, the left bound shifted one region to the left,
  eight left points (the point left of the left bound, then the seven points) and eight slopes (the outer left
  slope, the six inner slopes, the outer right slope). An element `x` of channel `c` is normalized to
  `xn = (x - lo) / (7 len)`; its region is `r = floor (7 * min 1.001 (max 0 xn))`; and the result is
  `point r + (7 xn - r) * len * slope r`.

  The kernel does this block by block over a grid of (2 channel chunks) x (32 images), taking the two table
  entries by eight selects on `r = k`; the reference does it on whole arrays with the channel axis moved first,
  taking the entries by a bounds-checked gather. The three frames: the kernel's two (at the machine's words and
  at the extended reals) by running the body once at a symbolic grid point and launching it over the grid; the
  reference's from its run. The values: every grid point writes back its block of one whole-array function, the
  blocks cover the result; the reference's stages are read one operation at a time at an element; both are the
  same cell function of the same entries, up to the order of the product `7 len`, which commutes. The region index
  is always one of 0 … 7 — the clipped position lies in [0, 1.001] whatever the position is — so the selects and
  the gather read the same entry, and no finiteness of the inputs is needed.
-/
import proofs.«114911_j23742579212531_2_alg».proof.Defs
import proofs.«114911_j23742579212531_2_alg».proof.Proof.Gen.Kernel
import proofs.«114911_j23742579212531_2_alg».proof.Proof.Gen.KernelIdeal
import proofs.«114911_j23742579212531_2_alg».proof.Proof.Gen.ReferenceIdeal
import proofs.«114911_j23742579212531_2_alg».proof.Proof.Gen.Pre_finite_inputs
import proofs.«114911_j23742579212531_2_alg».proof.Proof.KernelFrame
import proofs.«114911_j23742579212531_2_alg».proof.Proof.KernelIdealFrame
import proofs.«114911_j23742579212531_2_alg».proof.Proof.KernelIdealValue
import proofs.«114911_j23742579212531_2_alg».proof.Proof.RefRun
import proofs.«114911_j23742579212531_2_alg».proof.Proof.Bridge
import Idealize.ShloMosaic.Adequacy
import Idealize.ShloMosaic.Init

noncomputable section

namespace Cert.Proof

open Idealize.ShloMosaic Idealize.SL.Sem

/-- The kernel's program at the machine's words runs to the end and leaves its arguments unchanged. -/
theorem frame_kernel : Cert.frame_Kernel := fun m ρ _ => Cert.Kernel.Frame.args_kept m ρ

/-- The same program read over the extended reals does too. -/
theorem frame_kernel_ideal : Cert.frame_KernelIdeal := fun m ρ _ => Cert.KernelIdeal.Frame.args_kept m ρ

/-- The reference runs to the end and leaves its arguments unchanged: its run, the result forgotten. -/
theorem frame_reference : Cert.frame_ReferenceIdeal := fun m ρ _ =>
  (θ_run Cert.ReferenceIdeal.defs _ _).mono (fun _ h c => (h c).2) (Cert.ReferenceIdeal.StagedRun.run (F := Ideal) m ρ)

/-- The idealization rewrote nothing. -/
theorem preserves : Cert.preserves_Kernel_KernelIdeal := trivial

/-- From arguments that agree both programs end with the same result array: the kernel's is the whole-array cell
    function of its staged arrays, the reference's its last stage, and the two are one function. -/
theorem algebraic : Cert.algebraic_KernelIdeal_ReferenceIdeal := by
  intro m ρ m' ρ' _ hagree
  refine ⟨_, Cert.KernelIdeal.Result.run_result (F := Ideal) m ρ, ?_⟩
  refine (θ_run Cert.ReferenceIdeal.defs _ _).mono (fun _ h c => ⟨(h c).1.trans ?_, (h c).2⟩)
    (Cert.ReferenceIdeal.StagedRun.run (F := Ideal) m' ρ')
  exact Cert.Bridge.results_agree m c _ _ _ _ _ (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
